-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256x25 : Shape := ⟨3, ![8192, 256, 25]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1600x64 : Shape := ⟨2, ![1600, 64]⟩
abbrev S64x1 : Shape := ⟨2, ![64, 1]⟩
abbrev S1 : Shape := ⟨1, ![1]⟩
abbrev S75 : Shape := ⟨1, ![75]⟩
abbrev S_ : Shape := ⟨0, ![]⟩

class Facts : Prop where
  bcast_S_S8192x256x25 : S_.BroadcastsInDim S8192x256x25 (![] : Fin 0 → Fin S8192x256x25.rank)
  reducesTo_S8192x256x25_S_d0_1_2 : S8192x256x25.ReducesTo [0, 1, 2] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S1600x64 : S_.BroadcastsInDim S1600x64 (![] : Fin 0 → Fin S1600x64.rank)
  reducesTo_S1600x64_S_d0_1 : S1600x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S75 : S_.BroadcastsInDim S75 (![] : Fin 0 → Fin S75.rank)
  reducesTo_S75_S_d0 : S75.ReducesTo [0] S_

variable [Facts]

def fn_part2 {F : FTy → Type} [FloatOps F] (main_arg7 : FVec F S64x1 .f32) (main_arg8 : FVec F S1 .f32) (main_arg9 : IVec S75 32) (main_v33 : IVec S_ 1) : IVec S_ 1 :=
  let main_v34 : FVec F S64x1 .f32 := Host.absf main_arg7
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_c_16 : IVec S_ 32 := constantI S_ 32 0#32
  let main_v44 : IVec S75 32 := broadcastInDim S75 ![] bcast_S_S75 main_c_16
  let main_v45 : IVec S75 1 := cmpi .sge main_arg9 main_v44
  let main_c_17 : IVec S_ 32 := constantI S_ 32 25#32
  let main_v46 : IVec S75 32 := broadcastInDim S75 ![] bcast_S_S75 main_c_17
  let main_v47 : IVec S75 1 := cmpi .slt main_arg9 main_v46
  let main_v48 : IVec S75 1 := andi main_v45 main_v47
  let main_c_18 : IVec S_ 1 := constantI S_ 1 1#1
  let main_v49 : IVec S_ 1 := (fun x v => Host.reduce IntOp.andi x v reducesTo_S75_S_d0 h_S_) main_v48 main_c_18
  let main_v50 : IVec S_ 1 := andi main_v43 main_v49
  main_v50

def fn_part1 {F : FTy → Type} [FloatOps F] (main_arg4 : FVec F S64 .f32) (main_arg5 : FVec F S1600x64 .f32) (main_arg6 : FVec F S64 .f32) (main_arg7 : FVec F S64x1 .f32) (main_arg8 : FVec F S1 .f32) (main_arg9 : IVec S75 32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S1600x64 .f32 := Host.absf main_arg5
  let main_cst_8 : FVec F S_ .f32 := constant S_ .f32 0x7F800000#32
  let main_v25 : FVec F S1600x64 .f32 := broadcastInDim S1600x64 ![] bcast_S_S1600x64 main_cst_8
  let main_v26 : IVec S1600x64 1 := cmpf .olt main_v24 main_v25
  let main_c_9 : IVec S_ 1 := constantI S_ 1 1#1
  let main_v27 : IVec S_ 1 := (fun x v => Host.reduce IntOp.andi x v reducesTo_S1600x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_v33

def fn {F : FTy → Type} [FloatOps F] (main_arg0 : FVec F S8192x256x25 .f32) (main_arg1 : FVec F S256x128 .f32) (main_arg2 : FVec F S128 .f32) (main_arg3 : FVec F S128x64 .f32) (main_arg4 : FVec F S64 .f32) (main_arg5 : FVec F S1600x64 .f32) (main_arg6 : FVec F S64 .f32) (main_arg7 : FVec F S64x1 .f32) (main_arg8 : FVec F S1 .f32) (main_arg9 : IVec S75 32) (main_arg10 : IVec S75 32) : IVec S_ 1 :=
  let main_v0 : FVec F S8192x256x25 .f32 := Host.absf main_arg0
  let main_cst : FVec F S_ .f32 := constant S_ .f32 0x7F800000#32
  let main_v1 : FVec F S8192x256x25 .f32 := broadcastInDim S8192x256x25 ![] bcast_S_S8192x256x25 main_cst
  let main_v2 : IVec S8192x256x25 1 := cmpf .olt main_v0 main_v1
  let main_c : IVec S_ 1 := constantI S_ 1 1#1
  let main_v3 : IVec S_ 1 := (fun x v => Host.reduce IntOp.andi x v reducesTo_S8192x256x25_S_d0_1_2 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_arg7 main_arg8 main_arg9 main_v13 main_v16
-- ==== Kernel.lean ====
abbrev S8192x256x25 : Shape := ⟨3, ![8192, 256, 25]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1600x64 : Shape := ⟨2, ![1600, 64]⟩
abbrev S64x1 : Shape := ⟨2, ![64, 1]⟩
abbrev S1 : Shape := ⟨1, ![1]⟩
abbrev S75 : Shape := ⟨1, ![75]⟩
abbrev S1x128 : Shape := ⟨2, ![1, 128]⟩
abbrev S1x64 : Shape := ⟨2, ![1, 64]⟩
abbrev S1x1 : Shape := ⟨2, ![1, 1]⟩
abbrev S8192x1 : Shape := ⟨2, ![8192, 1]⟩
abbrev S1x256x25 : Shape := ⟨3, ![1, 256, 25]⟩
abbrev S256x25 : Shape := ⟨2, ![256, 25]⟩
abbrev S25x256 : Shape := ⟨2, ![25, 256]⟩
abbrev S25x128 : Shape := ⟨2, ![25, 128]⟩
abbrev S_ : Shape := ⟨0, ![]⟩
abbrev S25 : Shape := ⟨1, ![25]⟩
abbrev S75x1 : Shape := ⟨2, ![75, 1]⟩
abbrev S75x128 : Shape := ⟨2, ![75, 128]⟩
abbrev S25x64 : Shape := ⟨2, ![25, 64]⟩
abbrev S75x64 : Shape := ⟨2, ![75, 64]⟩
abbrev S1x1600 : Shape := ⟨2, ![1, 1600]⟩
abbrev S8192x1x1 : Shape := ⟨3, ![8192, 1, 1]⟩
abbrev S64x256x25 : Shape := ⟨3, ![64, 256, 25]⟩
abbrev S64x25x256 : Shape := ⟨3, ![64, 25, 256]⟩
abbrev S1600x256 : Shape := ⟨2, ![1600, 256]⟩
abbrev S1600x128 : Shape := ⟨2, ![1600, 128]⟩
abbrev S64x1600 : Shape := ⟨2, ![64, 1600]⟩
abbrev S64x64 : Shape := ⟨2, ![64, 64]⟩

abbrev nBuf : Space → Nat
  | .hbm => 114
  | .vmem => 12
  | .smem => 0
  | _ => 0

abbrev bufTy : (tb : Table) → Fin (tcTables nBuf tb) → BufTy
  | .hbm, ⟨0, _⟩ => ⟨S8192x256x25, .f32⟩
  | .hbm, ⟨1, _⟩ => ⟨S256x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S1600x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S75, .i32⟩
  | .hbm, ⟨10, _⟩ => ⟨S75, .i32⟩
  | .hbm, ⟨11, _⟩ => ⟨S256x128, .bf16⟩
  | .hbm, ⟨12, _⟩ => ⟨S128x64, .bf16⟩
  | .hbm, ⟨13, _⟩ => ⟨S1600x64, .bf16⟩
  | .hbm, ⟨14, _⟩ => ⟨S64x1, .bf16⟩
  | .hbm, ⟨15, _⟩ => ⟨S1x128, .f32⟩
  | .hbm, ⟨16, _⟩ => ⟨S1x64, .f32⟩
  | .hbm, ⟨17, _⟩ => ⟨S1x64, .f32⟩
  | .hbm, ⟨18, _⟩ => ⟨S1x1, .f32⟩
  | .hbm, ⟨19, _⟩ => ⟨S8192x1, .f32⟩
  | .hbm, ⟨20, _⟩ => ⟨S1x256x25, .f32⟩
  | .hbm, ⟨21, _⟩ => ⟨S256x25, .f32⟩
  | .hbm, ⟨22, _⟩ => ⟨S25x256, .f32⟩
  | .hbm, ⟨23, _⟩ => ⟨S25x128, .f32⟩
  | .hbm, ⟨24, _⟩ => ⟨S_, .f32⟩
  | .hbm, ⟨25, _⟩ => ⟨S25, .f32⟩
  | .hbm, ⟨26, _⟩ => ⟨S_, .i32⟩
  | .hbm, ⟨27, _⟩ => ⟨S75, .i32⟩
  | .hbm, ⟨28, _⟩ => ⟨S75, .i1⟩
  | .hbm, ⟨29, _⟩ => ⟨S_, .i32⟩
  | .hbm, ⟨30, _⟩ => ⟨S75, .i32⟩
  | .hbm, ⟨31, _⟩ => ⟨S75, .i32⟩
  | .hbm, ⟨32, _⟩ => ⟨S75, .i32⟩
  | .hbm, ⟨33, _⟩ => ⟨S75x1, .i32⟩
  | .hbm, ⟨34, _⟩ => ⟨S_, .f32⟩
  | .hbm, ⟨35, _⟩ => ⟨S75, .f32⟩
  | .hbm, ⟨36, _⟩ => ⟨S25, .f32⟩
  | .hbm, ⟨37, _⟩ => ⟨S_, .i32⟩
  | .hbm, ⟨38, _⟩ => ⟨S75, .i32⟩
  | .hbm, ⟨39, _⟩ => ⟨S75, .i1⟩
  | .hbm, ⟨40, _⟩ => ⟨S_, .i32⟩
  | .hbm, ⟨41, _⟩ => ⟨S75, .i32⟩
  | .hbm, ⟨42, _⟩ => ⟨S75, .i32⟩
  | .hbm, ⟨43, _⟩ => ⟨S75, .i32⟩
  | .hbm, ⟨44, _⟩ => ⟨S75x1, .i32⟩
  | .hbm, ⟨45, _⟩ => ⟨S75, .f32⟩
  | .hbm, ⟨46, _⟩ => ⟨S_, .i32⟩
  | .hbm, ⟨47, _⟩ => ⟨S75, .i32⟩
  | .hbm, ⟨48, _⟩ => ⟨S75, .i1⟩
  | .hbm, ⟨49, _⟩ => ⟨S_, .i32⟩
  | .hbm, ⟨50, _⟩ => ⟨S75, .i32⟩
  | .hbm, ⟨51, _⟩ => ⟨S75, .i32⟩
  | .hbm, ⟨52, _⟩ => ⟨S75, .i32⟩
  | .hbm, ⟨53, _⟩ => ⟨S75x1, .i32⟩
  | .hbm, ⟨54, _⟩ => ⟨S75, .f32⟩
  | .hbm, ⟨55, _⟩ => ⟨S75, .f32⟩
  | .hbm, ⟨56, _⟩ => ⟨S75, .f32⟩
  | .hbm, ⟨57, _⟩ => ⟨S75x1, .f32⟩
  | .hbm, ⟨58, _⟩ => ⟨S_, .i32⟩
  | .hbm, ⟨59, _⟩ => ⟨S75, .i32⟩
  | .hbm, ⟨60, _⟩ => ⟨S75, .i1⟩
  | .hbm, ⟨61, _⟩ => ⟨S_, .i32⟩
  | .hbm, ⟨62, _⟩ => ⟨S75, .i32⟩
  | .hbm, ⟨63, _⟩ => ⟨S75, .i32⟩
  | .hbm, ⟨64, _⟩ => ⟨S75, .i32⟩
  | .hbm, ⟨65, _⟩ => ⟨S75x1, .i32⟩
  | .hbm, ⟨66, _⟩ => ⟨S75x128, .f32⟩
  | .hbm, ⟨67, _⟩ => ⟨S75x128, .f32⟩
  | .hbm, ⟨68, _⟩ => ⟨S75x128, .f32⟩
  | .hbm, ⟨69, _⟩ => ⟨S_, .f32⟩
  | .hbm, ⟨70, _⟩ => ⟨S25x128, .f32⟩
  | .hbm, ⟨71, _⟩ => ⟨S75x1, .i32⟩
  | .hbm, ⟨72, _⟩ => ⟨S25x128, .f32⟩
  | .hbm, ⟨73, _⟩ => ⟨S1x128, .f32⟩
  | .hbm, ⟨74, _⟩ => ⟨S25x128, .f32⟩
  | .hbm, ⟨75, _⟩ => ⟨S25x128, .f32⟩
  | .hbm, ⟨76, _⟩ => ⟨S_, .f32⟩
  | .hbm, ⟨77, _⟩ => ⟨S25x128, .f32⟩
  | .hbm, ⟨78, _⟩ => ⟨S25x128, .f32⟩
  | .hbm, ⟨79, _⟩ => ⟨S25x64, .f32⟩
  | .hbm, ⟨80, _⟩ => ⟨S75x1, .f32⟩
  | .hbm, ⟨81, _⟩ => ⟨S_, .i32⟩
  | .hbm, ⟨82, _⟩ => ⟨S75, .i32⟩
  | .hbm, ⟨83, _⟩ => ⟨S75, .i1⟩
  | .hbm, ⟨84, _⟩ => ⟨S_, .i32⟩
  | .hbm, ⟨85, _⟩ => ⟨S75, .i32⟩
  | .hbm, ⟨86, _⟩ => ⟨S75, .i32⟩
  | .hbm, ⟨87, _⟩ => ⟨S75, .i32⟩
  | .hbm, ⟨88, _⟩ => ⟨S75x1, .i32⟩
  | .hbm, ⟨89, _⟩ => ⟨S75x64, .f32⟩
  | .hbm, ⟨90, _⟩ => ⟨S75x64, .f32⟩
  | .hbm, ⟨91, _⟩ => ⟨S75x64, .f32⟩
  | .hbm, ⟨92, _⟩ => ⟨S_, .f32⟩
  | .hbm, ⟨93, _⟩ => ⟨S25x64, .f32⟩
  | .hbm, ⟨94, _⟩ => ⟨S75x1, .i32⟩
  | .hbm, ⟨95, _⟩ => ⟨S25x64, .f32⟩
  | .hbm, ⟨96, _⟩ => ⟨S1x64, .f32⟩
  | .hbm, ⟨97, _⟩ => ⟨S25x64, .f32⟩
  | .hbm, ⟨98, _⟩ => ⟨S25x64, .f32⟩
  | .hbm, ⟨99, _⟩ => ⟨S1x1600, .f32⟩
  | .hbm, ⟨100, _⟩ => ⟨S1x64, .f32⟩
  | .hbm, ⟨101, _⟩ => ⟨S1x64, .f32⟩
  | .hbm, ⟨102, _⟩ => ⟨S1x64, .f32⟩
  | .hbm, ⟨103, _⟩ => ⟨S_, .f32⟩
  | .hbm, ⟨104, _⟩ => ⟨S1x64, .f32⟩
  | .hbm, ⟨105, _⟩ => ⟨S1x64, .f32⟩
  | .hbm, ⟨106, _⟩ => ⟨S1x1, .f32⟩
  | .hbm, ⟨107, _⟩ => ⟨S1x1, .f32⟩
  | .hbm, ⟨108, _⟩ => ⟨S1x1, .f32⟩
  | .hbm, ⟨109, _⟩ => ⟨S1, .f32⟩
  | .hbm, ⟨110, _⟩ => ⟨S_, .i32⟩
  | .hbm, ⟨111, _⟩ => ⟨S1, .i32⟩
  | .hbm, ⟨112, _⟩ => ⟨S8192x1, .f32⟩
  | .hbm, ⟨113, _⟩ => ⟨S8192x1x1, .f32⟩
  | .local _ .vmem, ⟨0, _⟩ => ⟨S64x256x25, .f32⟩
  | .local _ .vmem, ⟨1, _⟩ => ⟨S64x256x25, .f32⟩
  | .local _ .vmem, ⟨2, _⟩ => ⟨S256x128, .bf16⟩
  | .local _ .vmem, ⟨3, _⟩ => ⟨S1x128, .f32⟩
  | .local _ .vmem, ⟨4, _⟩ => ⟨S128x64, .bf16⟩
  | .local _ .vmem, ⟨5, _⟩ => ⟨S1x64, .f32⟩
  | .local _ .vmem, ⟨6, _⟩ => ⟨S1600x64, .bf16⟩
  | .local _ .vmem, ⟨7, _⟩ => ⟨S1x64, .f32⟩
  | .local _ .vmem, ⟨8, _⟩ => ⟨S64x1, .bf16⟩
  | .local _ .vmem, ⟨9, _⟩ => ⟨S1x1, .f32⟩
  | .local _ .vmem, ⟨10, _⟩ => ⟨S64x1, .f32⟩
  | .local _ .vmem, ⟨11, _⟩ => ⟨S64x1, .f32⟩
  | _, _ => ⟨S8192x256x25, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_cst : Ref sig .tc := ⟨.hbm, 24, rfl⟩
abbrev main_call0_v13 : Ref sig .tc := ⟨.hbm, 25, rfl⟩
abbrev main_call0_c : Ref sig .tc := ⟨.hbm, 26, rfl⟩
abbrev main_call0_v14 : Ref sig .tc := ⟨.hbm, 27, rfl⟩
abbrev main_call0_v15 : Ref sig .tc := ⟨.hbm, 28, rfl⟩
abbrev main_call0_c_0 : Ref sig .tc := ⟨.hbm, 29, rfl⟩
abbrev main_call0_v16 : Ref sig .tc := ⟨.hbm, 30, rfl⟩
abbrev main_call0_v17 : Ref sig .tc := ⟨.hbm, 31, rfl⟩
abbrev main_call0_v18 : Ref sig .tc := ⟨.hbm, 32, rfl⟩
abbrev main_call0_v19 : Ref sig .tc := ⟨.hbm, 33, rfl⟩
abbrev main_call0_cst_1 : Ref sig .tc := ⟨.hbm, 34, rfl⟩
abbrev main_call0_v20 : Ref sig .tc := ⟨.hbm, 35, rfl⟩
abbrev main_call0_v21 : Ref sig .tc := ⟨.hbm, 36, rfl⟩
abbrev main_call0_c_2 : Ref sig .tc := ⟨.hbm, 37, rfl⟩
abbrev main_call0_v22 : Ref sig .tc := ⟨.hbm, 38, rfl⟩
abbrev main_call0_v23 : Ref sig .tc := ⟨.hbm, 39, rfl⟩
abbrev main_call0_c_3 : Ref sig .tc := ⟨.hbm, 40, rfl⟩
abbrev main_call0_v24 : Ref sig .tc := ⟨.hbm, 41, rfl⟩
abbrev main_call0_v25 : Ref sig .tc := ⟨.hbm, 42, rfl⟩
abbrev main_call0_v26 : Ref sig .tc := ⟨.hbm, 43, rfl⟩
abbrev main_call0_v27 : Ref sig .tc := ⟨.hbm, 44, rfl⟩
abbrev main_call0_v28 : Ref sig .tc := ⟨.hbm, 45, rfl⟩
abbrev main_call0_c_4 : Ref sig .tc := ⟨.hbm, 46, rfl⟩
abbrev main_call0_v29 : Ref sig .tc := ⟨.hbm, 47, rfl⟩
abbrev main_call0_v30 : Ref sig .tc := ⟨.hbm, 48, rfl⟩
abbrev main_call0_c_5 : Ref sig .tc := ⟨.hbm, 49, rfl⟩
abbrev main_call0_v31 : Ref sig .tc := ⟨.hbm, 50, rfl⟩
abbrev main_call0_v32 : Ref sig .tc := ⟨.hbm, 51, rfl⟩
abbrev main_call0_v33 : Ref sig .tc := ⟨.hbm, 52, rfl⟩
abbrev main_call0_v34 : Ref sig .tc := ⟨.hbm, 53, rfl⟩
abbrev main_call0_v35 : Ref sig .tc := ⟨.hbm, 54, rfl⟩
abbrev main_call0_v36 : Ref sig .tc := ⟨.hbm, 55, rfl⟩
abbrev main_call0_v37 : Ref sig .tc := ⟨.hbm, 56, rfl⟩
abbrev main_call0_v38 : Ref sig .tc := ⟨.hbm, 57, rfl⟩
abbrev main_call0_c_6 : Ref sig .tc := ⟨.hbm, 58, rfl⟩
abbrev main_call0_v39 : Ref sig .tc := ⟨.hbm, 59, rfl⟩
abbrev main_call0_v40 : Ref sig .tc := ⟨.hbm, 60, rfl⟩
abbrev main_call0_c_7 : Ref sig .tc := ⟨.hbm, 61, rfl⟩
abbrev main_call0_v41 : Ref sig .tc := ⟨.hbm, 62, rfl⟩
abbrev main_call0_v42 : Ref sig .tc := ⟨.hbm, 63, rfl⟩
abbrev main_call0_v43 : Ref sig .tc := ⟨.hbm, 64, rfl⟩
abbrev main_call0_v44 : Ref sig .tc := ⟨.hbm, 65, rfl⟩
abbrev main_call0_v45 : Ref sig .tc := ⟨.hbm, 66, rfl⟩
abbrev main_call0_v46 : Ref sig .tc := ⟨.hbm, 67, rfl⟩
abbrev main_call0_v47 : Ref sig .tc := ⟨.hbm, 68, rfl⟩
abbrev main_call0_cst_8 : Ref sig .tc := ⟨.hbm, 69, rfl⟩
abbrev main_call0_v48 : Ref sig .tc := ⟨.hbm, 70, rfl⟩
abbrev main_call0_v49 : Ref sig .tc := ⟨.hbm, 71, rfl⟩
abbrev main_call0_v50 : Ref sig .tc := ⟨.hbm, 72, rfl⟩
abbrev main_call0_v51 : Ref sig .tc := ⟨.hbm, 73, rfl⟩
abbrev main_call0_v52 : Ref sig .tc := ⟨.hbm, 74, rfl⟩
abbrev main_call0_v53 : Ref sig .tc := ⟨.hbm, 75, rfl⟩
abbrev main_call0_call0_cst : Ref sig .tc := ⟨.hbm, 76, rfl⟩
abbrev main_call0_call0_v0 : Ref sig .tc := ⟨.hbm, 77, rfl⟩
abbrev main_call0_v54 : Ref sig .tc := ⟨.hbm, 78, rfl⟩
abbrev main_call0_v55 : Ref sig .tc := ⟨.hbm, 79, rfl⟩
abbrev main_call0_v56 : Ref sig .tc := ⟨.hbm, 80, rfl⟩
abbrev main_call0_c_9 : Ref sig .tc := ⟨.hbm, 81, rfl⟩
abbrev main_call0_v57 : Ref sig .tc := ⟨.hbm, 82, rfl⟩
abbrev main_call0_v58 : Ref sig .tc := ⟨.hbm, 83, rfl⟩
abbrev main_call0_c_10 : Ref sig .tc := ⟨.hbm, 84, rfl⟩
abbrev main_call0_v59 : Ref sig .tc := ⟨.hbm, 85, rfl⟩
abbrev main_call0_v60 : Ref sig .tc := ⟨.hbm, 86, rfl⟩
abbrev main_call0_v61 : Ref sig .tc := ⟨.hbm, 87, rfl⟩
abbrev main_call0_v62 : Ref sig .tc := ⟨.hbm, 88, rfl⟩
abbrev main_call0_v63 : Ref sig .tc := ⟨.hbm, 89, rfl⟩
abbrev main_call0_v64 : Ref sig .tc := ⟨.hbm, 90, rfl⟩
abbrev main_call0_v65 : Ref sig .tc := ⟨.hbm, 91, rfl⟩
abbrev main_call0_cst_11 : Ref sig .tc := ⟨.hbm, 92, rfl⟩
abbrev main_call0_v66 : Ref sig .tc := ⟨.hbm, 93, rfl⟩
abbrev main_call0_v67 : Ref sig .tc := ⟨.hbm, 94, rfl⟩
abbrev main_call0_v68 : Ref sig .tc := ⟨.hbm, 95, rfl⟩
abbrev main_call0_v69 : Ref sig .tc := ⟨.hbm, 96, rfl⟩
abbrev main_call0_v70 : Ref sig .tc := ⟨.hbm, 97, rfl⟩
abbrev main_call0_v71 : Ref sig .tc := ⟨.hbm, 98, rfl⟩
abbrev main_call0_v72 : Ref sig .tc := ⟨.hbm, 99, rfl⟩
abbrev main_call0_v73 : Ref sig .tc := ⟨.hbm, 100, rfl⟩
abbrev main_call0_v74 : Ref sig .tc := ⟨.hbm, 101, rfl⟩
abbrev main_call0_v75 : Ref sig .tc := ⟨.hbm, 102, rfl⟩
abbrev main_call0_call1_cst : Ref sig .tc := ⟨.hbm, 103, rfl⟩
abbrev main_call0_call1_v0 : Ref sig .tc := ⟨.hbm, 104, rfl⟩
abbrev main_call0_v76 : Ref sig .tc := ⟨.hbm, 105, rfl⟩
abbrev main_call0_v77 : Ref sig .tc := ⟨.hbm, 106, rfl⟩
abbrev main_call0_v78 : Ref sig .tc := ⟨.hbm, 107, rfl⟩
abbrev main_call0_v79 : Ref sig .tc := ⟨.hbm, 108, rfl⟩
abbrev main_call0_v80 : Ref sig .tc := ⟨.hbm, 109, rfl⟩
abbrev main_call0_c_12 : Ref sig .tc := ⟨.hbm, 110, rfl⟩
abbrev main_call0_v81 : Ref sig .tc := ⟨.hbm, 111, rfl⟩
abbrev main_call0_v82 : Ref sig .tc := ⟨.hbm, 112, rfl⟩
abbrev main_v0 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x256x25 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1600x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x1 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S64x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bitsLt_bf16_f32 : FTy.bits .bf16 < FTy.bits .f32
  shapeCasts_S128_S1x128 : S128.ShapeCasts S1x128
  shapeCasts_S64_S1x64 : S64.ShapeCasts S1x64
  shapeCasts_S1_S1x1 : S1.ShapeCasts S1x1
  slices_S8192x256x25_S1x256x25_0_0_0 : S8192x256x25.Slices ![0, 0, 0] S1x256x25
  shapeCasts_S1x256x25_S256x25 : S1x256x25.ShapeCasts S256x25
  transposes_S256x25_S25x256_1_0 : S256x25.Transposes [1, 0] S25x256
  bcast_S_S25 : S_.BroadcastsInDim S25 (![] : Fin 0 → Fin S25.rank)
  bcast_S_S75 : S_.BroadcastsInDim S75 (![] : Fin 0 → Fin S75.rank)
  bcast_S75_S75x1_0 : S75.BroadcastsInDim S75x1 (![0] : Fin 1 → Fin S75x1.rank)
  bcast_S75x1_S75x128_0_1 : S75x1.BroadcastsInDim S75x128 (![0, 1] : Fin 2 → Fin S75x128.rank)
  bcast_S_S25x128 : S_.BroadcastsInDim S25x128 (![] : Fin 0 → Fin S25x128.rank)
  bcast_S128_S1x128_1 : S128.BroadcastsInDim S1x128 (![1] : Fin 1 → Fin S1x128.rank)
  bcast_S1x128_S25x128_0_1 : S1x128.BroadcastsInDim S25x128 (![0, 1] : Fin 2 → Fin S25x128.rank)
  bcast_S75x1_S75x64_0_1 : S75x1.BroadcastsInDim S75x64 (![0, 1] : Fin 2 → Fin S75x64.rank)
  bcast_S_S25x64 : S_.BroadcastsInDim S25x64 (![] : Fin 0 → Fin S25x64.rank)
  bcast_S64_S1x64_1 : S64.BroadcastsInDim S1x64 (![1] : Fin 1 → Fin S1x64.rank)
  bcast_S1x64_S25x64_0_1 : S1x64.BroadcastsInDim S25x64 (![0, 1] : Fin 2 → Fin S25x64.rank)
  shapeCasts_S25x64_S1x1600 : S25x64.ShapeCasts S1x1600
  bcast_S_S1x64 : S_.BroadcastsInDim S1x64 (![] : Fin 0 → Fin S1x64.rank)
  bcast_S1_S1x1_1 : S1.BroadcastsInDim S1x1 (![1] : Fin 1 → Fin S1x1.rank)
  shapeCasts_S1x1_S1 : S1x1.ShapeCasts S1
  bcast_S_S1 : S_.BroadcastsInDim S1 (![] : Fin 0 → Fin S1.rank)
  bcast_S8192x1_S8192x1x1_0_1 : S8192x1.BroadcastsInDim S8192x1x1 (![0, 1] : Fin 2 → Fin S8192x1x1.rank)
  inb_S64x256x25_S64x256x25_0_0_0 : ∀ a, (![0, 0, 0] : Fin 3 → Nat) a + S64x256x25.size a ≤ S64x256x25.size a
  h_S64x256x25 : 0 < S64x256x25.numel
  transposes_S64x256x25_p0_2_1_S64x25x256 : S64x256x25.Transposes [0, 2, 1] S64x25x256
  shapeCasts_S64x25x256_S1600x256 : S64x25x256.ShapeCasts S1600x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1600x128 : S1x128.Broadcasts S1600x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1600x64 : S1x64.Broadcasts S1600x64
  shapeCasts_S1600x64_S64x1600 : S1600x64.ShapeCasts S64x1600
  inb_S1600x64_S1600x64_0_0 : ∀ a, (![0, 0] : Fin 2 → Nat) a + S1600x64.size a ≤ S1600x64.size a
  h_S1600x64 : 0 < S1600x64.numel
  shapeCasts_S1600x64_S1600x64 : S1600x64.ShapeCasts S1600x64
  broadcasts_S1x64_S64x64 : S1x64.Broadcasts S64x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x1 : S1x1.Broadcasts S64x1
  dot_S25x256_S256x128_S25x128_1_0_0_1_n_n_wf : DotDims.WF S25x256 S256x128 S25x128 [1] [0] [0] [1] [] []
  scatter_S25_S75x1_S75_n_0_0_1_wf : ScatterDims.WF S25 S75x1 S75 [] [0] [0] 1
  gather_S25_S75x1_S75_n_0_n_n_0_1_1_wf : GatherDims.WF S25 S75x1 S75 [] [0] [] [0] [] 1 ![1]
  gather_S25x128_S75x1_S75x128_1_0_n_n_0_1_1128_wf : GatherDims.WF S25x128 S75x1 S75x128 [1] [0] [] [0] [] 1 ![1, 128]
  scatter_S25x128_S75x1_S75x128_1_0_0_1_wf : ScatterDims.WF S25x128 S75x1 S75x128 [1] [0] [0] 1
  dot_S25x128_S128x64_S25x64_1_0_0_1_n_n_wf : DotDims.WF S25x128 S128x64 S25x64 [1] [0] [0] [1] [] []
  gather_S25x64_S75x1_S75x64_1_0_n_n_0_1_164_wf : GatherDims.WF S25x64 S75x1 S75x64 [1] [0] [] [0] [] 1 ![1, 64]
  scatter_S25x64_S75x1_S75x64_1_0_0_1_wf : ScatterDims.WF S25x64 S75x1 S75x64 [1] [0] [0] 1
  dot_S1x1600_S1600x64_S1x64_1_0_0_1_n_n_wf : DotDims.WF S1x1600 S1600x64 S1x64 [1] [0] [0] [1] [] []
  dot_S1x64_S64x1_S1x1_1_0_0_1_n_n_wf : DotDims.WF S1x64 S64x1 S1x1 [1] [0] [0] [1] [] []
  scatter_S8192x1_S1_S1_0_0_0_0_wf : ScatterDims.WF S8192x1 S1 S1 [0] [0] [0] 0
  dot_S1600x256_S256x128_S1600x128_1_0_0_1_n_n_wf : DotDims.WF S1600x256 S256x128 S1600x128 [1] [0] [0] [1] [] []
  dot_S1600x128_S128x64_S1600x64_1_0_0_1_n_n_wf : DotDims.WF S1600x128 S128x64 S1600x64 [1] [0] [0] [1] [] []
  dot_S64x1600_S1600x64_S64x64_1_0_0_1_n_n_wf : DotDims.WF S64x1600 S1600x64 S64x64 [1] [0] [0] [1] [] []
  dot_S64x64_S64x1_S64x1_1_0_0_1_n_n_wf : DotDims.WF S64x64 S64x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x256x25.size a ≤ S8192x256x25.size a
  hwx0_0 : ∀ i : grid0.Coords, EltTy.bits .f32 = 32 ∨ (Rect.block (s := S8192x256x25) S64x256x25.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .bf16 = 32 ∨ (Rect.block (s := S256x128) S256x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .bf16 = 32 ∨ (Rect.block (s := S128x64) S128x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1600x64.size a ≤ S1600x64.size a
  hwx0_5 : ∀ i : grid0.Coords, EltTy.bits .bf16 = 32 ∨ (Rect.block (s := S1600x64) S1600x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x1.size a ≤ S64x1.size a
  hwx0_7 : ∀ i : grid0.Coords, EltTy.bits .bf16 = 32 ∨ (Rect.block (s := S64x1) S64x1.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S64x1.size a ≤ S8192x1.size a
  hwx0_9 : ∀ i : grid0.Coords, EltTy.bits .f32 = 32 ∨ (Rect.block (s := S8192x1) S64x1.size (cc0_transform_9 i) (hinb0_9 i)).WholeWords (EltTy.packing .f32)

variable [Facts₀]

def dot_S25x256_S256x128_S25x128_1_0_0_1_n_n : DotDims S25x256 S256x128 S25x128 where
  lhsContracting := [1]
  rhsContracting := [0]
  lhsNonContracting := [0]
  rhsNonContracting := [1]
  lhsBatch := []
  rhsBatch := []
  wf := dot_S25x256_S256x128_S25x128_1_0_0_1_n_n_wf
def scatter_S25_S75x1_S75_n_0_0_1 : ScatterDims S25 S75x1 S75 where
  updateWindowDims := []
  insertedWindowDims := [0]
  scatterDimsToOperandDims := [0]
  indexVectorDim := 1
  wf := scatter_S25_S75x1_S75_n_0_0_1_wf
def gather_S25_S75x1_S75_n_0_n_n_0_1_1 : GatherDims S25 S75x1 S75 where
  offsetDims := []
  collapsedSliceDims := [0]
  operandBatchingDims := []
  startIndicesBatchingDims := []
  startIndexMap := [0]
  indexVectorDim := 1
  sliceSizes := ![1]
  wf := gather_S25_S75x1_S75_n_0_n_n_0_1_1_wf
def gather_S25x128_S75x1_S75x128_1_0_n_n_0_1_1128 : GatherDims S25x128 S75x1 S75x128 where
  offsetDims := [1]
  collapsedSliceDims := [0]
  operandBatchingDims := []
  startIndicesBatchingDims := []
  startIndexMap := [0]
  indexVectorDim := 1
  sliceSizes := ![1, 128]
  wf := gather_S25x128_S75x1_S75x128_1_0_n_n_0_1_1128_wf
def scatter_S25x128_S75x1_S75x128_1_0_0_1 : ScatterDims S25x128 S75x1 S75x128 where
  updateWindowDims := [1]
  insertedWindowDims := [0]
  scatterDimsToOperandDims := [0]
  indexVectorDim := 1
  wf := scatter_S25x128_S75x1_S75x128_1_0_0_1_wf
def dot_S25x128_S128x64_S25x64_1_0_0_1_n_n : DotDims S25x128 S128x64 S25x64 where
  lhsContracting := [1]
  rhsContracting := [0]
  lhsNonContracting := [0]
  rhsNonContracting := [1]
  lhsBatch := []
  rhsBatch := []
  wf := dot_S25x128_S128x64_S25x64_1_0_0_1_n_n_wf
def gather_S25x64_S75x1_S75x64_1_0_n_n_0_1_164 : GatherDims S25x64 S75x1 S75x64 where
  offsetDims := [1]
  collapsedSliceDims := [0]
  operandBatchingDims := []
  startIndicesBatchingDims := []
  startIndexMap := [0]
  indexVectorDim := 1
  sliceSizes := ![1, 64]
  wf := gather_S25x64_S75x1_S75x64_1_0_n_n_0_1_164_wf
def scatter_S25x64_S75x1_S75x64_1_0_0_1 : ScatterDims S25x64 S75x1 S75x64 where
  updateWindowDims := [1]
  insertedWindowDims := [0]
  scatterDimsToOperandDims := [0]
  indexVectorDim := 1
  wf := scatter_S25x64_S75x1_S75x64_1_0_0_1_wf
def dot_S1x1600_S1600x64_S1x64_1_0_0_1_n_n : DotDims S1x1600 S1600x64 S1x64 where
  lhsContracting := [1]
  rhsContracting := [0]
  lhsNonContracting := [0]
  rhsNonContracting := [1]
  lhsBatch := []
  rhsBatch := []
  wf := dot_S1x1600_S1600x64_S1x64_1_0_0_1_n_n_wf
def dot_S1x64_S64x1_S1x1_1_0_0_1_n_n : DotDims S1x64 S64x1 S1x1 where
  lhsContracting := [1]
  rhsContracting := [0]
  lhsNonContracting := [0]
  rhsNonContracting := [1]
  lhsBatch := []
  rhsBatch := []
  wf := dot_S1x64_S64x1_S1x1_1_0_0_1_n_n_wf
def scatter_S8192x1_S1_S1_0_0_0_0 : ScatterDims S8192x1 S1 S1 where
  updateWindowDims := [0]
  insertedWindowDims := [0]
  scatterDimsToOperandDims := [0]
  indexVectorDim := 0
  wf := scatter_S8192x1_S1_S1_0_0_0_0_wf
def dot_S1600x256_S256x128_S1600x128_1_0_0_1_n_n : DotDims S1600x256 S256x128 S1600x128 where
  lhsContracting := [1]
  rhsContracting := [0]
  lhsNonContracting := [0]
  rhsNonContracting := [1]
  lhsBatch := []
  rhsBatch := []
  wf := dot_S1600x256_S256x128_S1600x128_1_0_0_1_n_n_wf
def dot_S1600x128_S128x64_S1600x64_1_0_0_1_n_n : DotDims S1600x128 S128x64 S1600x64 where
  lhsContracting := [1]
  rhsContracting := [0]
  lhsNonContracting := [0]
  rhsNonContracting := [1]
  lhsBatch := []
  rhsBatch := []
  wf := dot_S1600x128_S128x64_S1600x64_1_0_0_1_n_n_wf
def dot_S64x1600_S1600x64_S64x64_1_0_0_1_n_n : DotDims S64x1600 S1600x64 S64x64 where
  lhsContracting := [1]
  rhsContracting := [0]
  lhsNonContracting := [0]
  rhsNonContracting := [1]
  lhsBatch := []
  rhsBatch := []
  wf := dot_S64x1600_S1600x64_S64x64_1_0_0_1_n_n_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

abbrev win0_0 : Pipeline.Window sig grid0 :=
  Pipeline.Window.ofSpec (Memref.whole main_arg0) S64x256x25.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v5) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v2) S1600x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v6) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v3) S64x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v7) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_call0_v8) S64x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8192x256x25 : Shape := ⟨3, ![8192, 256, 25]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1600x64 : Shape := ⟨2, ![1600, 64]⟩
abbrev S64x1 : Shape := ⟨2, ![64, 1]⟩
abbrev S1 : Shape := ⟨1, ![1]⟩
abbrev S75 : Shape := ⟨1, ![75]⟩
abbrev S8192x25x256 : Shape := ⟨3, ![8192, 25, 256]⟩
abbrev S204800x256 : Shape := ⟨2, ![204800, 256]⟩
abbrev S204800x128 : Shape := ⟨2, ![204800, 128]⟩
abbrev S_ : Shape := ⟨0, ![]⟩
abbrev S25 : Shape := ⟨1, ![25]⟩
abbrev S75x1 : Shape := ⟨2, ![75, 1]⟩
abbrev S75x128 : Shape := ⟨2, ![75, 128]⟩
abbrev S25x128 : Shape := ⟨2, ![25, 128]⟩
abbrev S204775x128 : Shape := ⟨2, ![204775, 128]⟩
abbrev S1x128 : Shape := ⟨2, ![1, 128]⟩
abbrev S204800x64 : Shape := ⟨2, ![204800, 64]⟩
abbrev S75x64 : Shape := ⟨2, ![75, 64]⟩
abbrev S25x64 : Shape := ⟨2, ![25, 64]⟩
abbrev S204775x64 : Shape := ⟨2, ![204775, 64]⟩
abbrev S1x64 : Shape := ⟨2, ![1, 64]⟩
abbrev S8192x1600 : Shape := ⟨2, ![8192, 1600]⟩
abbrev S8192x64 : Shape := ⟨2, ![8192, 64]⟩
abbrev S8192x1 : Shape := ⟨2, ![8192, 1]⟩
abbrev S1x1 : Shape := ⟨2, ![1, 1]⟩
abbrev S8192x1x1 : Shape := ⟨3, ![8192, 1, 1]⟩

abbrev nBuf : Space → Nat
  | .hbm => 139
  | .vmem => 0
  | .smem => 0
  | _ => 0

abbrev hbmTy0_0 (i : Nat) : BufTy := match i % 128 with
  | 0 => ⟨S8192x256x25, .f32⟩
  | 1 => ⟨S256x128, .f32⟩
  | 2 => ⟨S128, .f32⟩
  | 3 => ⟨S128x64, .f32⟩
  | 4 => ⟨S64, .f32⟩
  | 5 => ⟨S1600x64, .f32⟩
  | 6 => ⟨S64, .f32⟩
  | 7 => ⟨S64x1, .f32⟩
  | 8 => ⟨S1, .f32⟩
  | 9 => ⟨S75, .i32⟩
  | 10 => ⟨S75, .i32⟩
  | 11 => ⟨S8192x25x256, .f32⟩
  | 12 => ⟨S204800x256, .f32⟩
  | 13 => ⟨S204800x128, .f32⟩
  | 14 => ⟨S_, .f32⟩
  | 15 => ⟨S25, .f32⟩
  | 16 => ⟨S_, .i32⟩
  | 17 => ⟨S75, .i32⟩
  | 18 => ⟨S75, .i1⟩
  | 19 => ⟨S_, .i32⟩
  | 20 => ⟨S75, .i32⟩
  | 21 => ⟨S75, .i32⟩
  | 22 => ⟨S75, .i32⟩
  | 23 => ⟨S75x1, .i32⟩
  | 24 => ⟨S_, .f32⟩
  | 25 => ⟨S75, .f32⟩
  | 26 => ⟨S25, .f32⟩
  | 27 => ⟨S_, .i32⟩
  | 28 => ⟨S75, .i32⟩
  | 29 => ⟨S75, .i1⟩
  | 30 => ⟨S_, .i32⟩
  | 31 => ⟨S75, .i32⟩
  | 32 => ⟨S75, .i32⟩
  | 33 => ⟨S75, .i32⟩
  | 34 => ⟨S75x1, .i32⟩
  | 35 => ⟨S75, .f32⟩
  | 36 => ⟨S_, .i32⟩
  | 37 => ⟨S75, .i32⟩
  | 38 => ⟨S75, .i1⟩
  | 39 => ⟨S_, .i32⟩
  | 40 => ⟨S75, .i32⟩
  | 41 => ⟨S75, .i32⟩
  | 42 => ⟨S75, .i32⟩
  | 43 => ⟨S75x1, .i32⟩
  | 44 => ⟨S75, .f32⟩
  | 45 => ⟨S75, .f32⟩
  | 46 => ⟨S75, .f32⟩
  | 47 => ⟨S75x1, .f32⟩
  | 48 => ⟨S_, .i32⟩
  | 49 => ⟨S75, .i32⟩
  | 50 => ⟨S75, .i1⟩
  | 51 => ⟨S_, .i32⟩
  | 52 => ⟨S75, .i32⟩
  | 53 => ⟨S75, .i32⟩
  | 54 => ⟨S75, .i32⟩
  | 55 => ⟨S75x1, .i32⟩
  | 56 => ⟨S75x128, .f32⟩
  | 57 => ⟨S75x128, .f32⟩
  | 58 => ⟨S75x128, .f32⟩
  | 59 => ⟨S_, .f32⟩
  | 60 => ⟨S25x128, .f32⟩
  | 61 => ⟨S75x1, .i32⟩
  | 62 => ⟨S25x128, .f32⟩
  | 63 => ⟨S204775x128, .f32⟩
  | 64 => ⟨S204800x128, .f32⟩
  | 65 => ⟨S1x128, .f32⟩
  | 66 => ⟨S204800x128, .f32⟩
  | 67 => ⟨S204800x128, .f32⟩
  | 68 => ⟨S_, .f32⟩
  | 69 => ⟨S204800x128, .f32⟩
  | 70 => ⟨S204800x128, .f32⟩
  | 71 => ⟨S204800x64, .f32⟩
  | 72 => ⟨S_, .f32⟩
  | 73 => ⟨S25, .f32⟩
  | 74 => ⟨S_, .i32⟩
  | 75 => ⟨S75, .i32⟩
  | 76 => ⟨S75, .i1⟩
  | 77 => ⟨S_, .i32⟩
  | 78 => ⟨S75, .i32⟩
  | 79 => ⟨S75, .i32⟩
  | 80 => ⟨S75, .i32⟩
  | 81 => ⟨S75x1, .i32⟩
  | 82 => ⟨S_, .f32⟩
  | 83 => ⟨S75, .f32⟩
  | 84 => ⟨S25, .f32⟩
  | 85 => ⟨S_, .i32⟩
  | 86 => ⟨S75, .i32⟩
  | 87 => ⟨S75, .i1⟩
  | 88 => ⟨S_, .i32⟩
  | 89 => ⟨S75, .i32⟩
  | 90 => ⟨S75, .i32⟩
  | 91 => ⟨S75, .i32⟩
  | 92 => ⟨S75x1, .i32⟩
  | 93 => ⟨S75, .f32⟩
  | 94 => ⟨S_, .i32⟩
  | 95 => ⟨S75, .i32⟩
  | 96 => ⟨S75, .i1⟩
  | 97 => ⟨S_, .i32⟩
  | 98 => ⟨S75, .i32⟩
  | 99 => ⟨S75, .i32⟩
  | 100 => ⟨S75, .i32⟩
  | 101 => ⟨S75x1, .i32⟩
  | 102 => ⟨S75, .f32⟩
  | 103 => ⟨S75, .f32⟩
  | 104 => ⟨S75, .f32⟩
  | 105 => ⟨S75x1, .f32⟩
  | 106 => ⟨S_, .i32⟩
  | 107 => ⟨S75, .i32⟩
  | 108 => ⟨S75, .i1⟩
  | 109 => ⟨S_, .i32⟩
  | 110 => ⟨S75, .i32⟩
  | 111 => ⟨S75, .i32⟩
  | 112 => ⟨S75, .i32⟩
  | 113 => ⟨S75x1, .i32⟩
  | 114 => ⟨S75x64, .f32⟩
  | 115 => ⟨S75x64, .f32⟩
  | 116 => ⟨S75x64, .f32⟩
  | 117 => ⟨S_, .f32⟩
  | 118 => ⟨S25x64, .f32⟩
  | 119 => ⟨S75x1, .i32⟩
  | 120 => ⟨S25x64, .f32⟩
  | 121 => ⟨S204775x64, .f32⟩
  | 122 => ⟨S204800x64, .f32⟩
  | 123 => ⟨S1x64, .f32⟩
  | 124 => ⟨S204800x64, .f32⟩
  | 125 => ⟨S204800x64, .f32⟩
  | 126 => ⟨S8192x1600, .f32⟩
  | 127 => ⟨S8192x64, .f32⟩
  | _ => ⟨S8192x256x25, .f32⟩

abbrev hbmTy0_1 (i : Nat) : BufTy := match i % 128 with
  | 0 => ⟨S1x64, .f32⟩
  | 1 => ⟨S8192x64, .f32⟩
  | 2 => ⟨S8192x64, .f32⟩
  | 3 => ⟨S_, .f32⟩
  | 4 => ⟨S8192x64, .f32⟩
  | 5 => ⟨S8192x64, .f32⟩
  | 6 => ⟨S8192x1, .f32⟩
  | 7 => ⟨S1x1, .f32⟩
  | 8 => ⟨S8192x1, .f32⟩
  | 9 => ⟨S8192x1, .f32⟩
  | 10 => ⟨S8192x1x1, .f32⟩
  | _ => ⟨S8192x256x25, .f32⟩

abbrev hbmTy (i : Nat) : BufTy := match i / 128 with
  | 0 => hbmTy0_0 i
  | 1 => hbmTy0_1 i
  | _ => ⟨S8192x256x25, .f32⟩

abbrev bufTy : (tb : Table) → Fin (tcTables nBuf tb) → BufTy
  | .hbm, ⟨i, _⟩ => hbmTy i
  | _, _ => ⟨S8192x256x25, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_c_2 : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_c_5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_c_7 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_8 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_call0_cst : Ref sig .tc := ⟨.hbm, 68, rfl⟩
abbrev main_call0_v0 : Ref sig .tc := ⟨.hbm, 69, rfl⟩
abbrev main_v46 : Ref sig .tc := ⟨.hbm, 70, rfl⟩
abbrev main_v47 : Ref sig .tc := ⟨.hbm, 71, rfl⟩
abbrev main_cst_9 : Ref sig .tc := ⟨.hbm, 72, rfl⟩
abbrev main_v48 : Ref sig .tc := ⟨.hbm, 73, rfl⟩
abbrev main_c_10 : Ref sig .tc := ⟨.hbm, 74, rfl⟩
abbrev main_v49 : Ref sig .tc := ⟨.hbm, 75, rfl⟩
abbrev main_v50 : Ref sig .tc := ⟨.hbm, 76, rfl⟩
abbrev main_c_11 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_12 : Ref sig .tc := ⟨.hbm, 82, rfl⟩
abbrev main_v55 : Ref sig .tc := ⟨.hbm, 83, rfl⟩
abbrev main_v56 : Ref sig .tc := ⟨.hbm, 84, rfl⟩
abbrev main_c_13 : Ref sig .tc := ⟨.hbm, 85, rfl⟩
abbrev main_v57 : Ref sig .tc := ⟨.hbm, 86, rfl⟩
abbrev main_v58 : Ref sig .tc := ⟨.hbm, 87, rfl⟩
abbrev main_c_14 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_c_15 : Ref sig .tc := ⟨.hbm, 94, rfl⟩
abbrev main_v64 : Ref sig .tc := ⟨.hbm, 95, rfl⟩
abbrev main_v65 : Ref sig .tc := ⟨.hbm, 96, rfl⟩
abbrev main_c_16 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_c_17 : Ref sig .tc := ⟨.hbm, 106, rfl⟩
abbrev main_v74 : Ref sig .tc := ⟨.hbm, 107, rfl⟩
abbrev main_v75 : Ref sig .tc := ⟨.hbm, 108, rfl⟩
abbrev main_c_18 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_19 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_call1_cst : Ref sig .tc := ⟨.hbm, 131, rfl⟩
abbrev main_call1_v0 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩

abbrev nD : Nat := 1
abbrev τ : Topo := Topo.v7x

variable {F : FTy → Type} [FloatOps F]

class Facts₀ : Prop where
  transposes_S8192x256x25_S8192x25x256_0_2_1 : S8192x256x25.Transposes [0, 2, 1] S8192x25x256
  shapeCasts_S8192x25x256_S204800x256 : S8192x25x256.ShapeCasts S204800x256
  bcast_S_S25 : S_.BroadcastsInDim S25 (![] : Fin 0 → Fin S25.rank)
  bcast_S_S75 : S_.BroadcastsInDim S75 (![] : Fin 0 → Fin S75.rank)
  bcast_S75_S75x1_0 : S75.BroadcastsInDim S75x1 (![0] : Fin 1 → Fin S75x1.rank)
  bcast_S75x1_S75x128_0_1 : S75x1.BroadcastsInDim S75x128 (![0, 1] : Fin 2 → Fin S75x128.rank)
  bcast_S_S25x128 : S_.BroadcastsInDim S25x128 (![] : Fin 0 → Fin S25x128.rank)
  slices_S204800x128_S204775x128_25_0 : S204800x128.Slices ![25, 0] S204775x128
  concatenates_S25x128_S204775x128_S204800x128_d0 : Shape.Concatenates [S25x128, S204775x128] S204800x128 0
  bcast_S128_S1x128_1 : S128.BroadcastsInDim S1x128 (![1] : Fin 1 → Fin S1x128.rank)
  bcast_S1x128_S204800x128_0_1 : S1x128.BroadcastsInDim S204800x128 (![0, 1] : Fin 2 → Fin S204800x128.rank)
  bcast_S_S204800x128 : S_.BroadcastsInDim S204800x128 (![] : Fin 0 → Fin S204800x128.rank)
  bcast_S75x1_S75x64_0_1 : S75x1.BroadcastsInDim S75x64 (![0, 1] : Fin 2 → Fin S75x64.rank)
  bcast_S_S25x64 : S_.BroadcastsInDim S25x64 (![] : Fin 0 → Fin S25x64.rank)
  slices_S204800x64_S204775x64_25_0 : S204800x64.Slices ![25, 0] S204775x64
  concatenates_S25x64_S204775x64_S204800x64_d0 : Shape.Concatenates [S25x64, S204775x64] S204800x64 0
  bcast_S64_S1x64_1 : S64.BroadcastsInDim S1x64 (![1] : Fin 1 → Fin S1x64.rank)
  bcast_S1x64_S204800x64_0_1 : S1x64.BroadcastsInDim S204800x64 (![0, 1] : Fin 2 → Fin S204800x64.rank)
  shapeCasts_S204800x64_S8192x1600 : S204800x64.ShapeCasts S8192x1600
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  bcast_S8192x1_S8192x1x1_0_1 : S8192x1.BroadcastsInDim S8192x1x1 (![0, 1] : Fin 2 → Fin S8192x1x1.rank)
  dot_S204800x256_S256x128_S204800x128_1_0_0_1_n_n_wf : DotDims.WF S204800x256 S256x128 S204800x128 [1] [0] [0] [1] [] []
  scatter_S25_S75x1_S75_n_0_0_1_wf : ScatterDims.WF S25 S75x1 S75 [] [0] [0] 1
  gather_S25_S75x1_S75_n_0_n_n_0_1_1_wf : GatherDims.WF S25 S75x1 S75 [] [0] [] [0] [] 1 ![1]
  gather_S204800x128_S75x1_S75x128_1_0_n_n_0_1_1128_wf : GatherDims.WF S204800x128 S75x1 S75x128 [1] [0] [] [0] [] 1 ![1, 128]
  scatter_S25x128_S75x1_S75x128_1_0_0_1_wf : ScatterDims.WF S25x128 S75x1 S75x128 [1] [0] [0] 1
  dot_S204800x128_S128x64_S204800x64_1_0_0_1_n_n_wf : DotDims.WF S204800x128 S128x64 S204800x64 [1] [0] [0] [1] [] []
  gather_S204800x64_S75x1_S75x64_1_0_n_n_0_1_164_wf : GatherDims.WF S204800x64 S75x1 S75x64 [1] [0] [] [0] [] 1 ![1, 64]
  scatter_S25x64_S75x1_S75x64_1_0_0_1_wf : ScatterDims.WF S25x64 S75x1 S75x64 [1] [0] [0] 1
  dot_S8192x1600_S1600x64_S8192x64_1_0_0_1_n_n_wf : DotDims.WF S8192x1600 S1600x64 S8192x64 [1] [0] [0] [1] [] []
  dot_S8192x64_S64x1_S8192x1_1_0_0_1_n_n_wf : DotDims.WF S8192x64 S64x1 S8192x1 [1] [0] [0] [1] [] []

variable [Facts₀]

def dot_S204800x256_S256x128_S204800x128_1_0_0_1_n_n : DotDims S204800x256 S256x128 S204800x128 where
  lhsContracting := [1]
  rhsContracting := [0]
  lhsNonContracting := [0]
  rhsNonContracting := [1]
  lhsBatch := []
  rhsBatch := []
  wf := dot_S204800x256_S256x128_S204800x128_1_0_0_1_n_n_wf
def scatter_S25_S75x1_S75_n_0_0_1 : ScatterDims S25 S75x1 S75 where
  updateWindowDims := []
  insertedWindowDims := [0]
  scatterDimsToOperandDims := [0]
  indexVectorDim := 1
  wf := scatter_S25_S75x1_S75_n_0_0_1_wf
def gather_S25_S75x1_S75_n_0_n_n_0_1_1 : GatherDims S25 S75x1 S75 where
  offsetDims := []
  collapsedSliceDims := [0]
  operandBatchingDims := []
  startIndicesBatchingDims := []
  startIndexMap := [0]
  indexVectorDim := 1
  sliceSizes := ![1]
  wf := gather_S25_S75x1_S75_n_0_n_n_0_1_1_wf
def gather_S204800x128_S75x1_S75x128_1_0_n_n_0_1_1128 : GatherDims S204800x128 S75x1 S75x128 where
  offsetDims := [1]
  collapsedSliceDims := [0]
  operandBatchingDims := []
  startIndicesBatchingDims := []
  startIndexMap := [0]
  indexVectorDim := 1
  sliceSizes := ![1, 128]
  wf := gather_S204800x128_S75x1_S75x128_1_0_n_n_0_1_1128_wf
def scatter_S25x128_S75x1_S75x128_1_0_0_1 : ScatterDims S25x128 S75x1 S75x128 where
  updateWindowDims := [1]
  insertedWindowDims := [0]
  scatterDimsToOperandDims := [0]
  indexVectorDim := 1
  wf := scatter_S25x128_S75x1_S75x128_1_0_0_1_wf
def dot_S204800x128_S128x64_S204800x64_1_0_0_1_n_n : DotDims S204800x128 S128x64 S204800x64 where
  lhsContracting := [1]
  rhsContracting := [0]
  lhsNonContracting := [0]
  rhsNonContracting := [1]
  lhsBatch := []
  rhsBatch := []
  wf := dot_S204800x128_S128x64_S204800x64_1_0_0_1_n_n_wf
def gather_S204800x64_S75x1_S75x64_1_0_n_n_0_1_164 : GatherDims S204800x64 S75x1 S75x64 where
  offsetDims := [1]
  collapsedSliceDims := [0]
  operandBatchingDims := []
  startIndicesBatchingDims := []
  startIndexMap := [0]
  indexVectorDim := 1
  sliceSizes := ![1, 64]
  wf := gather_S204800x64_S75x1_S75x64_1_0_n_n_0_1_164_wf
def scatter_S25x64_S75x1_S75x64_1_0_0_1 : ScatterDims S25x64 S75x1 S75x64 where
  updateWindowDims := [1]
  insertedWindowDims := [0]
  scatterDimsToOperandDims := [0]
  indexVectorDim := 1
  wf := scatter_S25x64_S75x1_S75x64_1_0_0_1_wf
def dot_S8192x1600_S1600x64_S8192x64_1_0_0_1_n_n : DotDims S8192x1600 S1600x64 S8192x64 where
  lhsContracting := [1]
  rhsContracting := [0]
  lhsNonContracting := [0]
  rhsNonContracting := [1]
  lhsBatch := []
  rhsBatch := []
  wf := dot_S8192x1600_S1600x64_S8192x64_1_0_0_1_n_n_wf
def dot_S8192x64_S64x1_S8192x1_1_0_0_1_n_n : DotDims S8192x64 S64x1 S8192x1 where
  lhsContracting := [1]
  rhsContracting := [0]
  lhsNonContracting := [0]
  rhsNonContracting := [1]
  lhsBatch := []
  rhsBatch := []
  wf := dot_S8192x64_S64x1_S8192x1_1_0_0_1_n_n_wf

class Facts : Prop extends Facts₀ where

variable [Facts]
-- ==== Proof.KBody.lean ====
/-
  The body of the fused kernel, run once on whole staging buffers.

  At a grid point the body reads nine blocks — a 64×256×25 slab of the input, the four weight
  matrices and the four bias rows — and writes one 64×1 block: for each of the 64 batch rows the
  head's scalar, obtained by relaying the slab to 1600×256 (row 25·b + f holds x[b, ·, f]), three
  matrix products with a bias added after each and a maximum with zero after the first and the
  third, and a last product with a 64×1 column plus the scalar bias.  The block it writes is the
  one store's value over the nine blocks read; the old contents of the output buffer are read once
  and never used (the store covers the whole block).  This module states that as a triple: holding
  the nine input buffers at given contents and the output buffer at anything, the body returns
  holding the inputs as they were and the output at that value.
-/
import proofs.«157473_j46127948759115_2_alg».proof.Proof.Gen.Kernel.Launch
import proofs.«157473_j46127948759115_2_alg».proof.Proof.Gen.Kernel.Skeleton
import proofs.«157473_j46127948759115_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-block rectangles the body reads and writes through -/

abbrev rX : Rect S64x256x25 := Rect.unit (s := S64x256x25) ![0, 0, 0] S64x256x25.size inb_S64x256x25_S64x256x25_0_0_0
abbrev rW1 : Rect S256x128 := Rect.unit (s := S256x128) ![0, 0] S256x128.size inb_S256x128_S256x128_0_0
abbrev rB1 : Rect S1x128 := Rect.unit (s := S1x128) ![0, 0] S1x128.size inb_S1x128_S1x128_0_0
abbrev rW2 : Rect S128x64 := Rect.unit (s := S128x64) ![0, 0] S128x64.size inb_S128x64_S128x64_0_0
abbrev rB64 : Rect S1x64 := Rect.unit (s := S1x64) ![0, 0] S1x64.size inb_S1x64_S1x64_0_0
abbrev rWm1 : Rect S1600x64 := Rect.unit (s := S1600x64) ![0, 0] S1600x64.size inb_S1600x64_S1600x64_0_0
abbrev rCol : Rect S64x1 := Rect.unit (s := S64x1) ![0, 0] S64x1.size inb_S64x1_S64x1_0_0
abbrev rOne : Rect S1x1 := Rect.unit (s := S1x1) ![0, 0] S1x1.size inb_S1x1_S1x1_0_0

/-! ## What the body leaves in the output block -/

/-- The 64×1 block the body stores, as a function of the nine blocks it read: the head's value
    (the skeleton's second payload, the three layers) plus the broadcast scalar bias (its first). -/
def outBlk (x0 : Vec F S64x256x25 .f32) (x1 : Vec F S256x128 .bf16) (x2 : Vec F S1x128 .f32) (x3 : Vec F S128x64 .bf16)
    (x4 : Vec F S1x64 .f32) (x5 : Vec F S1600x64 .bf16) (x6 : Vec F S1x64 .f32) (x7 : Vec F S64x1 .bf16) (x8 : Vec F S1x1 .f32) :
    Vec F S64x1 .f32 :=
  View.canon [⟨rCol, k0_pay1 (k0_pay2 (View.ld x0 rX) (View.ld x1 rW1) (View.ld x2 rB1) (View.ld x3 rW2) (View.ld x4 rB64)
    (View.ld x5 rWm1) (View.ld x6 rB64) (View.ld x7 rCol)) (View.ld x8 rOne)⟩]

/-- The one store covers the block. -/
theorem outBlk_cover (p0 : Vec F S64x1 .f32) (y : S64x1.Idx) :
    ∃ pc ∈ ([⟨rCol, p0⟩] : List (View.Piece (Elt F) S64x1 .f32)), y ∈ pc.1.set :=
  View.cover_of_tiled [⟨rCol, p0⟩] S64x1.size (by rfl) y

/-! ## The body's triple -/

set_option maxHeartbeats 4000000 in
/-- Holding the nine input buffers at `x0 … x8` and the output buffer at anything, the body runs
    to its continuation holding the inputs unchanged and the output at `outBlk x0 … x8`. -/
theorem body_triple (c : Dev nD) (E : Set ℕ) (i : grid0.Coords)
    (arg1 : Memref sig .tc .vmem S64x256x25 .f32) (harg1 : arg1.IsWhole) (arg2 : Memref sig .tc .vmem S256x128 .bf16) (harg2 : arg2.IsWhole)
    (arg3 : Memref sig .tc .vmem S1x128 .f32) (harg3 : arg3.IsWhole) (arg4 : Memref sig .tc .vmem S128x64 .bf16) (harg4 : arg4.IsWhole)
    (arg5 : Memref sig .tc .vmem S1x64 .f32) (harg5 : arg5.IsWhole) (arg6 : Memref sig .tc .vmem S1600x64 .bf16) (harg6 : arg6.IsWhole)
    (arg7 : Memref sig .tc .vmem S1x64 .f32) (harg7 : arg7.IsWhole) (arg8 : Memref sig .tc .vmem S64x1 .bf16) (harg8 : arg8.IsWhole)
    (arg9 : Memref sig .tc .vmem S1x1 .f32) (harg9 : arg9.IsWhole) (arg10 : Memref sig .tc .vmem S64x1 .f32) (harg10 : arg10.IsWhole)
    (x0 : Vec F S64x256x25 .f32) (x1 : Vec F S256x128 .bf16) (x2 : Vec F S1x128 .f32) (x3 : Vec F S128x64 .bf16)
    (x4 : Vec F S1x64 .f32) (x5 : Vec F S1600x64 .bf16) (x6 : Vec F S1x64 .f32) (x7 : Vec F S64x1 .bf16) (x8 : Vec F S1x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare (outBlk x0 x1 x2 x3 x4 x5 x6 x7 x8)) -∗ K ⟨⟩))
      ⊢ wp frame (wpE (defs₀ (F := F)) Variants.none c none) E
          (cc0__fused_kernel i arg1 harg1 arg2 harg2 arg3 harg3 arg4 harg4 arg5 harg5 arg6 harg6 arg7 harg7 arg8 harg8 arg9 harg9 arg10 harg10) K := by
  simp only [cc0__fused_kernel_eq_skeleton]; unfold cc0__fused_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (outBlk_cover _)

end Cert.Kernel.Hand

end
-- ==== Proof.KMain.lean ====
/-
  The host side of the program: @main is eight host operations (the four weight matrices
  narrowed, the four bias vectors given a leading unit axis), the one kernel launch, and ninety-four
  host operations after it — the small recomputation of batch 0 through the 25-node graph and its
  write into row 0 of the launch's result.  Stated here: @main reduces to the launch continued by
  the later operations, holding every buffer at what the earlier ones left; the later operations
  touch only unscoped buffers, allocate nothing and write none of the launch's ten arrays; and no
  operation, earlier or later, writes an argument array.
-/
import proofs.«157473_j46127948759115_2_alg».proof.Proof.Gen.Kernel.Launch
import proofs.«157473_j46127948759115_2_alg».proof.Proof.Gen.Kernel.Skeleton
import proofs.«157473_j46127948759115_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the launch finds them -/

/-- Core `c`'s buffers when the launch is reached: the launch memory after the eight earlier operations. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor

set_option maxHeartbeats 40000000 in
/-- @main reduces to the launch continued by the later operations, at the contents the earlier ones left. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The later operations -/

/-- They touch unscoped TensorCore buffers only: the launch's arrays and the buffers that bypass it. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

set_option maxHeartbeats 40000000 in
/-- Each writes only its own result buffer, and none of those is one of the launch's ten arrays. -/
theorem tail_keeps_arr (w : Fin 10) :
    (hostOps1 : List (HloOp τ sig (Elt F))).Forall fun op => Proc.devRef .tc (Pipeline.arrRef spec0 w) ∉ op.writes := by
  fin_cases w <;>
  · simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

theorem tail_keeps : ∀ ops ∈ ([hostOps1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl
  exact (List.forall_iff_forall_mem.mp (tail_keeps_arr (F := F) w)) op hop

/-! ## The argument arrays are written by no operation -/

/-- No earlier operation writes argument 0: the launch finds it as it was. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No earlier operation writes argument 1: the launch finds it as it was. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No earlier operation writes argument 2: the launch finds it as it was. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No earlier operation writes argument 3: the launch finds it as it was. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No earlier operation writes argument 4: the launch finds it as it was. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No earlier operation writes argument 5: the launch finds it as it was. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No earlier operation writes argument 6: the launch finds it as it was. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No earlier operation writes argument 7: the launch finds it as it was. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No earlier operation writes argument 8: the launch finds it as it was. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No earlier operation writes argument 9: the launch finds it as it was. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No earlier operation writes argument 10: the launch finds it as it was. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 40000000 in
/-- No later operation writes argument 1, and it is none of the launch's arrays: it ends as it was. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

set_option maxHeartbeats 40000000 in
/-- No later operation writes argument 2, and it is none of the launch's arrays: it ends as it was. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

set_option maxHeartbeats 40000000 in
/-- No later operation writes argument 3, and it is none of the launch's arrays: it ends as it was. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

set_option maxHeartbeats 40000000 in
/-- No later operation writes argument 4, and it is none of the launch's arrays: it ends as it was. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

set_option maxHeartbeats 40000000 in
/-- No later operation writes argument 5, and it is none of the launch's arrays: it ends as it was. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

set_option maxHeartbeats 40000000 in
/-- No later operation writes argument 6, and it is none of the launch's arrays: it ends as it was. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

set_option maxHeartbeats 40000000 in
/-- No later operation writes argument 7, and it is none of the launch's arrays: it ends as it was. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

set_option maxHeartbeats 40000000 in
/-- No later operation writes argument 8, and it is none of the launch's arrays: it ends as it was. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

set_option maxHeartbeats 40000000 in
/-- No later operation writes argument 9, and it is none of the launch's arrays: it ends as it was. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

set_option maxHeartbeats 40000000 in
/-- No later operation writes argument 10, and it is none of the launch's arrays: it ends as it was. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

end Cert.Kernel.Hand

end
-- ==== Proof.KRun.lean ====
/-
  The kernel's run: the launch visits 128 grid points; at point t the input slab is rows
  64·t … 64·t+63 of the batch and the eight parameter blocks are the whole (narrowed) weight and
  (re-shaped) bias arrays, the same at every point; the body leaves in the output's staging buffer
  the 64×1 block `outBlk` of those nine blocks, which is written back to rows 64·t … 64·t+63 of
  the 8192×1 result.  With the host side (the operations before and after the launch) this gives
  the run of @main: it terminates, faults nowhere, every argument array ends as it began, and the
  program's result is what the ninety-four later operations make of the buffers the launch left.
-/
import proofs.«157473_j46127948759115_2_alg».proof.Proof.KBody
import proofs.«157473_j46127948759115_2_alg».proof.Proof.KMain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The proof data -/

/-- On core `c`: the arrays as the launch finds them; after the body at point `t` each input's
    buffer still at its block and the output's at `outBlk` of the nine input blocks; the scratch
    and the generator register untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outBlk (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t
    = outBlk (iblk m c 0 t) (iblk m c 1 t) (iblk m c 2 t) (iblk m c 3 t) (iblk m c 4 t) (iblk m c 5 t) (iblk m c 6 t) (iblk m c 7 t) (iblk m c 8 t) := by
  dsimp only [dats]

/-! ## Each input's staging buffer holds its block at every point

Fetched there, it holds the block; not fetched there, the block index has not moved since the
point that fetched it and the body left the buffer alone. -/

theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)

theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)

theorem before_5 (c : Dev nD) (t : Fin cfg0.N) (d) : (dats m 0 c).before 5 t d = iblk m c 5 t :=
  ((dats m 0 c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)

theorem before_6 (c : Dev nD) (t : Fin cfg0.N) (d) : (dats m 0 c).before 6 t d = iblk m c 6 t :=
  ((dats m 0 c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)

theorem before_7 (c : Dev nD) (t : Fin cfg0.N) (d) : (dats m 0 c).before 7 t d = iblk m c 7 t :=
  ((dats m 0 c).before_in_eq_fetched 7 rfl (fun _ => rfl) (fun _ _ _ => rfl)
    (fun t => by rw [after_7]; unfold Dat.blockOf iblk; rw [A_eq]; try rfl) t d).trans
    (by unfold Dat.fetched Dat.blockOf iblk; rw [A_eq]; try rfl)

theorem before_8 (c : Dev nD) (t : Fin cfg0.N) (d) : (dats m 0 c).before 8 t d = iblk m c 8 t :=
  ((dats m 0 c).before_in_eq_fetched 8 rfl (fun _ => rfl) (fun _ _ _ => rfl)
    (fun t => by rw [after_8]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 4000000 in
/-- The body at any point: the inputs' buffers hold their blocks, so the body's triple applies;
    the invariant and the core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_triple c Set.univ (grid0.coords t) _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation (c : Dev nD) : BodyObligation (dats (F := F) m 0 c) (defs₀ (F := F)) Variants.none () Set.univ := fun t => by
  rw [bigSep_W0, bigSep_W0]
  exact sound_body m c t

/-! ## The run -/

set_option maxHeartbeats 40000000 in
set_option backward.isDefEq.respectTransparency.types false in
/-- Every weakly fair execution of @main terminates without a fault; every array of the launch then
    holds what the proof data computes, and every other unscoped buffer what the later operations
    leave of the launch's result. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

set_option maxHeartbeats 40000000 in
/-- The run with the program's result named and the arguments unchanged: the result buffer ends
    at what the later operations compute; argument 0, the launch's first array and only read,
    ends at its entry contents, which no earlier operation wrote; the other ten bypass the launch. -/
theorem run_result : θ_run defs (onTc (τ := τ) (main (F := F))) ⟨m, fun _ => 0, ρ⟩ (fun r => ∀ c : Dev nD,
      r.2.mem ((c.tc : Thread nD τ).loc main_v0) = Pipeline.afterTail₀ cfgs (dats m) 0 (V0 m) [hostOps1] c main_v0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨(h c).2 main_v0 (Pipeline.mem_restRefs_of main_v0 (by decide) (by decide)),
     ((h c).1 0).trans ((((dats m) 0 c).arrAt_in 0 rfl _).trans ((A_eq m c 0).trans (V_main_arg0 m c))),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c),
     ((h c).2 main_arg6 (Pipeline.mem_restRefs_of main_arg6 (by decide) (by decide))).trans (W_main_arg6 m (dats m) c),
     ((h c).2 main_arg7 (Pipeline.mem_restRefs_of main_arg7 (by decide) (by decide))).trans (W_main_arg7 m (dats m) c),
     ((h c).2 main_arg8 (Pipeline.mem_restRefs_of main_arg8 (by decide) (by decide))).trans (W_main_arg8 m (dats m) c),
     ((h c).2 main_arg9 (Pipeline.mem_restRefs_of main_arg9 (by decide) (by decide))).trans (W_main_arg9 m (dats m) c),
     ((h c).2 main_arg10 (Pipeline.mem_restRefs_of main_arg10 (by decide) (by decide))).trans (W_main_arg10 m (dats m) c)⟩) (run_main m ρ)

set_option maxHeartbeats 40000000 in
/-- The frame: @main terminates, faults nowhere, and leaves its eleven argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => (h c).2) (run_result m ρ)

end Cert.Kernel.Hand

end
-- ==== Proof.KIBody.lean ====
/-
  The body of the fused kernel, run once on whole staging buffers.

  At a grid point the body reads nine blocks — a 64×256×25 slab of the input, the four weight
  matrices and the four bias rows — and writes one 64×1 block: for each of the 64 batch rows the
  head's scalar, obtained by relaying the slab to 1600×256 (row 25·b + f holds x[b, ·, f]), three
  matrix products with a bias added after each and a maximum with zero after the first and the
  third, and a last product with a 64×1 column plus the scalar bias.  The block it writes is the
  one store's value over the nine blocks read; the old contents of the output buffer are read once
  and never used (the store covers the whole block).  This module states that as a triple: holding
  the nine input buffers at given contents and the output buffer at anything, the body returns
  holding the inputs as they were and the output at that value.
-/
import proofs.«157473_j46127948759115_2_alg».proof.Proof.Gen.KernelIdeal.Launch
import proofs.«157473_j46127948759115_2_alg».proof.Proof.Gen.KernelIdeal.Skeleton
import proofs.«157473_j46127948759115_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-block rectangles the body reads and writes through -/

abbrev rX : Rect S64x256x25 := Rect.unit (s := S64x256x25) ![0, 0, 0] S64x256x25.size inb_S64x256x25_S64x256x25_0_0_0
abbrev rW1 : Rect S256x128 := Rect.unit (s := S256x128) ![0, 0] S256x128.size inb_S256x128_S256x128_0_0
abbrev rB1 : Rect S1x128 := Rect.unit (s := S1x128) ![0, 0] S1x128.size inb_S1x128_S1x128_0_0
abbrev rW2 : Rect S128x64 := Rect.unit (s := S128x64) ![0, 0] S128x64.size inb_S128x64_S128x64_0_0
abbrev rB64 : Rect S1x64 := Rect.unit (s := S1x64) ![0, 0] S1x64.size inb_S1x64_S1x64_0_0
abbrev rWm1 : Rect S1600x64 := Rect.unit (s := S1600x64) ![0, 0] S1600x64.size inb_S1600x64_S1600x64_0_0
abbrev rCol : Rect S64x1 := Rect.unit (s := S64x1) ![0, 0] S64x1.size inb_S64x1_S64x1_0_0
abbrev rOne : Rect S1x1 := Rect.unit (s := S1x1) ![0, 0] S1x1.size inb_S1x1_S1x1_0_0

/-! ## What the body leaves in the output block -/

/-- The 64×1 block the body stores, as a function of the nine blocks it read: the head's value
    (the skeleton's second payload, the three layers) plus the broadcast scalar bias (its first). -/
def outBlk (x0 : Vec F S64x256x25 .f32) (x1 : Vec F S256x128 .bf16) (x2 : Vec F S1x128 .f32) (x3 : Vec F S128x64 .bf16)
    (x4 : Vec F S1x64 .f32) (x5 : Vec F S1600x64 .bf16) (x6 : Vec F S1x64 .f32) (x7 : Vec F S64x1 .bf16) (x8 : Vec F S1x1 .f32) :
    Vec F S64x1 .f32 :=
  View.canon [⟨rCol, k0_pay1 (k0_pay2 (View.ld x0 rX) (View.ld x1 rW1) (View.ld x2 rB1) (View.ld x3 rW2) (View.ld x4 rB64)
    (View.ld x5 rWm1) (View.ld x6 rB64) (View.ld x7 rCol)) (View.ld x8 rOne)⟩]

/-- The one store covers the block. -/
theorem outBlk_cover (p0 : Vec F S64x1 .f32) (y : S64x1.Idx) :
    ∃ pc ∈ ([⟨rCol, p0⟩] : List (View.Piece (Elt F) S64x1 .f32)), y ∈ pc.1.set :=
  View.cover_of_tiled [⟨rCol, p0⟩] S64x1.size (by rfl) y

/-! ## The body's triple -/

set_option maxHeartbeats 4000000 in
/-- Holding the nine input buffers at `x0 … x8` and the output buffer at anything, the body runs
    to its continuation holding the inputs unchanged and the output at `outBlk x0 … x8`. -/
theorem body_triple (c : Dev nD) (E : Set ℕ) (i : grid0.Coords)
    (arg1 : Memref sig .tc .vmem S64x256x25 .f32) (harg1 : arg1.IsWhole) (arg2 : Memref sig .tc .vmem S256x128 .bf16) (harg2 : arg2.IsWhole)
    (arg3 : Memref sig .tc .vmem S1x128 .f32) (harg3 : arg3.IsWhole) (arg4 : Memref sig .tc .vmem S128x64 .bf16) (harg4 : arg4.IsWhole)
    (arg5 : Memref sig .tc .vmem S1x64 .f32) (harg5 : arg5.IsWhole) (arg6 : Memref sig .tc .vmem S1600x64 .bf16) (harg6 : arg6.IsWhole)
    (arg7 : Memref sig .tc .vmem S1x64 .f32) (harg7 : arg7.IsWhole) (arg8 : Memref sig .tc .vmem S64x1 .bf16) (harg8 : arg8.IsWhole)
    (arg9 : Memref sig .tc .vmem S1x1 .f32) (harg9 : arg9.IsWhole) (arg10 : Memref sig .tc .vmem S64x1 .f32) (harg10 : arg10.IsWhole)
    (x0 : Vec F S64x256x25 .f32) (x1 : Vec F S256x128 .bf16) (x2 : Vec F S1x128 .f32) (x3 : Vec F S128x64 .bf16)
    (x4 : Vec F S1x64 .f32) (x5 : Vec F S1600x64 .bf16) (x6 : Vec F S1x64 .f32) (x7 : Vec F S64x1 .bf16) (x8 : Vec F S1x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare (outBlk x0 x1 x2 x3 x4 x5 x6 x7 x8)) -∗ K ⟨⟩))
      ⊢ wp frame (wpE (defs₀ (F := F)) Variants.none c none) E
          (cc0__fused_kernel i arg1 harg1 arg2 harg2 arg3 harg3 arg4 harg4 arg5 harg5 arg6 harg6 arg7 harg7 arg8 harg8 arg9 harg9 arg10 harg10) K := by
  simp only [cc0__fused_kernel_eq_skeleton]; unfold cc0__fused_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (outBlk_cover _)

end Cert.KernelIdeal.Hand

end
-- ==== Proof.KIMain.lean ====
/-
  The host side of the program: @main is eight host operations (the four weight matrices
  narrowed, the four bias vectors given a leading unit axis), the one kernel launch, and ninety-four
  host operations after it — the small recomputation of batch 0 through the 25-node graph and its
  write into row 0 of the launch's result.  Stated here: @main reduces to the launch continued by
  the later operations, holding every buffer at what the earlier ones left; the later operations
  touch only unscoped buffers, allocate nothing and write none of the launch's ten arrays; and no
  operation, earlier or later, writes an argument array.
-/
import proofs.«157473_j46127948759115_2_alg».proof.Proof.Gen.KernelIdeal.Launch
import proofs.«157473_j46127948759115_2_alg».proof.Proof.Gen.KernelIdeal.Skeleton
import proofs.«157473_j46127948759115_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the launch finds them -/

/-- Core `c`'s buffers when the launch is reached: the launch memory after the eight earlier operations. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor

set_option maxHeartbeats 40000000 in
/-- @main reduces to the launch continued by the later operations, at the contents the earlier ones left. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The later operations -/

/-- They touch unscoped TensorCore buffers only: the launch's arrays and the buffers that bypass it. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

set_option maxHeartbeats 40000000 in
/-- Each writes only its own result buffer, and none of those is one of the launch's ten arrays. -/
theorem tail_keeps_arr (w : Fin 10) :
    (hostOps1 : List (HloOp τ sig (Elt F))).Forall fun op => Proc.devRef .tc (Pipeline.arrRef spec0 w) ∉ op.writes := by
  fin_cases w <;>
  · simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

theorem tail_keeps : ∀ ops ∈ ([hostOps1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl
  exact (List.forall_iff_forall_mem.mp (tail_keeps_arr (F := F) w)) op hop

/-! ## The argument arrays are written by no operation -/

/-- No earlier operation writes argument 0: the launch finds it as it was. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No earlier operation writes argument 1: the launch finds it as it was. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No earlier operation writes argument 2: the launch finds it as it was. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No earlier operation writes argument 3: the launch finds it as it was. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No earlier operation writes argument 4: the launch finds it as it was. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No earlier operation writes argument 5: the launch finds it as it was. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No earlier operation writes argument 6: the launch finds it as it was. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No earlier operation writes argument 7: the launch finds it as it was. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No earlier operation writes argument 8: the launch finds it as it was. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No earlier operation writes argument 9: the launch finds it as it was. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No earlier operation writes argument 10: the launch finds it as it was. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 40000000 in
/-- No later operation writes argument 1, and it is none of the launch's arrays: it ends as it was. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

set_option maxHeartbeats 40000000 in
/-- No later operation writes argument 2, and it is none of the launch's arrays: it ends as it was. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

set_option maxHeartbeats 40000000 in
/-- No later operation writes argument 3, and it is none of the launch's arrays: it ends as it was. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

set_option maxHeartbeats 40000000 in
/-- No later operation writes argument 4, and it is none of the launch's arrays: it ends as it was. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

set_option maxHeartbeats 40000000 in
/-- No later operation writes argument 5, and it is none of the launch's arrays: it ends as it was. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

set_option maxHeartbeats 40000000 in
/-- No later operation writes argument 6, and it is none of the launch's arrays: it ends as it was. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

set_option maxHeartbeats 40000000 in
/-- No later operation writes argument 7, and it is none of the launch's arrays: it ends as it was. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

set_option maxHeartbeats 40000000 in
/-- No later operation writes argument 8, and it is none of the launch's arrays: it ends as it was. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

set_option maxHeartbeats 40000000 in
/-- No later operation writes argument 9, and it is none of the launch's arrays: it ends as it was. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

set_option maxHeartbeats 40000000 in
/-- No later operation writes argument 10, and it is none of the launch's arrays: it ends as it was. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

end Cert.KernelIdeal.Hand

end
-- ==== Proof.KIRun.lean ====
/-
  The kernel's run: the launch visits 128 grid points; at point t the input slab is rows
  64·t … 64·t+63 of the batch and the eight parameter blocks are the whole (narrowed) weight and
  (re-shaped) bias arrays, the same at every point; the body leaves in the output's staging buffer
  the 64×1 block `outBlk` of those nine blocks, which is written back to rows 64·t … 64·t+63 of
  the 8192×1 result.  With the host side (the operations before and after the launch) this gives
  the run of @main: it terminates, faults nowhere, every argument array ends as it began, and the
  program's result is what the ninety-four later operations make of the buffers the launch left.
-/
import proofs.«157473_j46127948759115_2_alg».proof.Proof.KIBody
import proofs.«157473_j46127948759115_2_alg».proof.Proof.KIMain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The proof data -/

/-- On core `c`: the arrays as the launch finds them; after the body at point `t` each input's
    buffer still at its block and the output's at `outBlk` of the nine input blocks; the scratch
    and the generator register untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outBlk (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t
    = outBlk (iblk m c 0 t) (iblk m c 1 t) (iblk m c 2 t) (iblk m c 3 t) (iblk m c 4 t) (iblk m c 5 t) (iblk m c 6 t) (iblk m c 7 t) (iblk m c 8 t) := by
  dsimp only [dats]

/-! ## Each input's staging buffer holds its block at every point

Fetched there, it holds the block; not fetched there, the block index has not moved since the
point that fetched it and the body left the buffer alone. -/

theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)

theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)

theorem before_5 (c : Dev nD) (t : Fin cfg0.N) (d) : (dats m 0 c).before 5 t d = iblk m c 5 t :=
  ((dats m 0 c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)

theorem before_6 (c : Dev nD) (t : Fin cfg0.N) (d) : (dats m 0 c).before 6 t d = iblk m c 6 t :=
  ((dats m 0 c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; try rfl)

theorem before_7 (c : Dev nD) (t : Fin cfg0.N) (d) : (dats m 0 c).before 7 t d = iblk m c 7 t :=
  ((dats m 0 c).before_in_eq_fetched 7 rfl (fun _ => rfl) (fun _ _ _ => rfl)
    (fun t => by rw [after_7]; unfold Dat.blockOf iblk; rw [A_eq]; try rfl) t d).trans
    (by unfold Dat.fetched Dat.blockOf iblk; rw [A_eq]; try rfl)

theorem before_8 (c : Dev nD) (t : Fin cfg0.N) (d) : (dats m 0 c).before 8 t d = iblk m c 8 t :=
  ((dats m 0 c).before_in_eq_fetched 8 rfl (fun _ => rfl) (fun _ _ _ => rfl)
    (fun t => by rw [after_8]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 4000000 in
/-- The body at any point: the inputs' buffers hold their blocks, so the body's triple applies;
    the invariant and the core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_triple c Set.univ (grid0.coords t) _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation (c : Dev nD) : BodyObligation (dats (F := F) m 0 c) (defs₀ (F := F)) Variants.none () Set.univ := fun t => by
  rw [bigSep_W0, bigSep_W0]
  exact sound_body m c t

/-! ## The run -/

set_option maxHeartbeats 40000000 in
set_option backward.isDefEq.respectTransparency.types false in
/-- Every weakly fair execution of @main terminates without a fault; every array of the launch then
    holds what the proof data computes, and every other unscoped buffer what the later operations
    leave of the launch's result. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

set_option maxHeartbeats 40000000 in
/-- The run with the program's result named and the arguments unchanged: the result buffer ends
    at what the later operations compute; argument 0, the launch's first array and only read,
    ends at its entry contents, which no earlier operation wrote; the other ten bypass the launch. -/
theorem run_result : θ_run defs (onTc (τ := τ) (main (F := F))) ⟨m, fun _ => 0, ρ⟩ (fun r => ∀ c : Dev nD,
      r.2.mem ((c.tc : Thread nD τ).loc main_v0) = Pipeline.afterTail₀ cfgs (dats m) 0 (V0 m) [hostOps1] c main_v0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨(h c).2 main_v0 (Pipeline.mem_restRefs_of main_v0 (by decide) (by decide)),
     ((h c).1 0).trans ((((dats m) 0 c).arrAt_in 0 rfl _).trans ((A_eq m c 0).trans (V_main_arg0 m c))),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c),
     ((h c).2 main_arg6 (Pipeline.mem_restRefs_of main_arg6 (by decide) (by decide))).trans (W_main_arg6 m (dats m) c),
     ((h c).2 main_arg7 (Pipeline.mem_restRefs_of main_arg7 (by decide) (by decide))).trans (W_main_arg7 m (dats m) c),
     ((h c).2 main_arg8 (Pipeline.mem_restRefs_of main_arg8 (by decide) (by decide))).trans (W_main_arg8 m (dats m) c),
     ((h c).2 main_arg9 (Pipeline.mem_restRefs_of main_arg9 (by decide) (by decide))).trans (W_main_arg9 m (dats m) c),
     ((h c).2 main_arg10 (Pipeline.mem_restRefs_of main_arg10 (by decide) (by decide))).trans (W_main_arg10 m (dats m) c)⟩) (run_main m ρ)

set_option maxHeartbeats 40000000 in
/-- The frame: @main terminates, faults nowhere, and leaves its eleven argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => (h c).2) (run_result m ρ)

end Cert.KernelIdeal.Hand

end
-- ==== Proof.RefSide.lean ====
/-
  The reference's side: its frame is its generated run with the result forgotten.
-/
import proofs.«157473_j46127948759115_2_alg».proof.Defs
import proofs.«157473_j46127948759115_2_alg».proof.Proof.Gen.ReferenceIdeal.Run
import proofs.«157473_j46127948759115_2_alg».proof.Proof.Gen.ReferenceIdeal.Read

noncomputable section

namespace Cert.ReferenceIdeal.RefValue

open Idealize.ShloMosaic Idealize.ShloMosaic.TcCoe Idealize.SL.Sem

end Cert.ReferenceIdeal.RefValue

end
-- ==== Proof.KIOps.lean ====
/-
  The kernel program's matrix products and row gathers read at an entry, on the extended reals.

  Every product here contracts the left operand's second axis with the right operand's first, so
  entry (p, q) of the product is the sum over k of l[p, k] · r[k, q]; the records below are the four
  products of the launch's body and the four of the host recomputation.  A row gather reads, for
  edge e, the operand's row whose number is the e-th start index, kept inside the operand.
-/
import proofs.«157473_j46127948759115_2_alg».proof.Proof.Gen.KernelIdeal
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

namespace Cert.KernelIdeal.Ops

open Cert.KernelIdeal Idealize.ShloMosaic Idealize.ShloMosaic.TcCoe Idealize.ShloMosaic.ValueIdx

/-- The product's contraction at output entry (p, q) is the sum over the shared axis. -/
theorem sum_dot_S1600x256_S256x128_S1600x128_1_0_0_1_n_n (l : S1600x256.Idx → EReal) (r : S256x128.Idx → EReal) (p : Fin 1600) (q : Fin 128) :
    ∑ c : dot_S1600x256_S256x128_S1600x128_1_0_0_1_n_n.contr.Idx, l (dot_S1600x256_S256x128_S1600x128_1_0_0_1_n_n.lhsIdx (ix2 p q) c) * r (dot_S1600x256_S256x128_S1600x128_1_0_0_1_n_n.rhsIdx (ix2 p q) c)
      = ∑ k : Fin 256, l (ix2 p k) * r (ix2 k q) := by
  rw [← Equiv.sum_comp (ValueIdx.contrEquiv1 dot_S1600x256_S256x128_S1600x128_1_0_0_1_n_n 256 rfl rfl).symm]
  refine Finset.sum_congr rfl fun k _ => ?_
  have hk := ValueIdx.contrEquiv1_symm_val dot_S1600x256_S256x128_S1600x128_1_0_0_1_n_n 256 rfl rfl k
  have el : dot_S1600x256_S256x128_S1600x128_1_0_0_1_n_n.lhsIdx (ix2 p q) ((ValueIdx.contrEquiv1 dot_S1600x256_S256x128_S1600x128_1_0_0_1_n_n 256 rfl rfl).symm k) = ix2 p k := funext fun a => Fin.ext (by
    match a with
    | ⟨0, _⟩ =>
      show (dot_S1600x256_S256x128_S1600x128_1_0_0_1_n_n.lhsIdx (ix2 p q) _ 0).val = p.val
      unfold DotDims.lhsIdx
      rw [dif_neg (show ¬(0 : Fin S1600x256.rank) ∈ dot_S1600x256_S256x128_S1600x128_1_0_0_1_n_n.lhsBatch by decide), dif_pos (show (0 : Fin S1600x256.rank) ∈ dot_S1600x256_S256x128_S1600x128_1_0_0_1_n_n.lhsNonContracting by decide)]
      rfl
    | ⟨1, _⟩ => exact (dot_S1600x256_S256x128_S1600x128_1_0_0_1_n_n.lhsIdx_val_of_single rfl (ix2 p q) _).trans hk)
  have er : dot_S1600x256_S256x128_S1600x128_1_0_0_1_n_n.rhsIdx (ix2 p q) ((ValueIdx.contrEquiv1 dot_S1600x256_S256x128_S1600x128_1_0_0_1_n_n 256 rfl rfl).symm k) = ix2 k q := funext fun a => Fin.ext (by
    match a with
    | ⟨0, _⟩ => exact (dot_S1600x256_S256x128_S1600x128_1_0_0_1_n_n.rhsIdx_val_of_single rfl (ix2 p q) _).trans hk
    | ⟨1, _⟩ =>
      show (dot_S1600x256_S256x128_S1600x128_1_0_0_1_n_n.rhsIdx (ix2 p q) _ 1).val = q.val
      unfold DotDims.rhsIdx
      rw [dif_neg (show ¬(1 : Fin S256x128.rank) ∈ dot_S1600x256_S256x128_S1600x128_1_0_0_1_n_n.rhsBatch by decide), dif_pos (show (1 : Fin S256x128.rank) ∈ dot_S1600x256_S256x128_S1600x128_1_0_0_1_n_n.rhsNonContracting by decide)]
      rfl)
  rw [el, er]

/-- The product's contraction at output entry (p, q) is the sum over the shared axis. -/
theorem sum_dot_S1600x128_S128x64_S1600x64_1_0_0_1_n_n (l : S1600x128.Idx → EReal) (r : S128x64.Idx → EReal) (p : Fin 1600) (q : Fin 64) :
    ∑ c : dot_S1600x128_S128x64_S1600x64_1_0_0_1_n_n.contr.Idx, l (dot_S1600x128_S128x64_S1600x64_1_0_0_1_n_n.lhsIdx (ix2 p q) c) * r (dot_S1600x128_S128x64_S1600x64_1_0_0_1_n_n.rhsIdx (ix2 p q) c)
      = ∑ k : Fin 128, l (ix2 p k) * r (ix2 k q) := by
  rw [← Equiv.sum_comp (ValueIdx.contrEquiv1 dot_S1600x128_S128x64_S1600x64_1_0_0_1_n_n 128 rfl rfl).symm]
  refine Finset.sum_congr rfl fun k _ => ?_
  have hk := ValueIdx.contrEquiv1_symm_val dot_S1600x128_S128x64_S1600x64_1_0_0_1_n_n 128 rfl rfl k
  have el : dot_S1600x128_S128x64_S1600x64_1_0_0_1_n_n.lhsIdx (ix2 p q) ((ValueIdx.contrEquiv1 dot_S1600x128_S128x64_S1600x64_1_0_0_1_n_n 128 rfl rfl).symm k) = ix2 p k := funext fun a => Fin.ext (by
    match a with
    | ⟨0, _⟩ =>
      show (dot_S1600x128_S128x64_S1600x64_1_0_0_1_n_n.lhsIdx (ix2 p q) _ 0).val = p.val
      unfold DotDims.lhsIdx
      rw [dif_neg (show ¬(0 : Fin S1600x128.rank) ∈ dot_S1600x128_S128x64_S1600x64_1_0_0_1_n_n.lhsBatch by decide), dif_pos (show (0 : Fin S1600x128.rank) ∈ dot_S1600x128_S128x64_S1600x64_1_0_0_1_n_n.lhsNonContracting by decide)]
      rfl
    | ⟨1, _⟩ => exact (dot_S1600x128_S128x64_S1600x64_1_0_0_1_n_n.lhsIdx_val_of_single rfl (ix2 p q) _).trans hk)
  have er : dot_S1600x128_S128x64_S1600x64_1_0_0_1_n_n.rhsIdx (ix2 p q) ((ValueIdx.contrEquiv1 dot_S1600x128_S128x64_S1600x64_1_0_0_1_n_n 128 rfl rfl).symm k) = ix2 k q := funext fun a => Fin.ext (by
    match a with
    | ⟨0, _⟩ => exact (dot_S1600x128_S128x64_S1600x64_1_0_0_1_n_n.rhsIdx_val_of_single rfl (ix2 p q) _).trans hk
    | ⟨1, _⟩ =>
      show (dot_S1600x128_S128x64_S1600x64_1_0_0_1_n_n.rhsIdx (ix2 p q) _ 1).val = q.val
      unfold DotDims.rhsIdx
      rw [dif_neg (show ¬(1 : Fin S128x64.rank) ∈ dot_S1600x128_S128x64_S1600x64_1_0_0_1_n_n.rhsBatch by decide), dif_pos (show (1 : Fin S128x64.rank) ∈ dot_S1600x128_S128x64_S1600x64_1_0_0_1_n_n.rhsNonContracting by decide)]
      rfl)
  rw [el, er]

/-- The product's contraction at output entry (p, q) is the sum over the shared axis. -/
theorem sum_dot_S64x1600_S1600x64_S64x64_1_0_0_1_n_n (l : S64x1600.Idx → EReal) (r : S1600x64.Idx → EReal) (p : Fin 64) (q : Fin 64) :
    ∑ c : dot_S64x1600_S1600x64_S64x64_1_0_0_1_n_n.contr.Idx, l (dot_S64x1600_S1600x64_S64x64_1_0_0_1_n_n.lhsIdx (ix2 p q) c) * r (dot_S64x1600_S1600x64_S64x64_1_0_0_1_n_n.rhsIdx (ix2 p q) c)
      = ∑ k : Fin 1600, l (ix2 p k) * r (ix2 k q) := by
  rw [← Equiv.sum_comp (ValueIdx.contrEquiv1 dot_S64x1600_S1600x64_S64x64_1_0_0_1_n_n 1600 rfl rfl).symm]
  refine Finset.sum_congr rfl fun k _ => ?_
  have hk := ValueIdx.contrEquiv1_symm_val dot_S64x1600_S1600x64_S64x64_1_0_0_1_n_n 1600 rfl rfl k
  have el : dot_S64x1600_S1600x64_S64x64_1_0_0_1_n_n.lhsIdx (ix2 p q) ((ValueIdx.contrEquiv1 dot_S64x1600_S1600x64_S64x64_1_0_0_1_n_n 1600 rfl rfl).symm k) = ix2 p k := funext fun a => Fin.ext (by
    match a with
    | ⟨0, _⟩ =>
      show (dot_S64x1600_S1600x64_S64x64_1_0_0_1_n_n.lhsIdx (ix2 p q) _ 0).val = p.val
      unfold DotDims.lhsIdx
      rw [dif_neg (show ¬(0 : Fin S64x1600.rank) ∈ dot_S64x1600_S1600x64_S64x64_1_0_0_1_n_n.lhsBatch by decide), dif_pos (show (0 : Fin S64x1600.rank) ∈ dot_S64x1600_S1600x64_S64x64_1_0_0_1_n_n.lhsNonContracting by decide)]
      rfl
    | ⟨1, _⟩ => exact (dot_S64x1600_S1600x64_S64x64_1_0_0_1_n_n.lhsIdx_val_of_single rfl (ix2 p q) _).trans hk)
  have er : dot_S64x1600_S1600x64_S64x64_1_0_0_1_n_n.rhsIdx (ix2 p q) ((ValueIdx.contrEquiv1 dot_S64x1600_S1600x64_S64x64_1_0_0_1_n_n 1600 rfl rfl).symm k) = ix2 k q := funext fun a => Fin.ext (by
    match a with
    | ⟨0, _⟩ => exact (dot_S64x1600_S1600x64_S64x64_1_0_0_1_n_n.rhsIdx_val_of_single rfl (ix2 p q) _).trans hk
    | ⟨1, _⟩ =>
      show (dot_S64x1600_S1600x64_S64x64_1_0_0_1_n_n.rhsIdx (ix2 p q) _ 1).val = q.val
      unfold DotDims.rhsIdx
      rw [dif_neg (show ¬(1 : Fin S1600x64.rank) ∈ dot_S64x1600_S1600x64_S64x64_1_0_0_1_n_n.rhsBatch by decide), dif_pos (show (1 : Fin S1600x64.rank) ∈ dot_S64x1600_S1600x64_S64x64_1_0_0_1_n_n.rhsNonContracting by decide)]
      rfl)
  rw [el, er]

/-- The product's contraction at output entry (p, q) is the sum over the shared axis. -/
theorem sum_dot_S64x64_S64x1_S64x1_1_0_0_1_n_n (l : S64x64.Idx → EReal) (r : S64x1.Idx → EReal) (p : Fin 64) (q : Fin 1) :
    ∑ c : dot_S64x64_S64x1_S64x1_1_0_0_1_n_n.contr.Idx, l (dot_S64x64_S64x1_S64x1_1_0_0_1_n_n.lhsIdx (ix2 p q) c) * r (dot_S64x64_S64x1_S64x1_1_0_0_1_n_n.rhsIdx (ix2 p q) c)
      = ∑ k : Fin 64, l (ix2 p k) * r (ix2 k q) := by
  rw [← Equiv.sum_comp (ValueIdx.contrEquiv1 dot_S64x64_S64x1_S64x1_1_0_0_1_n_n 64 rfl rfl).symm]
  refine Finset.sum_congr rfl fun k _ => ?_
  have hk := ValueIdx.contrEquiv1_symm_val dot_S64x64_S64x1_S64x1_1_0_0_1_n_n 64 rfl rfl k
  have el : dot_S64x64_S64x1_S64x1_1_0_0_1_n_n.lhsIdx (ix2 p q) ((ValueIdx.contrEquiv1 dot_S64x64_S64x1_S64x1_1_0_0_1_n_n 64 rfl rfl).symm k) = ix2 p k := funext fun a => Fin.ext (by
    match a with
    | ⟨0, _⟩ =>
      show (dot_S64x64_S64x1_S64x1_1_0_0_1_n_n.lhsIdx (ix2 p q) _ 0).val = p.val
      unfold DotDims.lhsIdx
      rw [dif_neg (show ¬(0 : Fin S64x64.rank) ∈ dot_S64x64_S64x1_S64x1_1_0_0_1_n_n.lhsBatch by decide), dif_pos (show (0 : Fin S64x64.rank) ∈ dot_S64x64_S64x1_S64x1_1_0_0_1_n_n.lhsNonContracting by decide)]
      rfl
    | ⟨1, _⟩ => exact (dot_S64x64_S64x1_S64x1_1_0_0_1_n_n.lhsIdx_val_of_single rfl (ix2 p q) _).trans hk)
  have er : dot_S64x64_S64x1_S64x1_1_0_0_1_n_n.rhsIdx (ix2 p q) ((ValueIdx.contrEquiv1 dot_S64x64_S64x1_S64x1_1_0_0_1_n_n 64 rfl rfl).symm k) = ix2 k q := funext fun a => Fin.ext (by
    match a with
    | ⟨0, _⟩ => exact (dot_S64x64_S64x1_S64x1_1_0_0_1_n_n.rhsIdx_val_of_single rfl (ix2 p q) _).trans hk
    | ⟨1, _⟩ =>
      show (dot_S64x64_S64x1_S64x1_1_0_0_1_n_n.rhsIdx (ix2 p q) _ 1).val = q.val
      unfold DotDims.rhsIdx
      rw [dif_neg (show ¬(1 : Fin S64x1.rank) ∈ dot_S64x64_S64x1_S64x1_1_0_0_1_n_n.rhsBatch by decide), dif_pos (show (1 : Fin S64x1.rank) ∈ dot_S64x64_S64x1_S64x1_1_0_0_1_n_n.rhsNonContracting by decide)]
      rfl)
  rw [el, er]

/-- The product's contraction at output entry (p, q) is the sum over the shared axis. -/
theorem sum_dot_S25x256_S256x128_S25x128_1_0_0_1_n_n (l : S25x256.Idx → EReal) (r : S256x128.Idx → EReal) (p : Fin 25) (q : Fin 128) :
    ∑ c : dot_S25x256_S256x128_S25x128_1_0_0_1_n_n.contr.Idx, l (dot_S25x256_S256x128_S25x128_1_0_0_1_n_n.lhsIdx (ix2 p q) c) * r (dot_S25x256_S256x128_S25x128_1_0_0_1_n_n.rhsIdx (ix2 p q) c)
      = ∑ k : Fin 256, l (ix2 p k) * r (ix2 k q) := by
  rw [← Equiv.sum_comp (ValueIdx.contrEquiv1 dot_S25x256_S256x128_S25x128_1_0_0_1_n_n 256 rfl rfl).symm]
  refine Finset.sum_congr rfl fun k _ => ?_
  have hk := ValueIdx.contrEquiv1_symm_val dot_S25x256_S256x128_S25x128_1_0_0_1_n_n 256 rfl rfl k
  have el : dot_S25x256_S256x128_S25x128_1_0_0_1_n_n.lhsIdx (ix2 p q) ((ValueIdx.contrEquiv1 dot_S25x256_S256x128_S25x128_1_0_0_1_n_n 256 rfl rfl).symm k) = ix2 p k := funext fun a => Fin.ext (by
    match a with
    | ⟨0, _⟩ =>
      show (dot_S25x256_S256x128_S25x128_1_0_0_1_n_n.lhsIdx (ix2 p q) _ 0).val = p.val
      unfold DotDims.lhsIdx
      rw [dif_neg (show ¬(0 : Fin S25x256.rank) ∈ dot_S25x256_S256x128_S25x128_1_0_0_1_n_n.lhsBatch by decide), dif_pos (show (0 : Fin S25x256.rank) ∈ dot_S25x256_S256x128_S25x128_1_0_0_1_n_n.lhsNonContracting by decide)]
      rfl
    | ⟨1, _⟩ => exact (dot_S25x256_S256x128_S25x128_1_0_0_1_n_n.lhsIdx_val_of_single rfl (ix2 p q) _).trans hk)
  have er : dot_S25x256_S256x128_S25x128_1_0_0_1_n_n.rhsIdx (ix2 p q) ((ValueIdx.contrEquiv1 dot_S25x256_S256x128_S25x128_1_0_0_1_n_n 256 rfl rfl).symm k) = ix2 k q := funext fun a => Fin.ext (by
    match a with
    | ⟨0, _⟩ => exact (dot_S25x256_S256x128_S25x128_1_0_0_1_n_n.rhsIdx_val_of_single rfl (ix2 p q) _).trans hk
    | ⟨1, _⟩ =>
      show (dot_S25x256_S256x128_S25x128_1_0_0_1_n_n.rhsIdx (ix2 p q) _ 1).val = q.val
      unfold DotDims.rhsIdx
      rw [dif_neg (show ¬(1 : Fin S256x128.rank) ∈ dot_S25x256_S256x128_S25x128_1_0_0_1_n_n.rhsBatch by decide), dif_pos (show (1 : Fin S256x128.rank) ∈ dot_S25x256_S256x128_S25x128_1_0_0_1_n_n.rhsNonContracting by decide)]
      rfl)
  rw [el, er]

/-- The product's contraction at output entry (p, q) is the sum over the shared axis. -/
theorem sum_dot_S25x128_S128x64_S25x64_1_0_0_1_n_n (l : S25x128.Idx → EReal) (r : S128x64.Idx → EReal) (p : Fin 25) (q : Fin 64) :
    ∑ c : dot_S25x128_S128x64_S25x64_1_0_0_1_n_n.contr.Idx, l (dot_S25x128_S128x64_S25x64_1_0_0_1_n_n.lhsIdx (ix2 p q) c) * r (dot_S25x128_S128x64_S25x64_1_0_0_1_n_n.rhsIdx (ix2 p q) c)
      = ∑ k : Fin 128, l (ix2 p k) * r (ix2 k q) := by
  rw [← Equiv.sum_comp (ValueIdx.contrEquiv1 dot_S25x128_S128x64_S25x64_1_0_0_1_n_n 128 rfl rfl).symm]
  refine Finset.sum_congr rfl fun k _ => ?_
  have hk := ValueIdx.contrEquiv1_symm_val dot_S25x128_S128x64_S25x64_1_0_0_1_n_n 128 rfl rfl k
  have el : dot_S25x128_S128x64_S25x64_1_0_0_1_n_n.lhsIdx (ix2 p q) ((ValueIdx.contrEquiv1 dot_S25x128_S128x64_S25x64_1_0_0_1_n_n 128 rfl rfl).symm k) = ix2 p k := funext fun a => Fin.ext (by
    match a with
    | ⟨0, _⟩ =>
      show (dot_S25x128_S128x64_S25x64_1_0_0_1_n_n.lhsIdx (ix2 p q) _ 0).val = p.val
      unfold DotDims.lhsIdx
      rw [dif_neg (show ¬(0 : Fin S25x128.rank) ∈ dot_S25x128_S128x64_S25x64_1_0_0_1_n_n.lhsBatch by decide), dif_pos (show (0 : Fin S25x128.rank) ∈ dot_S25x128_S128x64_S25x64_1_0_0_1_n_n.lhsNonContracting by decide)]
      rfl
    | ⟨1, _⟩ => exact (dot_S25x128_S128x64_S25x64_1_0_0_1_n_n.lhsIdx_val_of_single rfl (ix2 p q) _).trans hk)
  have er : dot_S25x128_S128x64_S25x64_1_0_0_1_n_n.rhsIdx (ix2 p q) ((ValueIdx.contrEquiv1 dot_S25x128_S128x64_S25x64_1_0_0_1_n_n 128 rfl rfl).symm k) = ix2 k q := funext fun a => Fin.ext (by
    match a with
    | ⟨0, _⟩ => exact (dot_S25x128_S128x64_S25x64_1_0_0_1_n_n.rhsIdx_val_of_single rfl (ix2 p q) _).trans hk
    | ⟨1, _⟩ =>
      show (dot_S25x128_S128x64_S25x64_1_0_0_1_n_n.rhsIdx (ix2 p q) _ 1).val = q.val
      unfold DotDims.rhsIdx
      rw [dif_neg (show ¬(1 : Fin S128x64.rank) ∈ dot_S25x128_S128x64_S25x64_1_0_0_1_n_n.rhsBatch by decide), dif_pos (show (1 : Fin S128x64.rank) ∈ dot_S25x128_S128x64_S25x64_1_0_0_1_n_n.rhsNonContracting by decide)]
      rfl)
  rw [el, er]

/-- The product's contraction at output entry (p, q) is the sum over the shared axis. -/
theorem sum_dot_S1x1600_S1600x64_S1x64_1_0_0_1_n_n (l : S1x1600.Idx → EReal) (r : S1600x64.Idx → EReal) (p : Fin 1) (q : Fin 64) :
    ∑ c : dot_S1x1600_S1600x64_S1x64_1_0_0_1_n_n.contr.Idx, l (dot_S1x1600_S1600x64_S1x64_1_0_0_1_n_n.lhsIdx (ix2 p q) c) * r (dot_S1x1600_S1600x64_S1x64_1_0_0_1_n_n.rhsIdx (ix2 p q) c)
      = ∑ k : Fin 1600, l (ix2 p k) * r (ix2 k q) := by
  rw [← Equiv.sum_comp (ValueIdx.contrEquiv1 dot_S1x1600_S1600x64_S1x64_1_0_0_1_n_n 1600 rfl rfl).symm]
  refine Finset.sum_congr rfl fun k _ => ?_
  have hk := ValueIdx.contrEquiv1_symm_val dot_S1x1600_S1600x64_S1x64_1_0_0_1_n_n 1600 rfl rfl k
  have el : dot_S1x1600_S1600x64_S1x64_1_0_0_1_n_n.lhsIdx (ix2 p q) ((ValueIdx.contrEquiv1 dot_S1x1600_S1600x64_S1x64_1_0_0_1_n_n 1600 rfl rfl).symm k) = ix2 p k := funext fun a => Fin.ext (by
    match a with
    | ⟨0, _⟩ =>
      show (dot_S1x1600_S1600x64_S1x64_1_0_0_1_n_n.lhsIdx (ix2 p q) _ 0).val = p.val
      unfold DotDims.lhsIdx
      rw [dif_neg (show ¬(0 : Fin S1x1600.rank) ∈ dot_S1x1600_S1600x64_S1x64_1_0_0_1_n_n.lhsBatch by decide), dif_pos (show (0 : Fin S1x1600.rank) ∈ dot_S1x1600_S1600x64_S1x64_1_0_0_1_n_n.lhsNonContracting by decide)]
      rfl
    | ⟨1, _⟩ => exact (dot_S1x1600_S1600x64_S1x64_1_0_0_1_n_n.lhsIdx_val_of_single rfl (ix2 p q) _).trans hk)
  have er : dot_S1x1600_S1600x64_S1x64_1_0_0_1_n_n.rhsIdx (ix2 p q) ((ValueIdx.contrEquiv1 dot_S1x1600_S1600x64_S1x64_1_0_0_1_n_n 1600 rfl rfl).symm k) = ix2 k q := funext fun a => Fin.ext (by
    match a with
    | ⟨0, _⟩ => exact (dot_S1x1600_S1600x64_S1x64_1_0_0_1_n_n.rhsIdx_val_of_single rfl (ix2 p q) _).trans hk
    | ⟨1, _⟩ =>
      show (dot_S1x1600_S1600x64_S1x64_1_0_0_1_n_n.rhsIdx (ix2 p q) _ 1).val = q.val
      unfold DotDims.rhsIdx
      rw [dif_neg (show ¬(1 : Fin S1600x64.rank) ∈ dot_S1x1600_S1600x64_S1x64_1_0_0_1_n_n.rhsBatch by decide), dif_pos (show (1 : Fin S1600x64.rank) ∈ dot_S1x1600_S1600x64_S1x64_1_0_0_1_n_n.rhsNonContracting by decide)]
      rfl)
  rw [el, er]

/-- The product's contraction at output entry (p, q) is the sum over the shared axis. -/
theorem sum_dot_S1x64_S64x1_S1x1_1_0_0_1_n_n (l : S1x64.Idx → EReal) (r : S64x1.Idx → EReal) (p : Fin 1) (q : Fin 1) :
    ∑ c : dot_S1x64_S64x1_S1x1_1_0_0_1_n_n.contr.Idx, l (dot_S1x64_S64x1_S1x1_1_0_0_1_n_n.lhsIdx (ix2 p q) c) * r (dot_S1x64_S64x1_S1x1_1_0_0_1_n_n.rhsIdx (ix2 p q) c)
      = ∑ k : Fin 64, l (ix2 p k) * r (ix2 k q) := by
  rw [← Equiv.sum_comp (ValueIdx.contrEquiv1 dot_S1x64_S64x1_S1x1_1_0_0_1_n_n 64 rfl rfl).symm]
  refine Finset.sum_congr rfl fun k _ => ?_
  have hk := ValueIdx.contrEquiv1_symm_val dot_S1x64_S64x1_S1x1_1_0_0_1_n_n 64 rfl rfl k
  have el : dot_S1x64_S64x1_S1x1_1_0_0_1_n_n.lhsIdx (ix2 p q) ((ValueIdx.contrEquiv1 dot_S1x64_S64x1_S1x1_1_0_0_1_n_n 64 rfl rfl).symm k) = ix2 p k := funext fun a => Fin.ext (by
    match a with
    | ⟨0, _⟩ =>
      show (dot_S1x64_S64x1_S1x1_1_0_0_1_n_n.lhsIdx (ix2 p q) _ 0).val = p.val
      unfold DotDims.lhsIdx
      rw [dif_neg (show ¬(0 : Fin S1x64.rank) ∈ dot_S1x64_S64x1_S1x1_1_0_0_1_n_n.lhsBatch by decide), dif_pos (show (0 : Fin S1x64.rank) ∈ dot_S1x64_S64x1_S1x1_1_0_0_1_n_n.lhsNonContracting by decide)]
      rfl
    | ⟨1, _⟩ => exact (dot_S1x64_S64x1_S1x1_1_0_0_1_n_n.lhsIdx_val_of_single rfl (ix2 p q) _).trans hk)
  have er : dot_S1x64_S64x1_S1x1_1_0_0_1_n_n.rhsIdx (ix2 p q) ((ValueIdx.contrEquiv1 dot_S1x64_S64x1_S1x1_1_0_0_1_n_n 64 rfl rfl).symm k) = ix2 k q := funext fun a => Fin.ext (by
    match a with
    | ⟨0, _⟩ => exact (dot_S1x64_S64x1_S1x1_1_0_0_1_n_n.rhsIdx_val_of_single rfl (ix2 p q) _).trans hk
    | ⟨1, _⟩ =>
      show (dot_S1x64_S64x1_S1x1_1_0_0_1_n_n.rhsIdx (ix2 p q) _ 1).val = q.val
      unfold DotDims.rhsIdx
      rw [dif_neg (show ¬(1 : Fin S64x1.rank) ∈ dot_S1x64_S64x1_S1x1_1_0_0_1_n_n.rhsBatch by decide), dif_pos (show (1 : Fin S64x1.rank) ∈ dot_S1x64_S64x1_S1x1_1_0_0_1_n_n.rhsNonContracting by decide)]
      rfl)
  rw [el, er]

/-- A row gather at (e, j): row `min (start e) 24` of the operand (the start read signed, kept inside the array), column j. -/
theorem read_gather_S25x128_S75x1_S75x128_1_0_n_n_0_1_1128 {α : Type} (x : S25x128.Idx → α) (idx : IVec S75x1 32) (e : Fin 75) (j : Fin 128) :
    Host.gather gather_S25x128_S75x1_S75x128_1_0_n_n_0_1_1128 x idx (ix2 e j)
      = x (ix2 (⟨min (idx (ix2 e (0 : Fin 1))).toInt.toNat 24, by omega⟩ : Fin 25) j) := by
  unfold Host.gather
  congr 1
  funext a
  refine Fin.ext ?_
  match a with
  | ⟨0, _⟩ =>
    show gather_S25x128_S75x1_S75x128_1_0_n_n_0_1_1128.start (ix2 e j) idx 0 + gather_S25x128_S75x1_S75x128_1_0_n_n_0_1_1128.batchCoord (ix2 e j) 0 + gather_S25x128_S75x1_S75x128_1_0_n_n_0_1_1128.offCoord (ix2 e j) 0 = _
    rw [GatherDims.batchCoord_eq_zero _ _ _ (by decide), GatherDims.offCoord_eq_zero _ _ _ (by decide)]
    simp only [Nat.add_zero]
    unfold GatherDims.start
    rw [dif_pos (by decide)]
    have hsi : gather_S25x128_S75x1_S75x128_1_0_n_n_0_1_1128.siIdx (ix2 e j) ⟨List.idxOf (0 : Fin 2) gather_S25x128_S75x1_S75x128_1_0_n_n_0_1_1128.startIndexMap, List.idxOf_lt_length_iff.2 (by decide)⟩ = ix2 e (0 : Fin 1) := by
      funext b; refine Fin.ext ?_
      match b with
      | ⟨0, _⟩ => rfl
      | ⟨1, _⟩ => rfl
    rw [hsi]; rfl
  | ⟨1, _⟩ =>
    show gather_S25x128_S75x1_S75x128_1_0_n_n_0_1_1128.start (ix2 e j) idx 1 + gather_S25x128_S75x1_S75x128_1_0_n_n_0_1_1128.batchCoord (ix2 e j) 1 + gather_S25x128_S75x1_S75x128_1_0_n_n_0_1_1128.offCoord (ix2 e j) 1 = _
    rw [GatherDims.batchCoord_eq_zero _ _ _ (by decide)]
    unfold GatherDims.start GatherDims.offCoord
    rw [dif_neg (by decide), dif_pos (by decide)]
    simp only [Nat.zero_add, Nat.add_zero]
    rfl

/-- A row gather at (e, j): row `min (start e) 24` of the operand (the start read signed, kept inside the array), column j. -/
theorem read_gather_S25x64_S75x1_S75x64_1_0_n_n_0_1_164 {α : Type} (x : S25x64.Idx → α) (idx : IVec S75x1 32) (e : Fin 75) (j : Fin 64) :
    Host.gather gather_S25x64_S75x1_S75x64_1_0_n_n_0_1_164 x idx (ix2 e j)
      = x (ix2 (⟨min (idx (ix2 e (0 : Fin 1))).toInt.toNat 24, by omega⟩ : Fin 25) j) := by
  unfold Host.gather
  congr 1
  funext a
  refine Fin.ext ?_
  match a with
  | ⟨0, _⟩ =>
    show gather_S25x64_S75x1_S75x64_1_0_n_n_0_1_164.start (ix2 e j) idx 0 + gather_S25x64_S75x1_S75x64_1_0_n_n_0_1_164.batchCoord (ix2 e j) 0 + gather_S25x64_S75x1_S75x64_1_0_n_n_0_1_164.offCoord (ix2 e j) 0 = _
    rw [GatherDims.batchCoord_eq_zero _ _ _ (by decide), GatherDims.offCoord_eq_zero _ _ _ (by decide)]
    simp only [Nat.add_zero]
    unfold GatherDims.start
    rw [dif_pos (by decide)]
    have hsi : gather_S25x64_S75x1_S75x64_1_0_n_n_0_1_164.siIdx (ix2 e j) ⟨List.idxOf (0 : Fin 2) gather_S25x64_S75x1_S75x64_1_0_n_n_0_1_164.startIndexMap, List.idxOf_lt_length_iff.2 (by decide)⟩ = ix2 e (0 : Fin 1) := by
      funext b; refine Fin.ext ?_
      match b with
      | ⟨0, _⟩ => rfl
      | ⟨1, _⟩ => rfl
    rw [hsi]; rfl
  | ⟨1, _⟩ =>
    show gather_S25x64_S75x1_S75x64_1_0_n_n_0_1_164.start (ix2 e j) idx 1 + gather_S25x64_S75x1_S75x64_1_0_n_n_0_1_164.batchCoord (ix2 e j) 1 + gather_S25x64_S75x1_S75x64_1_0_n_n_0_1_164.offCoord (ix2 e j) 1 = _
    rw [GatherDims.batchCoord_eq_zero _ _ _ (by decide)]
    unfold GatherDims.start GatherDims.offCoord
    rw [dif_neg (by decide), dif_pos (by decide)]
    simp only [Nat.zero_add, Nat.add_zero]
    rfl

end Cert.KernelIdeal.Ops

end
-- ==== Proof.KIPay.lean ====
/-
  The launch's body, read at an entry.

  Within a block the 64 × 256 × 25 slab is re-laid to 1600 × 256: row r holds x[r / 25, ·, r % 25].
  Entry (bb, 0) of the 64 × 1 block the body stores is then, for the 25 rows r = 25·bb … 25·bb + 24
  that are regrouped into row bb of the 64 × 1600 array (position j of that row is entry
  ((1600·bb + j) / 64, (1600·bb + j) % 64) of the 1600 × 64 second-layer output), the head of their
  second-layer values: every layer a sum of products plus a bias row, a maximum with zero after
  the first and the third.  Narrowing to bf16 is the identity on the extended reals.
-/
import proofs.«157473_j46127948759115_2_alg».proof.Proof.Gen.KernelIdeal.Skeleton
import proofs.«157473_j46127948759115_2_alg».proof.Proof.KIOps
import Idealize.ShloMosaic.Lib.ValueLayout

set_option maxRecDepth 16384

noncomputable section

namespace Cert.KernelIdeal.Pay

open Cert.KernelIdeal Cert.KernelIdeal.Gen Idealize.ShloMosaic Idealize.ShloMosaic.TcCoe Idealize.ShloMosaic.ValueIdx

/-- The zero word's value. -/
abbrev zf : EReal := FloatOps.ofBits (F := Ideal) .f32 0x00000000#32

/-! ## The body's operations at an entry -/

theorem mm1 (l : FVec Ideal S1600x256 .bf16) (r : FVec Ideal S256x128 .bf16) (p : Fin 1600) (q : Fin 128) :
    matmul dot_S1600x256_S256x128_S1600x128_1_0_0_1_n_n none l r (constant S1600x128 .f32 0x00000000#32) (ix2 p q) = ∑ k : Fin 256, l (ix2 p k) * r (ix2 k q) :=
  (Ideal.matmul_constant_zero_apply dot_S1600x256_S256x128_S1600x128_1_0_0_1_n_n none l r (ix2 p q)).trans (Ops.sum_dot_S1600x256_S256x128_S1600x128_1_0_0_1_n_n l r p q)

theorem mm2 (l : FVec Ideal S1600x128 .bf16) (r : FVec Ideal S128x64 .bf16) (p : Fin 1600) (q : Fin 64) :
    matmul dot_S1600x128_S128x64_S1600x64_1_0_0_1_n_n none l r (constant S1600x64 .f32 0x00000000#32) (ix2 p q) = ∑ k : Fin 128, l (ix2 p k) * r (ix2 k q) :=
  (Ideal.matmul_constant_zero_apply dot_S1600x128_S128x64_S1600x64_1_0_0_1_n_n none l r (ix2 p q)).trans (Ops.sum_dot_S1600x128_S128x64_S1600x64_1_0_0_1_n_n l r p q)

theorem mm3 (l : FVec Ideal S64x1600 .bf16) (r : FVec Ideal S1600x64 .bf16) (p : Fin 64) (q : Fin 64) :
    matmul dot_S64x1600_S1600x64_S64x64_1_0_0_1_n_n none l r (constant S64x64 .f32 0x00000000#32) (ix2 p q) = ∑ k : Fin 1600, l (ix2 p k) * r (ix2 k q) :=
  (Ideal.matmul_constant_zero_apply dot_S64x1600_S1600x64_S64x64_1_0_0_1_n_n none l r (ix2 p q)).trans (Ops.sum_dot_S64x1600_S1600x64_S64x64_1_0_0_1_n_n l r p q)

theorem mm4 (l : FVec Ideal S64x64 .bf16) (r : FVec Ideal S64x1 .bf16) (p : Fin 64) (q : Fin 1) :
    matmul dot_S64x64_S64x1_S64x1_1_0_0_1_n_n none l r (constant S64x1 .f32 0x00000000#32) (ix2 p q) = ∑ k : Fin 64, l (ix2 p k) * r (ix2 k q) :=
  (Ideal.matmul_constant_zero_apply dot_S64x64_S64x1_S64x1_1_0_0_1_n_n none l r (ix2 p q)).trans (Ops.sum_dot_S64x64_S64x1_S64x1_1_0_0_1_n_n l r p q)

/-- The slab re-laid to 1600 × 256: row r is x[r / 25, ·, r % 25]. -/
theorem relay_apply (x0 : FVec Ideal S64x256x25 .f32) (r : Fin 1600) (t : Fin 256) :
    shapeCast S1600x256 (transpose S64x25x256 [0, 2, 1] x0 transposes_S64x256x25_p0_2_1_S64x25x256) shapeCasts_S64x25x256_S1600x256 (ix2 r t)
      = x0 (ix3 (⟨r.val / 25, by omega⟩ : Fin 64) t (⟨r.val % 25, by omega⟩ : Fin 25)) := by
  rw [shapeCast_apply _ _ (ix2 r t) (ix3 (⟨r.val / 25, by omega⟩ : Fin 64) (⟨r.val % 25, by omega⟩ : Fin 25) t) (by
    rw [Shape.rowMajor_val_three, Shape.rowMajor_val_two]
    show (r.val / 25 * 25 + r.val % 25) * 256 + t.val = r.val * 256 + t.val
    omega)]
  exact transpose_apply [0, 2, 1] x0 _ _ _ (fun b => by
    match b with
    | ⟨0, _⟩ => rfl
    | ⟨1, _⟩ => rfl
    | ⟨2, _⟩ => rfl)

/-- A bias row repeated down R rows reads, at (p, q), the row at q. -/
theorem biasRow_apply {α : Type} {R C : ℕ} (x : (⟨2, ![1, C]⟩ : Shape).Idx → α) (hs : (⟨2, ![1, C]⟩ : Shape).ShapeCasts ⟨2, ![1, C]⟩)
    (hb : (⟨2, ![1, C]⟩ : Shape).Broadcasts ⟨2, ![R, C]⟩) (p : Fin R) (q : Fin C) :
    broadcastTo ⟨2, ![R, C]⟩ (shapeCast ⟨2, ![1, C]⟩ x hs) hb (ix2 p q) = x (ix2 (0 : Fin 1) q) := by
  rw [shapeCast_self]
  exact broadcastTo_apply x hb (ix2 p q) (ix2 (0 : Fin 1) q) (fun a => by
    match a with
    | ⟨0, _⟩ => rfl
    | ⟨1, _⟩ => show q.val = if C = 1 then 0 else q.val; split <;> omega)

/-- The same with the row already bare. -/
theorem biasRow_apply' {α : Type} {R C : ℕ} (x : (⟨2, ![1, C]⟩ : Shape).Idx → α)
    (hb : (⟨2, ![1, C]⟩ : Shape).Broadcasts ⟨2, ![R, C]⟩) (p : Fin R) (q : Fin C) :
    broadcastTo ⟨2, ![R, C]⟩ x hb (ix2 p q) = x (ix2 (0 : Fin 1) q) :=
  broadcastTo_apply x hb (ix2 p q) (ix2 (0 : Fin 1) q) (fun a => by
    match a with
    | ⟨0, _⟩ => rfl
    | ⟨1, _⟩ => show q.val = if C = 1 then 0 else q.val; split <;> omega)

/-- The 1600 × 64 second-layer output regrouped to 64 × 1600: position j of row bb is entry
    ((1600·bb + j) / 64, (1600·bb + j) % 64). -/
theorem regroup_apply (v : FVec Ideal S1600x64 .f32) (bb : Fin 64) (j : Fin 1600) :
    shapeCast S64x1600 v shapeCasts_S1600x64_S64x1600 (ix2 bb j)
      = v (ix2 (⟨(bb.val * 1600 + j.val) / 64, by omega⟩ : Fin 1600) (⟨(bb.val * 1600 + j.val) % 64, by omega⟩ : Fin 64)) :=
  shapeCast_apply v _ (ix2 bb j) _ (by
    rw [Shape.rowMajor_val_two, Shape.rowMajor_val_two]
    show (bb.val * 1600 + j.val) / 64 * 64 + (bb.val * 1600 + j.val) % 64 = bb.val * 1600 + j.val
    omega)

/-! ## The block's value -/

/-- First layer, in-block row r. -/
def blk1 (x0 : FVec Ideal S64x256x25 .f32) (x1 : FVec Ideal S256x128 .bf16) (x2 : FVec Ideal S1x128 .f32) (r : Fin 1600) (k : Fin 128) : EReal :=
  max ((∑ t : Fin 256, x0 (ix3 (⟨r.val / 25, by omega⟩ : Fin 64) t (⟨r.val % 25, by omega⟩ : Fin 25)) * x1 (ix2 t k)) + x2 (ix2 (0 : Fin 1) k)) zf

/-- Second layer, in-block row r. -/
def blk2 (x0 : FVec Ideal S64x256x25 .f32) (x1 : FVec Ideal S256x128 .bf16) (x2 : FVec Ideal S1x128 .f32) (x3 : FVec Ideal S128x64 .bf16)
    (x4 : FVec Ideal S1x64 .f32) (r : Fin 1600) (g : Fin 64) : EReal :=
  (∑ k : Fin 128, blk1 x0 x1 x2 r k * x3 (ix2 k g)) + x4 (ix2 (0 : Fin 1) g)

/-- The head of in-block batch row bb. -/
def blkOut (x0 : FVec Ideal S64x256x25 .f32) (x1 : FVec Ideal S256x128 .bf16) (x2 : FVec Ideal S1x128 .f32) (x3 : FVec Ideal S128x64 .bf16)
    (x4 : FVec Ideal S1x64 .f32) (x5 : FVec Ideal S1600x64 .bf16) (x6 : FVec Ideal S1x64 .f32) (x7 : FVec Ideal S64x1 .bf16) (x8 : FVec Ideal S1x1 .f32) (bb : Fin 64) : EReal :=
  (∑ k : Fin 64, max ((∑ j : Fin 1600, blk2 x0 x1 x2 x3 x4 (⟨(bb.val * 1600 + j.val) / 64, by omega⟩ : Fin 1600)
      (⟨(bb.val * 1600 + j.val) % 64, by omega⟩ : Fin 64) * x5 (ix2 j k)) + x6 (ix2 (0 : Fin 1) k)) zf * x7 (ix2 k (0 : Fin 1)))
    + x8 (ix2 (0 : Fin 1) (0 : Fin 1))

/-! ## The body's four layers, each over any input -/

theorem layer1 (x0 : FVec Ideal S64x256x25 .f32) (x1 : FVec Ideal S256x128 .bf16) (x2 : FVec Ideal S1x128 .f32) (r : Fin 1600) (k : Fin 128) :
    maximumf (addf (matmul dot_S1600x256_S256x128_S1600x128_1_0_0_1_n_n none
        (truncf .bf16 (shapeCast S1600x256 (transpose S64x25x256 [0, 2, 1] x0 transposes_S64x256x25_p0_2_1_S64x25x256) shapeCasts_S64x25x256_S1600x256) bitsLt_bf16_f32)
        (shapeCast S256x128 x1 shapeCasts_S256x128_S256x128) (constant S1600x128 .f32 0x00000000#32))
      (broadcastTo S1600x128 (shapeCast S1x128 x2 shapeCasts_S1x128_S1x128) broadcasts_S1x128_S1600x128))
      (broadcast S1600x128 (Scalar.ofBits .f32 0x00000000#32)) (ix2 r k) = blk1 x0 x1 x2 r k := by
  unfold blk1
  simp only [addf_apply, maximumf_apply, truncf_apply, broadcast_apply, mm1, mm2, mm3, mm4, relay_apply, biasRow_apply, biasRow_apply', regroup_apply, shapeCast_self]
  show max (_ + _) _ = max (_ + _) _
  congr 2
  refine Finset.sum_congr rfl fun t _ => ?_
  congr 1
  exact relay_apply x0 r t

theorem layer2 (a1 : FVec Ideal S1600x128 .f32) (x3 : FVec Ideal S128x64 .bf16) (x4 : FVec Ideal S1x64 .f32) (r : Fin 1600) (g : Fin 64) :
    addf (matmul dot_S1600x128_S128x64_S1600x64_1_0_0_1_n_n none (truncf .bf16 a1 bitsLt_bf16_f32)
        (shapeCast S128x64 x3 shapeCasts_S128x64_S128x64) (constant S1600x64 .f32 0x00000000#32))
      (broadcastTo S1600x64 (shapeCast S1x64 x4 shapeCasts_S1x64_S1x64) broadcasts_S1x64_S1600x64) (ix2 r g)
      = (∑ k : Fin 128, a1 (ix2 r k) * x3 (ix2 k g)) + x4 (ix2 (0 : Fin 1) g) := by
  simp only [addf_apply, maximumf_apply, truncf_apply, broadcast_apply, mm1, mm2, mm3, mm4, relay_apply, biasRow_apply, biasRow_apply', regroup_apply, shapeCast_self]

theorem layer3 (a2 : FVec Ideal S1600x64 .f32) (x5 : FVec Ideal S1600x64 .bf16) (x6 : FVec Ideal S1x64 .f32) (bb : Fin 64) (k : Fin 64) :
    maximumf (addf (matmul dot_S64x1600_S1600x64_S64x64_1_0_0_1_n_n none
        (truncf .bf16 (shapeCast S64x1600 a2 shapeCasts_S1600x64_S64x1600) bitsLt_bf16_f32)
        (shapeCast S1600x64 x5 shapeCasts_S1600x64_S1600x64) (constant S64x64 .f32 0x00000000#32))
      (broadcastTo S64x64 (shapeCast S1x64 x6 shapeCasts_S1x64_S1x64) broadcasts_S1x64_S64x64))
      (broadcast S64x64 (Scalar.ofBits .f32 0x00000000#32)) (ix2 bb k)
      = max ((∑ j : Fin 1600, a2 (ix2 (⟨(bb.val * 1600 + j.val) / 64, by omega⟩ : Fin 1600) (⟨(bb.val * 1600 + j.val) % 64, by omega⟩ : Fin 64))
          * x5 (ix2 j k)) + x6 (ix2 (0 : Fin 1) k)) zf := by
  simp only [addf_apply, maximumf_apply, truncf_apply, broadcast_apply, mm1, mm2, mm3, mm4, relay_apply, biasRow_apply, biasRow_apply', regroup_apply, shapeCast_self]

theorem layer4 (a3 : FVec Ideal S64x64 .f32) (x7 : FVec Ideal S64x1 .bf16) (x8 : FVec Ideal S1x1 .f32) (bb : Fin 64) :
    addf (matmul dot_S64x64_S64x1_S64x1_1_0_0_1_n_n none (truncf .bf16 a3 bitsLt_bf16_f32)
        (shapeCast S64x1 x7 shapeCasts_S64x1_S64x1) (constant S64x1 .f32 0x00000000#32))
      (broadcastTo S64x1 (shapeCast S1x1 x8 shapeCasts_S1x1_S1x1) broadcasts_S1x1_S64x1) (ix2 bb (0 : Fin 1))
      = (∑ k : Fin 64, a3 (ix2 bb k) * x7 (ix2 k (0 : Fin 1))) + x8 (ix2 (0 : Fin 1) (0 : Fin 1)) := by
  simp only [addf_apply, maximumf_apply, truncf_apply, broadcast_apply, mm1, mm2, mm3, mm4, relay_apply, biasRow_apply, biasRow_apply', regroup_apply, shapeCast_self]

set_option maxHeartbeats 4000000 in
/-- The body's stored value at entry (bb, 0): the four layers composed. -/
theorem pay_apply (x0 : FVec Ideal S64x256x25 .f32) (x1 : FVec Ideal S256x128 .bf16) (x2 : FVec Ideal S1x128 .f32) (x3 : FVec Ideal S128x64 .bf16)
    (x4 : FVec Ideal S1x64 .f32) (x5 : FVec Ideal S1600x64 .bf16) (x6 : FVec Ideal S1x64 .f32) (x7 : FVec Ideal S64x1 .bf16) (x8 : FVec Ideal S1x1 .f32) (bb : Fin 64) :
    k0_pay1 (F := Ideal) (k0_pay2 (F := Ideal) x0 x1 x2 x3 x4 x5 x6 x7) x8 (ix2 bb (0 : Fin 1)) = blkOut x0 x1 x2 x3 x4 x5 x6 x7 x8 bb := by
  unfold k0_pay1 k0_pay2 blkOut blk2
  refine (layer4 _ x7 x8 bb).trans ?_
  congr 1
  refine Finset.sum_congr rfl fun k _ => ?_
  congr 1
  refine (layer3 _ x5 x6 bb k).trans ?_
  congr 2
  refine Finset.sum_congr rfl fun j _ => ?_
  congr 1
  refine (layer2 _ x3 x4 _ _).trans ?_
  congr 1
  refine Finset.sum_congr rfl fun k2 _ => ?_
  congr 1
  exact layer1 x0 x1 x2 _ k2

end Cert.KernelIdeal.Pay

end
-- ==== Proof.KIStages.lean ====
/-
  The host recomputation of batch entry 0, stage by stage (the operations are listed in the module
  that relates them to the program's text).

  From the 25 rows x[0, ·, f]: the 25 × 128 first-layer products; each destination node's sum over
  its incoming edges of the source node's row scaled by (deg src · deg dst)^(-1/2), deg counting
  the edges into a node; the bias and the maximum with zero; the same through the second layer (no
  maximum); the 25 × 64 result read as one row of 1600; the head's two layers; and the scalar
  written over row 0 of the launch's 8192 × 1 result, which then gets two trailing unit axes.
  Negative endpoints are first shifted up by 25.
-/
import proofs.«157473_j46127948759115_2_alg».proof.Proof.Gen.KernelIdeal
import Idealize.ShloMosaic.PureOps.Ideal

set_option maxRecDepth 16384

noncomputable section

namespace Cert.KernelIdeal.Hand

open Cert.KernelIdeal Cert.KernelIdeal.Gen Idealize.ShloMosaic Idealize.ShloMosaic.TcCoe

variable {F : FTy → Type} [FloatOps F]

/-- An endpoint list as gather / scatter start indices: negatives shifted up by 25, one column. -/
def kIx (s : IVec S75 32) : IVec S75x1 32 :=
  broadcastInDim S75x1 ![0] bcast_S75_S75x1_0
    (select (cmpi .slt s (broadcastInDim S75 ![] bcast_S_S75 (constantI S_ 32 0#32)))
      (addi s (broadcastInDim S75 ![] bcast_S_S75 (constantI S_ 32 25#32))) s)

/-- The number of listed edges into each of the 25 nodes. -/
def kDeg (d : IVec S75 32) : FVec F S25 .f32 :=
  Host.scatterAdd scatter_S25_S75x1_S75_n_0_0_1 (broadcastInDim S25 ![] bcast_S_S25 (constant S_ .f32 0x00000000#32))
    (kIx d) (broadcastInDim S75 ![] bcast_S_S75 (constant S_ .f32 0x3F800000#32))

/-- Each edge's weight (deg src · deg dst)^(-1/2). -/
def kNorm (s d : IVec S75 32) : FVec F S75 .f32 :=
  Host.rsqrt (mulf (Host.gather gather_S25_S75x1_S75_n_0_n_n_0_1_1 (kDeg d) (kIx s))
    (Host.gather gather_S25_S75x1_S75_n_0_n_n_0_1_1 (kDeg d) (kIx d)))

/-- The 25 rows x[0, ·, f] times the first weight matrix. -/
def kP1 (x : FVec F S8192x256x25 .f32) (W1 : FVec F S256x128 .f32) : FVec F S25x128 .f32 :=
  Host.dotGeneral dot_S25x256_S256x128_S25x128_1_0_0_1_n_n none
    (transpose S25x256 [1, 0] (shapeCast S256x25 (extractStridedSlice S1x256x25 ![0, 0, 0] x slices_S8192x256x25_S1x256x25_0_0_0)
      shapeCasts_S1x256x25_S256x25) transposes_S256x25_S25x256_1_0) W1

/-- The first layer's edge sums. -/
def kAgg1 (x : FVec F S8192x256x25 .f32) (W1 : FVec F S256x128 .f32) (s d : IVec S75 32) : FVec F S25x128 .f32 :=
  Host.scatterAdd scatter_S25x128_S75x1_S75x128_1_0_0_1 (broadcastInDim S25x128 ![] bcast_S_S25x128 (constant S_ .f32 0x00000000#32))
    (broadcastInDim S75x1 ![0] bcast_S75_S75x1_0 d)
    (mulf (broadcastInDim S75x128 ![0, 1] bcast_S75x1_S75x128_0_1 (broadcastInDim S75x1 ![0] bcast_S75_S75x1_0 (kNorm s d)))
      (Host.gather gather_S25x128_S75x1_S75x128_1_0_n_n_0_1_1128 (kP1 x W1) (kIx s)))

/-- The first layer's output for the 25 nodes. -/
def kA1 (x : FVec F S8192x256x25 .f32) (W1 : FVec F S256x128 .f32) (b1 : FVec F S128 .f32) (s d : IVec S75 32) : FVec F S25x128 .f32 :=
  maximumf (addf (kAgg1 x W1 s d) (broadcastInDim S25x128 ![0, 1] bcast_S1x128_S25x128_0_1 (broadcastInDim S1x128 ![1] bcast_S128_S1x128_1 b1)))
    (broadcastInDim S25x128 ![] bcast_S_S25x128 (constant S_ .f32 0x00000000#32))

/-- The second layer's edge sums. -/
def kAgg2 (x : FVec F S8192x256x25 .f32) (W1 : FVec F S256x128 .f32) (b1 : FVec F S128 .f32) (W2 : FVec F S128x64 .f32) (s d : IVec S75 32) : FVec F S25x64 .f32 :=
  Host.scatterAdd scatter_S25x64_S75x1_S75x64_1_0_0_1 (broadcastInDim S25x64 ![] bcast_S_S25x64 (constant S_ .f32 0x00000000#32))
    (broadcastInDim S75x1 ![0] bcast_S75_S75x1_0 d)
    (mulf (broadcastInDim S75x64 ![0, 1] bcast_S75x1_S75x64_0_1 (broadcastInDim S75x1 ![0] bcast_S75_S75x1_0 (kNorm s d)))
      (Host.gather gather_S25x64_S75x1_S75x64_1_0_n_n_0_1_164
        (Host.dotGeneral dot_S25x128_S128x64_S25x64_1_0_0_1_n_n none (kA1 x W1 b1 s d) W2) (kIx s)))

/-- The second layer's output for the 25 nodes, as one row of 1600. -/
def kRow (x : FVec F S8192x256x25 .f32) (W1 : FVec F S256x128 .f32) (b1 : FVec F S128 .f32) (W2 : FVec F S128x64 .f32) (b2 : FVec F S64 .f32)
    (s d : IVec S75 32) : FVec F S1x1600 .f32 :=
  shapeCast S1x1600 (addf (kAgg2 x W1 b1 W2 s d)
    (broadcastInDim S25x64 ![0, 1] bcast_S1x64_S25x64_0_1 (broadcastInDim S1x64 ![1] bcast_S64_S1x64_1 b2))) shapeCasts_S25x64_S1x1600

/-- The head applied to that row: batch entry 0's scalar. -/
def kHead0 (r : FVec F S1x1600 .f32) (Wm1 : FVec F S1600x64 .f32) (bm1 : FVec F S64 .f32) (Wm2 : FVec F S64x1 .f32) (bm2 : FVec F S1 .f32) : FVec F S1x1 .f32 :=
  addf (Host.dotGeneral dot_S1x64_S64x1_S1x1_1_0_0_1_n_n none
      (maximumf (addf (Host.dotGeneral dot_S1x1600_S1600x64_S1x64_1_0_0_1_n_n none r Wm1) (broadcastInDim S1x64 ![1] bcast_S64_S1x64_1 bm1))
        (broadcastInDim S1x64 ![] bcast_S_S1x64 (constant S_ .f32 0x00000000#32))) Wm2)
    (broadcastInDim S1x1 ![1] bcast_S1_S1x1_1 bm2)

/-- The program's result: the launch's result `o` with row 0 replaced by entry 0's scalar, two unit axes appended. -/
def kOut (o : FVec F S8192x1 .f32) (h : FVec F S1x1 .f32) : FVec F S8192x1x1 .f32 :=
  broadcastInDim S8192x1x1 ![0, 1] bcast_S8192x1_S8192x1x1_0_1
    (Host.scatter scatter_S8192x1_S1_S1_0_0_0_0 (fun _ b => b) o (broadcastInDim S1 ![] bcast_S_S1 (constantI S_ 32 0#32))
      (shapeCast S1 h shapeCasts_S1x1_S1))

end Cert.KernelIdeal.Hand

end
-- ==== Proof.RefOps.lean ====
/-
  The reference's two row gathers out of its 204800-row products, read at an entry: for edge e the
  operand's row whose number is the e-th start index, kept inside the operand.
-/
import proofs.«157473_j46127948759115_2_alg».proof.Proof.Gen.ReferenceIdeal
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

namespace Cert.ReferenceIdeal.Ops

open Cert.ReferenceIdeal Idealize.ShloMosaic Idealize.ShloMosaic.TcCoe Idealize.ShloMosaic.ValueIdx

/-- A row gather at (e, j): row `min (start e) 204799` of the operand (the start read signed, kept inside the array), column j. -/
theorem read_gather_S204800x128_S75x1_S75x128_1_0_n_n_0_1_1128 {α : Type} (x : S204800x128.Idx → α) (idx : IVec S75x1 32) (e : Fin 75) (j : Fin 128) :
    Host.gather gather_S204800x128_S75x1_S75x128_1_0_n_n_0_1_1128 x idx (ix2 e j)
      = x (ix2 (⟨min (idx (ix2 e (0 : Fin 1))).toInt.toNat 204799, by omega⟩ : Fin 204800) j) := by
  unfold Host.gather
  congr 1
  funext a
  refine Fin.ext ?_
  match a with
  | ⟨0, _⟩ =>
    show gather_S204800x128_S75x1_S75x128_1_0_n_n_0_1_1128.start (ix2 e j) idx 0 + gather_S204800x128_S75x1_S75x128_1_0_n_n_0_1_1128.batchCoord (ix2 e j) 0 + gather_S204800x128_S75x1_S75x128_1_0_n_n_0_1_1128.offCoord (ix2 e j) 0 = _
    rw [GatherDims.batchCoord_eq_zero _ _ _ (by decide), GatherDims.offCoord_eq_zero _ _ _ (by decide)]
    simp only [Nat.add_zero]
    unfold GatherDims.start
    rw [dif_pos (by decide)]
    have hsi : gather_S204800x128_S75x1_S75x128_1_0_n_n_0_1_1128.siIdx (ix2 e j) ⟨List.idxOf (0 : Fin 2) gather_S204800x128_S75x1_S75x128_1_0_n_n_0_1_1128.startIndexMap, List.idxOf_lt_length_iff.2 (by decide)⟩ = ix2 e (0 : Fin 1) := by
      funext b; refine Fin.ext ?_
      match b with
      | ⟨0, _⟩ => rfl
      | ⟨1, _⟩ => rfl
    rw [hsi]; rfl
  | ⟨1, _⟩ =>
    show gather_S204800x128_S75x1_S75x128_1_0_n_n_0_1_1128.start (ix2 e j) idx 1 + gather_S204800x128_S75x1_S75x128_1_0_n_n_0_1_1128.batchCoord (ix2 e j) 1 + gather_S204800x128_S75x1_S75x128_1_0_n_n_0_1_1128.offCoord (ix2 e j) 1 = _
    rw [GatherDims.batchCoord_eq_zero _ _ _ (by decide)]
    unfold GatherDims.start GatherDims.offCoord
    rw [dif_neg (by decide), dif_pos (by decide)]
    simp only [Nat.zero_add, Nat.add_zero]
    rfl

/-- A row gather at (e, j): row `min (start e) 204799` of the operand (the start read signed, kept inside the array), column j. -/
theorem read_gather_S204800x64_S75x1_S75x64_1_0_n_n_0_1_164 {α : Type} (x : S204800x64.Idx → α) (idx : IVec S75x1 32) (e : Fin 75) (j : Fin 64) :
    Host.gather gather_S204800x64_S75x1_S75x64_1_0_n_n_0_1_164 x idx (ix2 e j)
      = x (ix2 (⟨min (idx (ix2 e (0 : Fin 1))).toInt.toNat 204799, by omega⟩ : Fin 204800) j) := by
  unfold Host.gather
  congr 1
  funext a
  refine Fin.ext ?_
  match a with
  | ⟨0, _⟩ =>
    show gather_S204800x64_S75x1_S75x64_1_0_n_n_0_1_164.start (ix2 e j) idx 0 + gather_S204800x64_S75x1_S75x64_1_0_n_n_0_1_164.batchCoord (ix2 e j) 0 + gather_S204800x64_S75x1_S75x64_1_0_n_n_0_1_164.offCoord (ix2 e j) 0 = _
    rw [GatherDims.batchCoord_eq_zero _ _ _ (by decide), GatherDims.offCoord_eq_zero _ _ _ (by decide)]
    simp only [Nat.add_zero]
    unfold GatherDims.start
    rw [dif_pos (by decide)]
    have hsi : gather_S204800x64_S75x1_S75x64_1_0_n_n_0_1_164.siIdx (ix2 e j) ⟨List.idxOf (0 : Fin 2) gather_S204800x64_S75x1_S75x64_1_0_n_n_0_1_164.startIndexMap, List.idxOf_lt_length_iff.2 (by decide)⟩ = ix2 e (0 : Fin 1) := by
      funext b; refine Fin.ext ?_
      match b with
      | ⟨0, _⟩ => rfl
      | ⟨1, _⟩ => rfl
    rw [hsi]; rfl
  | ⟨1, _⟩ =>
    show gather_S204800x64_S75x1_S75x64_1_0_n_n_0_1_164.start (ix2 e j) idx 1 + gather_S204800x64_S75x1_S75x64_1_0_n_n_0_1_164.batchCoord (ix2 e j) 1 + gather_S204800x64_S75x1_S75x64_1_0_n_n_0_1_164.offCoord (ix2 e j) 1 = _
    rw [GatherDims.batchCoord_eq_zero _ _ _ (by decide)]
    unfold GatherDims.start GatherDims.offCoord
    rw [dif_neg (by decide), dif_pos (by decide)]
    simp only [Nat.zero_add, Nat.add_zero]
    rfl

end Cert.ReferenceIdeal.Ops

end
-- ==== Proof.Graph.lean ====
/-
  Batch entry 0: the kernel's host recomputation and the reference agree.

  The reference gathers, for each edge, row src(e) of its 204800-row layer products; the kernel
  gathers row src(e) of the 25-row products it recomputed from x[0].  With every source endpoint in
  [0, 25) neither gather is cut off at the operand's last row and the shift of negative endpoints
  never applies, so both read row src(e); and rows 0 … 24 of the 204800-row products are the products
  of the rows x[0, ·, f], because node n = 25·b + f holds x[b, ·, f].  The edge sums are then the
  same scatter of the same updates; below row 25 the reference's concatenation is the edge sums;
  and so on through the second layer, the reshaping to one row of 1600, and the head.
-/
import proofs.«157473_j46127948759115_2_alg».proof.Proof.KIStages
import proofs.«157473_j46127948759115_2_alg».proof.Proof.KIOps
import proofs.«157473_j46127948759115_2_alg».proof.Proof.RefOps
import proofs.«157473_j46127948759115_2_alg».proof.Proof.Gen.ReferenceIdeal.Read
import Idealize.ShloMosaic.Lib.Affine
import Idealize.ShloMosaic.Lib.ValueIdx
import Idealize.ShloMosaic.Lib.Pipeline.Value
import Idealize.ShloMosaic.PureOps.Ideal.Laws

set_option maxRecDepth 16384

noncomputable section

namespace Cert.Bridge

open Idealize.ShloMosaic Idealize.ShloMosaic.TcCoe Idealize.ShloMosaic.ValueIdx
open Cert.ReferenceIdeal Cert.ReferenceIdeal.Gen Cert.ReferenceIdeal.Read
open Cert.KernelIdeal.Hand (kIx kDeg kNorm kP1 kAgg1 kA1 kAgg2 kRow kHead0 kOut)

/-! ## Two broadcasts read at an entry -/

/-- A scalar spread over any shape reads the scalar. -/
theorem splat_apply {α : Type} {t : Shape} (h : (⟨0, ![]⟩ : Shape).BroadcastsInDim t ![]) (c : (⟨0, ![]⟩ : Shape).Idx → α) (j : t.Idx) :
    broadcastInDim t ![] h c j = c ix0 :=
  broadcastInDim_apply ![] h c j ix0 (fun a => a.elim0)

/-- A vector given a leading unit axis and repeated down R rows reads, at (p, q), the vector at q. -/
theorem rowBias_apply {α : Type} {R C : ℕ} (h1 : (⟨1, ![C]⟩ : Shape).BroadcastsInDim ⟨2, ![1, C]⟩ ![1])
    (h2 : (⟨2, ![1, C]⟩ : Shape).BroadcastsInDim ⟨2, ![R, C]⟩ ![0, 1]) (b : (⟨1, ![C]⟩ : Shape).Idx → α) (p : Fin R) (q : Fin C) :
    broadcastInDim ⟨2, ![R, C]⟩ ![0, 1] h2 (broadcastInDim ⟨2, ![1, C]⟩ ![1] h1 b) (ix2 p q) = b (ix1 q) := by
  rw [broadcastInDim_apply ![0, 1] h2 _ (ix2 p q) (ix2 (0 : Fin 1) q) (fun a => by
      match a with
      | ⟨0, _⟩ => rfl
      | ⟨1, _⟩ => show q.val = if C = 1 then 0 else q.val; split <;> omega),
    broadcastInDim_apply ![1] h1 _ (ix2 (0 : Fin 1) q) (ix1 q) (fun a => by
      match a with
      | ⟨0, _⟩ => show q.val = if C = 1 then 0 else q.val; split <;> omega)]

/-- Every source endpoint is a node number: in [0, 25). -/
def InRange (s : IVec S75 32) : Prop := ∀ e : Fin 75, 0 ≤ (s (ix1 e)).toInt ∧ (s (ix1 e)).toInt < 25

/-! ## In-range endpoints pass the shift of negatives unchanged -/

theorem sel_nonneg (v c : BitVec 32) (h : 0 ≤ v.toInt) :
    Scalar.select (IntOp.cmpi .slt v 0#32) (IntOp.addi v c) v = v := by
  unfold Scalar.select
  rw [if_neg]
  intro h1
  have h2 := IntOp.cmpi_slt.mp h1
  have h3 : (0#32 : BitVec 32).toInt = 0 := by decide
  omega

/-- A list of non-negative endpoints, negatives shifted up by any `c`, as a column: entry e is endpoint e. -/
theorem shift_col (s : IVec S75 32) (c : BitVec 32) (hs : InRange s) (e : Fin 75) :
    broadcastInDim S75x1 ![0] bcast_S75_S75x1_0
      (select (cmpi .slt s (broadcastInDim S75 ![] bcast_S_S75 (constantI S_ 32 0#32)))
        (addi s (broadcastInDim S75 ![] bcast_S_S75 (constantI S_ 32 c))) s) (ix2 e (0 : Fin 1)) = s (ix1 e) := by
  rw [broadcastInDim_apply ![0] bcast_S75_S75x1_0 _ (ix2 e (0 : Fin 1)) (ix1 e) (fun a => by match a with | ⟨0, _⟩ => rfl)]
  exact sel_nonneg _ _ (hs e).1

theorem kIx_col (s : IVec S75 32) (hs : InRange s) (e : Fin 75) : kIx s (ix2 e (0 : Fin 1)) = s (ix1 e) :=
  shift_col s 25#32 hs e
theorem v34_col (s : IVec S75 32) (hs : InRange s) (e : Fin 75) : val_main_v34 (F := Ideal) s (ix2 e (0 : Fin 1)) = s (ix1 e) :=
  shift_col s 204800#32 hs e
theorem v79_col (s : IVec S75 32) (hs : InRange s) (e : Fin 75) : val_main_v79 (F := Ideal) s (ix2 e (0 : Fin 1)) = s (ix1 e) :=
  shift_col s 204800#32 hs e

/-- The row an in-range endpoint names. -/
def rowOf (s : IVec S75 32) (hs : InRange s) (e : Fin 75) : Fin 25 :=
  ⟨(s (ix1 e)).toInt.toNat, by have := hs e; omega⟩

/-! ## The first layer's products, row by row -/

/-- The kernel's 25-row product: row f is x[0, ·, f] against the weights. -/
theorem kP1_apply (x : FVec Ideal S8192x256x25 .f32) (W1 : FVec Ideal S256x128 .f32) (f : Fin 25) (k : Fin 128) :
    kP1 x W1 (ix2 f k) = ∑ s : Fin 256, x (ix3 (0 : Fin 8192) s f) * W1 (ix2 s k) := by
  unfold kP1
  simp only [Host.dotGeneral]
  rw [Ideal.dotGeneral_apply, Cert.KernelIdeal.Ops.sum_dot_S25x256_S256x128_S25x128_1_0_0_1_n_n]
  refine Finset.sum_congr rfl fun s _ => ?_
  congr 1
  rw [transpose_apply [1, 0] _ _ (ix2 f s) (ix2 s f) (fun b => by match b with | ⟨0, _⟩ => rfl | ⟨1, _⟩ => rfl)]
  rw [shapeCast_apply _ _ (ix2 s f) (ix3 (0 : Fin 1) s f) (by
    rw [Shape.rowMajor_val_three, Shape.rowMajor_val_two]
    show ((0 : ℕ) * 256 + s.val) * 25 + f.val = s.val * 25 + f.val
    omega)]
  exact extractStridedSlice_apply ![0, 0, 0] x _ (ix3 (0 : Fin 1) s f) (ix3 (0 : Fin 8192) s f) (fun a => by
    match a with
    | ⟨0, _⟩ => rfl
    | ⟨1, _⟩ => show s.val = 0 + s.val; omega
    | ⟨2, _⟩ => show f.val = 0 + f.val; omega)

/-- The reference's 204800-row product: row n = 25·b + f is x[b, ·, f] against the weights. -/
theorem v2_row (x : FVec Ideal S8192x256x25 .f32) (W1 : FVec Ideal S256x128 .f32) (n : Fin 204800) (k : Fin 128) :
    val_main_v2 (F := Ideal) x W1 (ix2 n k)
      = ∑ s : Fin 256, x (ix3 (⟨n.val / 25, by omega⟩ : Fin 8192) s (⟨n.val % 25, by omega⟩ : Fin 25)) * W1 (ix2 s k) := by
  rw [val_main_v2_apply]
  refine Finset.sum_congr rfl fun s _ => ?_
  rw [val_main_v1_apply, val_main_v0_apply]
  congr 1
  · congr 1; funext a; refine Fin.ext ?_
    match a with
    | ⟨0, _⟩ => show (n.val * 256 + s.val) / 6400 = n.val / 25; omega
    | ⟨1, _⟩ => show (n.val * 256 + s.val) % 256 = s.val; omega
    | ⟨2, _⟩ => show (n.val * 256 + s.val) / 256 % 25 = n.val % 25; omega
  · congr 1; funext a; refine Fin.ext ?_
    match a with
    | ⟨0, _⟩ => rfl
    | ⟨1, _⟩ => rfl

/-! ## The gathered rows are the same rows -/

theorem gather1_eq (x : FVec Ideal S8192x256x25 .f32) (W1 : FVec Ideal S256x128 .f32) (s : IVec S75 32) (hs : InRange s)
    (e : Fin 75) (k : Fin 128) :
    Host.gather Cert.KernelIdeal.gather_S25x128_S75x1_S75x128_1_0_n_n_0_1_1128 (kP1 x W1) (kIx s) (ix2 e k) = val_main_v35 (F := Ideal) x W1 s (ix2 e k) := by
  have hr := hs e
  unfold val_main_v35
  rw [Cert.KernelIdeal.Ops.read_gather_S25x128_S75x1_S75x128_1_0_n_n_0_1_1128,
    Cert.ReferenceIdeal.Ops.read_gather_S204800x128_S75x1_S75x128_1_0_n_n_0_1_1128]
  have e1 : (ix2 (⟨min (kIx s (ix2 e (0 : Fin 1))).toInt.toNat 24, by omega⟩ : Fin 25) k : S25x128.Idx) = ix2 (rowOf s hs e) k := by
    congr 1; refine Fin.ext ?_; show min _ 24 = _; rw [kIx_col s hs e]; unfold rowOf; simp only; omega
  have e2 : (ix2 (⟨min (val_main_v34 (F := Ideal) s (ix2 e (0 : Fin 1))).toInt.toNat 204799, by omega⟩ : Fin 204800) k : S204800x128.Idx)
      = ix2 (⟨(rowOf s hs e).val, by have := (rowOf s hs e).isLt; omega⟩ : Fin 204800) k := by
    congr 1; refine Fin.ext ?_; show min _ 204799 = _; rw [v34_col s hs e]; unfold rowOf; simp only; omega
  rw [e1, e2, kP1_apply, v2_row]
  refine Finset.sum_congr rfl fun t _ => ?_
  congr 2; funext a; refine Fin.ext ?_
  have hlt := (rowOf s hs e).isLt
  match a with
  | ⟨0, _⟩ => show (0 : ℕ) = (rowOf s hs e).val / 25; omega
  | ⟨1, _⟩ => rfl
  | ⟨2, _⟩ => show (rowOf s hs e).val = (rowOf s hs e).val % 25; omega

/-! ## The first layer's edge sums and output -/

theorem agg1_eq (x : FVec Ideal S8192x256x25 .f32) (W1 : FVec Ideal S256x128 .f32) (s d : IVec S75 32) (hs : InRange s) :
    kAgg1 x W1 s d = val_main_v40 (F := Ideal) x W1 s d := by
  have hu : mulf (broadcastInDim S75x128 ![0, 1] bcast_S75x1_S75x128_0_1 (broadcastInDim S75x1 ![0] bcast_S75_S75x1_0 (kNorm (F := Ideal) s d)))
      (Host.gather Cert.KernelIdeal.gather_S25x128_S75x1_S75x128_1_0_n_n_0_1_1128 (kP1 x W1) (kIx s)) = val_main_v37 (F := Ideal) x W1 s d := by
    funext i
    obtain ⟨e, k, rfl⟩ : ∃ (e : Fin 75) (k : Fin 128), i = ix2 e k := ⟨i 0, i 1, eq_ix2 i⟩
    rw [val_main_v37_apply]
    show FloatOps.mulf _ _ = FloatOps.mulf _ _
    rw [gather1_eq x W1 s hs e k]
    rfl
  unfold kAgg1 val_main_v40
  exact congrArg (Host.scatterAdd scatter_S25x128_S75x1_S75x128_1_0_0_1 (val_main_v38 (F := Ideal)) (val_main_v39 (F := Ideal) d)) hu

/-- Rows 0 … 24 of the reference's first-layer output are the kernel's 25 rows. -/
theorem a1_row (x : FVec Ideal S8192x256x25 .f32) (W1 : FVec Ideal S256x128 .f32) (b1 : FVec Ideal S128 .f32) (s d : IVec S75 32)
    (hs : InRange s) (f : Fin 25) (k : Fin 128) :
    kA1 x W1 b1 s d (ix2 f k) = val_main_v46 (F := Ideal) x W1 b1 s d (ix2 (⟨f.val, by omega⟩ : Fin 204800) k) := by
  rw [val_main_v46_apply, val_main_v45_apply]
  unfold kA1
  show FloatOps.maximumf (FloatOps.addf (kAgg1 x W1 s d (ix2 f k)) _) _ = _
  rw [agg1_eq x W1 s d hs]
  have hc : val_main_v42 (F := Ideal) x W1 s d (ix2 (⟨f.val, by omega⟩ : Fin 204800) k) = val_main_v40 (F := Ideal) x W1 s d (ix2 f k) := by
    unfold val_main_v42
    exact concatenate_pair_apply_left 0 _ _ concatenates_S25x128_S204775x128_S204800x128_d0 (ix2 (⟨f.val, by omega⟩ : Fin 204800) k) rfl (ix2 f k)
      (fun b => by match b with | ⟨0, _⟩ => rfl | ⟨1, _⟩ => rfl)
  rw [hc]
  have hb : val_main_v44 (F := Ideal) b1 (ix2 (⟨f.val, by omega⟩ : Fin 204800) k) = b1 (ix1 k) := rowBias_apply _ _ b1 _ k
  have hz : val_main_call0_v0 (F := Ideal) (ix2 (⟨f.val, by omega⟩ : Fin 204800) k) = constant (F := Ideal) S_ .f32 0x00000000#32 ix0 := by
    unfold val_main_call0_v0 val_main_call0_cst
    exact splat_apply _ _ _
  rw [hb, hz, rowBias_apply, splat_apply]

/-! ## The second layer -/

/-- The reference's second-layer product at a row below 25 is the kernel's. -/
theorem p2_row (x : FVec Ideal S8192x256x25 .f32) (W1 : FVec Ideal S256x128 .f32) (b1 : FVec Ideal S128 .f32) (W2 : FVec Ideal S128x64 .f32)
    (s d : IVec S75 32) (hs : InRange s) (f : Fin 25) (g : Fin 64) :
    Host.dotGeneral Cert.KernelIdeal.dot_S25x128_S128x64_S25x64_1_0_0_1_n_n none (kA1 x W1 b1 s d) W2 (ix2 f g)
      = val_main_v47 (F := Ideal) x W1 b1 W2 s d (ix2 (⟨f.val, by omega⟩ : Fin 204800) g) := by
  rw [val_main_v47_apply]
  simp only [Host.dotGeneral]
  rw [Ideal.dotGeneral_apply, Cert.KernelIdeal.Ops.sum_dot_S25x128_S128x64_S25x64_1_0_0_1_n_n]
  refine Finset.sum_congr rfl fun k _ => ?_
  have hl : lidx_main_v47 (ix2 (⟨f.val, by omega⟩ : Fin 204800) g) k = ix2 (⟨f.val, by omega⟩ : Fin 204800) k := by
    funext a; refine Fin.ext ?_
    match a with
    | ⟨0, _⟩ => rfl
    | ⟨1, _⟩ => rfl
  have hr : ridx_main_v47 (ix2 (⟨f.val, by omega⟩ : Fin 204800) g) k = ix2 k g := by
    funext a; refine Fin.ext ?_
    match a with
    | ⟨0, _⟩ => rfl
    | ⟨1, _⟩ => rfl
  rw [hl, hr, a1_row x W1 b1 s d hs f k]

theorem gather2_eq (x : FVec Ideal S8192x256x25 .f32) (W1 : FVec Ideal S256x128 .f32) (b1 : FVec Ideal S128 .f32) (W2 : FVec Ideal S128x64 .f32)
    (s d : IVec S75 32) (hs : InRange s) (e : Fin 75) (g : Fin 64) :
    Host.gather Cert.KernelIdeal.gather_S25x64_S75x1_S75x64_1_0_n_n_0_1_164 (Host.dotGeneral Cert.KernelIdeal.dot_S25x128_S128x64_S25x64_1_0_0_1_n_n none (kA1 x W1 b1 s d) W2) (kIx s) (ix2 e g)
      = val_main_v80 (F := Ideal) x W1 b1 W2 s d (ix2 e g) := by
  have hr := hs e
  unfold val_main_v80
  rw [Cert.KernelIdeal.Ops.read_gather_S25x64_S75x1_S75x64_1_0_n_n_0_1_164,
    Cert.ReferenceIdeal.Ops.read_gather_S204800x64_S75x1_S75x64_1_0_n_n_0_1_164]
  have e1 : (ix2 (⟨min (kIx s (ix2 e (0 : Fin 1))).toInt.toNat 24, by omega⟩ : Fin 25) g : S25x64.Idx) = ix2 (rowOf s hs e) g := by
    congr 1; refine Fin.ext ?_; show min _ 24 = _; rw [kIx_col s hs e]; unfold rowOf; simp only; omega
  have e2 : (ix2 (⟨min (val_main_v79 (F := Ideal) s (ix2 e (0 : Fin 1))).toInt.toNat 204799, by omega⟩ : Fin 204800) g : S204800x64.Idx)
      = ix2 (⟨(rowOf s hs e).val, by have := (rowOf s hs e).isLt; omega⟩ : Fin 204800) g := by
    congr 1; refine Fin.ext ?_; show min _ 204799 = _; rw [v79_col s hs e]; unfold rowOf; simp only; omega
  rw [e1, e2]
  exact p2_row x W1 b1 W2 s d hs (rowOf s hs e) g

theorem agg2_eq (x : FVec Ideal S8192x256x25 .f32) (W1 : FVec Ideal S256x128 .f32) (b1 : FVec Ideal S128 .f32) (W2 : FVec Ideal S128x64 .f32)
    (s d : IVec S75 32) (hs : InRange s) :
    kAgg2 x W1 b1 W2 s d = val_main_v85 (F := Ideal) x W1 b1 W2 s d := by
  have hu : mulf (broadcastInDim S75x64 ![0, 1] bcast_S75x1_S75x64_0_1 (broadcastInDim S75x1 ![0] bcast_S75_S75x1_0 (kNorm (F := Ideal) s d)))
      (Host.gather Cert.KernelIdeal.gather_S25x64_S75x1_S75x64_1_0_n_n_0_1_164 (Host.dotGeneral Cert.KernelIdeal.dot_S25x128_S128x64_S25x64_1_0_0_1_n_n none (kA1 x W1 b1 s d) W2) (kIx s)) = val_main_v82 (F := Ideal) x W1 b1 W2 s d := by
    funext i
    obtain ⟨e, g, rfl⟩ : ∃ (e : Fin 75) (g : Fin 64), i = ix2 e g := ⟨i 0, i 1, eq_ix2 i⟩
    rw [val_main_v82_apply]
    show FloatOps.mulf _ _ = FloatOps.mulf _ _
    rw [gather2_eq x W1 b1 W2 s d hs e g]
    rfl
  unfold kAgg2 val_main_v85
  exact congrArg (Host.scatterAdd scatter_S25x64_S75x1_S75x64_1_0_0_1 (val_main_v83 (F := Ideal)) (val_main_v84 (F := Ideal) d)) hu

/-- The kernel's one row of 1600 is row 0 of the reference's 8192 × 1600 re-laid second-layer output. -/
theorem row0_eq (x : FVec Ideal S8192x256x25 .f32) (W1 : FVec Ideal S256x128 .f32) (b1 : FVec Ideal S128 .f32) (W2 : FVec Ideal S128x64 .f32)
    (b2 : FVec Ideal S64 .f32) (s d : IVec S75 32) (hs : InRange s) (j : Fin 1600) :
    kRow x W1 b1 W2 b2 s d (ix2 (0 : Fin 1) j) = val_main_v91 (F := Ideal) x W1 b1 W2 b2 s d (ix2 (0 : Fin 8192) j) := by
  rw [val_main_v91_apply, val_main_v90_apply]
  unfold kRow
  rw [shapeCast_apply _ _ (ix2 (0 : Fin 1) j) (ix2 (⟨j.val / 64, by omega⟩ : Fin 25) (⟨j.val % 64, by omega⟩ : Fin 64)) (by
    rw [Shape.rowMajor_val_two, Shape.rowMajor_val_two]
    show j.val / 64 * 64 + j.val % 64 = 0 * 1600 + j.val
    omega)]
  have hi : idx_main_v91 (ix2 (0 : Fin 8192) j) = ix2 (⟨j.val / 64, by omega⟩ : Fin 204800) (⟨j.val % 64, by omega⟩ : Fin 64) := by
    funext a; refine Fin.ext ?_
    match a with
    | ⟨0, _⟩ => show (0 * 1600 + j.val) / 64 = j.val / 64; omega
    | ⟨1, _⟩ => show (0 * 1600 + j.val) % 64 = j.val % 64; omega
  rw [hi]
  show FloatOps.addf (kAgg2 x W1 b1 W2 s d _) _ = FloatOps.addf _ _
  rw [agg2_eq x W1 b1 W2 s d hs]
  have hc : val_main_v87 (F := Ideal) x W1 b1 W2 s d (ix2 (⟨j.val / 64, by omega⟩ : Fin 204800) (⟨j.val % 64, by omega⟩ : Fin 64))
      = val_main_v85 (F := Ideal) x W1 b1 W2 s d (ix2 (⟨j.val / 64, by omega⟩ : Fin 25) (⟨j.val % 64, by omega⟩ : Fin 64)) := by
    unfold val_main_v87
    exact concatenate_pair_apply_left 0 _ _ concatenates_S25x64_S204775x64_S204800x64_d0 _ rfl
      (ix2 (⟨j.val / 64, by omega⟩ : Fin 25) (⟨j.val % 64, by omega⟩ : Fin 64)) (fun b => by match b with | ⟨0, _⟩ => rfl | ⟨1, _⟩ => rfl)
  have hb : val_main_v89 (F := Ideal) b2 (ix2 (⟨j.val / 64, by omega⟩ : Fin 204800) (⟨j.val % 64, by omega⟩ : Fin 64))
      = b2 (ix1 (⟨j.val % 64, by omega⟩ : Fin 64)) := rowBias_apply _ _ b2 _ _
  rw [hc, hb, rowBias_apply]

end Cert.Bridge

end
-- ==== Proof.Head.lean ====
/-
  The head, and the program's last step.

  Per batch entry the head takes the 1600 second-layer values r of its 25 nodes to
  Σ_k max(Σ_j r_j · Wm1[j, k] + bm1[k], 0) · Wm2[k, 0] + bm2[0].  The reference applies it to every
  row of its 8192 × 1600 array; the kernel's host recomputation applies it to its one row.  The
  kernel program's last step writes that scalar over row 0 of the launch's result and leaves the
  other rows alone.
-/
import proofs.«157473_j46127948759115_2_alg».proof.Proof.Graph

set_option maxRecDepth 16384

noncomputable section

namespace Cert.Bridge

open Idealize.ShloMosaic Idealize.ShloMosaic.TcCoe Idealize.ShloMosaic.ValueIdx
open Cert.ReferenceIdeal Cert.ReferenceIdeal.Gen Cert.ReferenceIdeal.Read
open Cert.KernelIdeal.Hand (kIx kDeg kNorm kP1 kAgg1 kA1 kAgg2 kRow kHead0 kOut)

/-- The zero word's value. -/
abbrev zf : EReal := FloatOps.ofBits (F := Ideal) .f32 0x00000000#32

/-- The head of one batch entry, from its 1600 second-layer values. -/
def head (r : Fin 1600 → EReal) (Wm1 : FVec Ideal S1600x64 .f32) (bm1 : FVec Ideal S64 .f32) (Wm2 : FVec Ideal S64x1 .f32)
    (bm2 : FVec Ideal S1 .f32) : EReal :=
  (∑ k : Fin 64, max ((∑ j : Fin 1600, r j * Wm1 (ix2 j k)) + bm1 (ix1 k)) zf * Wm2 (ix2 k (0 : Fin 1))) + bm2 (ix1 (0 : Fin 1))

/-- A vector given a leading unit axis reads, at (0, q), the vector at q. -/
theorem unitRow_apply {α : Type} {C : ℕ} (h1 : (⟨1, ![C]⟩ : Shape).BroadcastsInDim ⟨2, ![1, C]⟩ ![1]) (b : (⟨1, ![C]⟩ : Shape).Idx → α)
    (q : Fin C) : broadcastInDim ⟨2, ![1, C]⟩ ![1] h1 b (ix2 (0 : Fin 1) q) = b (ix1 q) :=
  broadcastInDim_apply ![1] h1 _ (ix2 (0 : Fin 1) q) (ix1 q) (fun a => by
    match a with
    | ⟨0, _⟩ => show q.val = if C = 1 then 0 else q.val; split <;> omega)

/-- Every row of the reference's result is the head of that row of its re-laid second-layer output. -/
theorem ref_head (x : FVec Ideal S8192x256x25 .f32) (W1 : FVec Ideal S256x128 .f32) (b1 : FVec Ideal S128 .f32) (W2 : FVec Ideal S128x64 .f32)
    (b2 : FVec Ideal S64 .f32) (Wm1 : FVec Ideal S1600x64 .f32) (bm1 : FVec Ideal S64 .f32) (Wm2 : FVec Ideal S64x1 .f32) (bm2 : FVec Ideal S1 .f32)
    (s d : IVec S75 32) (b : Fin 8192) :
    val_main_v100 (F := Ideal) x W1 b1 W2 b2 Wm1 bm1 Wm2 bm2 s d (ix2 b (0 : Fin 1))
      = head (fun j => val_main_v91 (F := Ideal) x W1 b1 W2 b2 s d (ix2 b j)) Wm1 bm1 Wm2 bm2 := by
  rw [val_main_v100_apply, val_main_v97_apply]
  unfold head
  show _ + _ = _ + _
  congr 1
  · refine Finset.sum_congr rfl fun k _ => ?_
    have hl : lidx_main_v97 (ix2 b (0 : Fin 1)) k = ix2 b k := by
      funext a; refine Fin.ext ?_
      match a with
      | ⟨0, _⟩ => rfl
      | ⟨1, _⟩ => rfl
    have hr : ridx_main_v97 (ix2 b (0 : Fin 1)) k = ix2 k (0 : Fin 1) := by
      funext a; refine Fin.ext ?_
      match a with
      | ⟨0, _⟩ => rfl
      | ⟨1, _⟩ => rfl
    rw [hl, hr, val_main_v96_apply, val_main_v95_apply, val_main_v92_apply]
    have hz : val_main_call1_v0 (F := Ideal) (ix2 b k) = zf := by
      unfold val_main_call1_v0 val_main_call1_cst
      exact splat_apply _ _ _
    have hb : val_main_v94 (F := Ideal) bm1 (ix2 b k) = bm1 (ix1 k) := rowBias_apply _ _ bm1 _ _
    rw [hz, hb]
    show max (_ + _) zf * _ = max (_ + _) zf * _
    congr 3
    refine Finset.sum_congr rfl fun j _ => ?_
    have hl2 : lidx_main_v92 (ix2 b k) j = ix2 b j := by
      funext a; refine Fin.ext ?_
      match a with
      | ⟨0, _⟩ => rfl
      | ⟨1, _⟩ => rfl
    have hr2 : ridx_main_v92 (ix2 b k) j = ix2 j k := by
      funext a; refine Fin.ext ?_
      match a with
      | ⟨0, _⟩ => rfl
      | ⟨1, _⟩ => rfl
    rw [hl2, hr2]
  · exact rowBias_apply _ _ bm2 _ _

/-- The kernel's host recomputation applies the head to its one row. -/
theorem ker_head (r : FVec Ideal Cert.KernelIdeal.S1x1600 .f32) (Wm1 : FVec Ideal S1600x64 .f32) (bm1 : FVec Ideal S64 .f32) (Wm2 : FVec Ideal S64x1 .f32)
    (bm2 : FVec Ideal S1 .f32) :
    kHead0 r Wm1 bm1 Wm2 bm2 (ix2 (0 : Fin 1) (0 : Fin 1)) = head (fun j => r (ix2 (0 : Fin 1) j)) Wm1 bm1 Wm2 bm2 := by
  unfold kHead0 head
  simp only [Host.dotGeneral]
  show _ + _ = _ + _
  congr 1
  · rw [Ideal.dotGeneral_apply, Cert.KernelIdeal.Ops.sum_dot_S1x64_S64x1_S1x1_1_0_0_1_n_n]
    refine Finset.sum_congr rfl fun k _ => ?_
    congr 1
    show max (_ + _) _ = max (_ + _) zf
    rw [splat_apply, unitRow_apply, Ideal.dotGeneral_apply, Cert.KernelIdeal.Ops.sum_dot_S1x1600_S1600x64_S1x64_1_0_0_1_n_n]
    rfl
  · exact unitRow_apply _ bm2 _

end Cert.Bridge

end
-- ==== Proof.Dense.lean ====
/-
  Nodes 25 and up: the reference takes the identity path.

  For node n ≥ 25 the reference's concatenations read the second piece, the products' rows 25 and up
  shifted back, so the first layer's output at row n is max(Σ_t x[n / 25, t, n % 25] · W1[t, k] + b1[k], 0)
  and the second layer's is Σ_k of that times W2[k, g], plus b2[g].  Row b ≥ 1 of the re-laid
  8192 × 1600 array consists of nodes 25·b … 25·b + 24, all of them ≥ 25.
-/
import proofs.«157473_j46127948759115_2_alg».proof.Proof.Head

set_option maxRecDepth 16384

noncomputable section

namespace Cert.Bridge

open Idealize.ShloMosaic Idealize.ShloMosaic.TcCoe Idealize.ShloMosaic.ValueIdx
open Cert.ReferenceIdeal Cert.ReferenceIdeal.Gen Cert.ReferenceIdeal.Read

/-- The identity path's first layer at node n. -/
def id1 (x : FVec Ideal S8192x256x25 .f32) (W1 : FVec Ideal S256x128 .f32) (b1 : FVec Ideal S128 .f32) (n : Fin 204800) (k : Fin 128) : EReal :=
  max ((∑ t : Fin 256, x (ix3 (⟨n.val / 25, by omega⟩ : Fin 8192) t (⟨n.val % 25, by omega⟩ : Fin 25)) * W1 (ix2 t k)) + b1 (ix1 k)) zf

/-- The identity path's second layer at node n. -/
def id2 (x : FVec Ideal S8192x256x25 .f32) (W1 : FVec Ideal S256x128 .f32) (b1 : FVec Ideal S128 .f32) (W2 : FVec Ideal S128x64 .f32)
    (b2 : FVec Ideal S64 .f32) (n : Fin 204800) (g : Fin 64) : EReal :=
  (∑ k : Fin 128, id1 x W1 b1 n k * W2 (ix2 k g)) + b2 (ix1 g)

theorem ref_a1_dense (x : FVec Ideal S8192x256x25 .f32) (W1 : FVec Ideal S256x128 .f32) (b1 : FVec Ideal S128 .f32) (s d : IVec S75 32)
    (n : Fin 204800) (hn : 25 ≤ n.val) (k : Fin 128) :
    val_main_v46 (F := Ideal) x W1 b1 s d (ix2 n k) = id1 x W1 b1 n k := by
  rw [val_main_v46_apply, val_main_v45_apply]
  have hc : val_main_v42 (F := Ideal) x W1 s d (ix2 n k) = val_main_v2 (F := Ideal) x W1 (ix2 n k) := by
    unfold val_main_v42
    rw [concatenate_pair_apply_right 0 _ _ concatenates_S25x128_S204775x128_S204800x128_d0 (ix2 n k) rfl rfl
      (ix2 (⟨n.val - 25, by omega⟩ : Fin 204775) k)
      (fun b hb => by
        match b with
        | ⟨0, _⟩ => exact absurd rfl hb
        | ⟨1, _⟩ => rfl)
      (by show n.val - 25 + 25 = n.val; omega)]
    rw [val_main_v41_apply]
    congr 1; funext a; refine Fin.ext ?_
    match a with
    | ⟨0, _⟩ => show 25 + (n.val - 25) = n.val; omega
    | ⟨1, _⟩ => rfl
  have hb : val_main_v44 (F := Ideal) b1 (ix2 n k) = b1 (ix1 k) := rowBias_apply _ _ b1 _ _
  have hz : val_main_call0_v0 (F := Ideal) (ix2 n k) = zf := by
    unfold val_main_call0_v0 val_main_call0_cst
    exact splat_apply _ _ _
  rw [hc, hb, hz, v2_row]
  rfl

theorem ref_a2_dense (x : FVec Ideal S8192x256x25 .f32) (W1 : FVec Ideal S256x128 .f32) (b1 : FVec Ideal S128 .f32) (W2 : FVec Ideal S128x64 .f32)
    (b2 : FVec Ideal S64 .f32) (s d : IVec S75 32) (n : Fin 204800) (hn : 25 ≤ n.val) (g : Fin 64) :
    val_main_v90 (F := Ideal) x W1 b1 W2 b2 s d (ix2 n g) = id2 x W1 b1 W2 b2 n g := by
  rw [val_main_v90_apply]
  have hc : val_main_v87 (F := Ideal) x W1 b1 W2 s d (ix2 n g) = val_main_v47 (F := Ideal) x W1 b1 W2 s d (ix2 n g) := by
    unfold val_main_v87
    rw [concatenate_pair_apply_right 0 _ _ concatenates_S25x64_S204775x64_S204800x64_d0 (ix2 n g) rfl rfl
      (ix2 (⟨n.val - 25, by omega⟩ : Fin 204775) g)
      (fun b hb => by
        match b with
        | ⟨0, _⟩ => exact absurd rfl hb
        | ⟨1, _⟩ => rfl)
      (by show n.val - 25 + 25 = n.val; omega)]
    rw [val_main_v86_apply]
    congr 1; funext a; refine Fin.ext ?_
    match a with
    | ⟨0, _⟩ => show 25 + (n.val - 25) = n.val; omega
    | ⟨1, _⟩ => rfl
  have hb : val_main_v89 (F := Ideal) b2 (ix2 n g) = b2 (ix1 g) := rowBias_apply _ _ b2 _ _
  rw [hc, hb, val_main_v47_apply]
  unfold id2
  show _ + _ = _ + _
  congr 1
  refine Finset.sum_congr rfl fun k _ => ?_
  have hl : lidx_main_v47 (ix2 n g) k = ix2 n k := by
    funext a; refine Fin.ext ?_
    match a with
    | ⟨0, _⟩ => rfl
    | ⟨1, _⟩ => rfl
  have hr : ridx_main_v47 (ix2 n g) k = ix2 k g := by
    funext a; refine Fin.ext ?_
    match a with
    | ⟨0, _⟩ => rfl
    | ⟨1, _⟩ => rfl
  rw [hl, hr, ref_a1_dense x W1 b1 s d n hn k]

/-- Row b ≥ 1 of the reference's re-laid array is the identity path's second layer of its 25 nodes. -/
theorem ref_row_dense (x : FVec Ideal S8192x256x25 .f32) (W1 : FVec Ideal S256x128 .f32) (b1 : FVec Ideal S128 .f32) (W2 : FVec Ideal S128x64 .f32)
    (b2 : FVec Ideal S64 .f32) (s d : IVec S75 32) (b : Fin 8192) (hb : 1 ≤ b.val) (j : Fin 1600) :
    val_main_v91 (F := Ideal) x W1 b1 W2 b2 s d (ix2 b j)
      = id2 x W1 b1 W2 b2 (⟨(b.val * 1600 + j.val) / 64, by omega⟩ : Fin 204800) (⟨(b.val * 1600 + j.val) % 64, by omega⟩ : Fin 64) := by
  rw [val_main_v91_apply]
  have hi : idx_main_v91 (ix2 b j) = ix2 (⟨(b.val * 1600 + j.val) / 64, by omega⟩ : Fin 204800) (⟨(b.val * 1600 + j.val) % 64, by omega⟩ : Fin 64) := by
    funext a; refine Fin.ext ?_
    match a with
    | ⟨0, _⟩ => rfl
    | ⟨1, _⟩ => rfl
  rw [hi]
  exact ref_a2_dense x W1 b1 W2 b2 s d _ (by show 25 ≤ (b.val * 1600 + j.val) / 64; omega) _

end Cert.Bridge

end
-- ==== Proof.KIBlocks.lean ====
/-
  The launch's blocks read off the argument arrays.

  At grid point t the slab is batch rows 64·t … 64·t + 63 of x; the eight parameter blocks are the
  whole weight matrices (narrowed, which is the identity on the extended reals) and the bias vectors
  with a leading unit axis, the same at every point.  In-block row r of the re-laid slab is node
  1600·t + r, so a block's second-layer values are the identity path's at those nodes.
-/
import proofs.«157473_j46127948759115_2_alg».proof.Proof.KIRun
import proofs.«157473_j46127948759115_2_alg».proof.Proof.KIPay
import proofs.«157473_j46127948759115_2_alg».proof.Proof.Dense
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx Idealize.ShloMosaic.StableHlo
open Idealize.SL Idealize.SL.Sem
open Idealize.ShloMosaic.Rounds
open Idealize.ShloMosaic.Pipeline (Dat Cfg Window BodyObligation cellOf)
open Cert.KernelIdeal.Pay (blkOut blk1 blk2 pay_apply)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-! ## The parameters as the launch finds them -/

/-- Narrowing is the identity on the extended reals. -/
theorem V_main_call0_v0 (c : Dev nD) : (V m c main_call0_v0 : S256x128.Idx → EReal) = (m ((c : Thread nD τ).loc main_arg1)) := by
  dsimp only [V, V0]
  simp only [hostOps0, List.flatten_cons, List.flatten_nil, List.append_nil]
  after_results
  rfl

/-- Narrowing is the identity on the extended reals. -/
theorem V_main_call0_v1 (c : Dev nD) : (V m c main_call0_v1 : S128x64.Idx → EReal) = (m ((c : Thread nD τ).loc main_arg3)) := by
  dsimp only [V, V0]
  simp only [hostOps0, List.flatten_cons, List.flatten_nil, List.append_nil]
  after_results
  rfl

/-- Narrowing is the identity on the extended reals. -/
theorem V_main_call0_v2 (c : Dev nD) : (V m c main_call0_v2 : S1600x64.Idx → EReal) = (m ((c : Thread nD τ).loc main_arg5)) := by
  dsimp only [V, V0]
  simp only [hostOps0, List.flatten_cons, List.flatten_nil, List.append_nil]
  after_results
  rfl

/-- Narrowing is the identity on the extended reals. -/
theorem V_main_call0_v3 (c : Dev nD) : (V m c main_call0_v3 : S64x1.Idx → EReal) = (m ((c : Thread nD τ).loc main_arg7)) := by
  dsimp only [V, V0]
  simp only [hostOps0, List.flatten_cons, List.flatten_nil, List.append_nil]
  after_results
  rfl

/-- A bias vector given a leading unit axis. -/
theorem V_main_call0_v4 (c : Dev nD) : (V m c main_call0_v4 : S1x128.Idx → EReal) = shapeCast S1x128 (m ((c : Thread nD τ).loc main_arg2)) shapeCasts_S128_S1x128 := by
  dsimp only [V, V0]
  simp only [hostOps0, List.flatten_cons, List.flatten_nil, List.append_nil]
  after_results
  rfl

/-- A bias vector given a leading unit axis. -/
theorem V_main_call0_v5 (c : Dev nD) : (V m c main_call0_v5 : S1x64.Idx → EReal) = shapeCast S1x64 (m ((c : Thread nD τ).loc main_arg4)) shapeCasts_S64_S1x64 := by
  dsimp only [V, V0]
  simp only [hostOps0, List.flatten_cons, List.flatten_nil, List.append_nil]
  after_results
  rfl

/-- A bias vector given a leading unit axis. -/
theorem V_main_call0_v6 (c : Dev nD) : (V m c main_call0_v6 : S1x64.Idx → EReal) = shapeCast S1x64 (m ((c : Thread nD τ).loc main_arg6)) shapeCasts_S64_S1x64 := by
  dsimp only [V, V0]
  simp only [hostOps0, List.flatten_cons, List.flatten_nil, List.append_nil]
  after_results
  rfl

/-- A bias vector given a leading unit axis. -/
theorem V_main_call0_v7 (c : Dev nD) : (V m c main_call0_v7 : S1x1.Idx → EReal) = shapeCast S1x1 (m ((c : Thread nD τ).loc main_arg8)) shapeCasts_S1_S1x1 := by
  dsimp only [V, V0]
  simp only [hostOps0, List.flatten_cons, List.flatten_nil, List.append_nil]
  after_results
  rfl

/-! ## The grid's index maps -/

theorem idx_facts : ∀ t : Fin cfg0.N,
    win0_0.index t (0 : Fin 3) = t.val ∧ win0_0.index t (1 : Fin 3) = 0 ∧ win0_0.index t (2 : Fin 3) = 0
    ∧ win0_9.index t (0 : Fin 2) = t.val ∧ win0_9.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-! ## The blocks, read off the arguments -/

/-- The slab at point t is batch rows 64·t … 64·t + 63. -/
theorem blk0_read (c : Dev nD) (t : Fin cfg0.N) (a : Fin 64) (u : Fin 256) (f : Fin 25) :
    iblk m c 0 t (ix3 a u f) = (m ((c : Thread nD τ).loc main_arg0)) (ix3 (⟨t.val * 64 + a.val, by have := t.isLt; have h : cfg0.N = 128 := N_0; omega⟩ : Fin 8192) u f) := by
  obtain ⟨e0, e1, e2, -⟩ := idx_facts t
  show V m c main_arg0 (((cfg0.win 0).blk t).view.emb (ix3 a u f)) = _
  rw [V_main_arg0]
  congr 1; funext ax; apply Fin.ext
  match ax with
  | ⟨0, _⟩ => show win0_0.index t (0 : Fin 3) * 64 + 1 * a.val = t.val * 64 + a.val; omega
  | ⟨1, _⟩ => show win0_0.index t (1 : Fin 3) * 256 + 1 * u.val = u.val; omega
  | ⟨2, _⟩ => show win0_0.index t (2 : Fin 3) * 25 + 1 * f.val = f.val; omega

theorem blk1_read (c : Dev nD) (t : Fin cfg0.N) (p : Fin 256) (q : Fin 128) :
    iblk m c 1 t (ix2 p q) = (m ((c : Thread nD τ).loc main_arg1)) (ix2 p q) := by
  have hf := idx_facts t
  show V m c main_call0_v0 (((cfg0.win 1).blk t).view.emb (ix2 p q)) = _
  rw [V_main_call0_v0]
  congr 1; funext ax; apply Fin.ext
  match ax with
  | ⟨0, _⟩ => show win0_1.index t (0 : Fin 2) * 256 + 1 * p.val = p.val; omega
  | ⟨1, _⟩ => show win0_1.index t (1 : Fin 2) * 128 + 1 * q.val = q.val; omega

theorem blk3_read (c : Dev nD) (t : Fin cfg0.N) (p : Fin 128) (q : Fin 64) :
    iblk m c 3 t (ix2 p q) = (m ((c : Thread nD τ).loc main_arg3)) (ix2 p q) := by
  have hf := idx_facts t
  show V m c main_call0_v1 (((cfg0.win 3).blk t).view.emb (ix2 p q)) = _
  rw [V_main_call0_v1]
  congr 1; funext ax; apply Fin.ext
  match ax with
  | ⟨0, _⟩ => show win0_3.index t (0 : Fin 2) * 128 + 1 * p.val = p.val; omega
  | ⟨1, _⟩ => show win0_3.index t (1 : Fin 2) * 64 + 1 * q.val = q.val; omega

theorem blk5_read (c : Dev nD) (t : Fin cfg0.N) (p : Fin 1600) (q : Fin 64) :
    iblk m c 5 t (ix2 p q) = (m ((c : Thread nD τ).loc main_arg5)) (ix2 p q) := by
  have hf := idx_facts t
  show V m c main_call0_v2 (((cfg0.win 5).blk t).view.emb (ix2 p q)) = _
  rw [V_main_call0_v2]
  congr 1; funext ax; apply Fin.ext
  match ax with
  | ⟨0, _⟩ => show win0_5.index t (0 : Fin 2) * 1600 + 1 * p.val = p.val; omega
  | ⟨1, _⟩ => show win0_5.index t (1 : Fin 2) * 64 + 1 * q.val = q.val; omega

theorem blk7_read (c : Dev nD) (t : Fin cfg0.N) (p : Fin 64) (q : Fin 1) :
    iblk m c 7 t (ix2 p q) = (m ((c : Thread nD τ).loc main_arg7)) (ix2 p q) := by
  have hf := idx_facts t
  show V m c main_call0_v3 (((cfg0.win 7).blk t).view.emb (ix2 p q)) = _
  rw [V_main_call0_v3]
  congr 1; funext ax; apply Fin.ext
  match ax with
  | ⟨0, _⟩ => show win0_7.index t (0 : Fin 2) * 64 + 1 * p.val = p.val; omega
  | ⟨1, _⟩ => show win0_7.index t (1 : Fin 2) * 1 + 1 * q.val = q.val; omega

theorem blk2_read (c : Dev nD) (t : Fin cfg0.N) (q : Fin 128) :
    iblk m c 2 t (ix2 (0 : Fin 1) q) = (m ((c : Thread nD τ).loc main_arg2)) (ix1 q) := by
  have hf := idx_facts t
  show V m c main_call0_v4 (((cfg0.win 2).blk t).view.emb (ix2 (0 : Fin 1) q)) = _
  rw [V_main_call0_v4]
  refine shapeCast_apply _ _ _ (ix1 q) ?_
  rw [Shape.rowMajor_val_one, Shape.rowMajor_val_two]
  show q.val = (win0_2.index t (0 : Fin 2) * 1 + 1 * 0) * 128 + (win0_2.index t (1 : Fin 2) * 128 + 1 * q.val)
  omega

theorem blk4_read (c : Dev nD) (t : Fin cfg0.N) (q : Fin 64) :
    iblk m c 4 t (ix2 (0 : Fin 1) q) = (m ((c : Thread nD τ).loc main_arg4)) (ix1 q) := by
  have hf := idx_facts t
  show V m c main_call0_v5 (((cfg0.win 4).blk t).view.emb (ix2 (0 : Fin 1) q)) = _
  rw [V_main_call0_v5]
  refine shapeCast_apply _ _ _ (ix1 q) ?_
  rw [Shape.rowMajor_val_one, Shape.rowMajor_val_two]
  show q.val = (win0_4.index t (0 : Fin 2) * 1 + 1 * 0) * 64 + (win0_4.index t (1 : Fin 2) * 64 + 1 * q.val)
  omega

theorem blk6_read (c : Dev nD) (t : Fin cfg0.N) (q : Fin 64) :
    iblk m c 6 t (ix2 (0 : Fin 1) q) = (m ((c : Thread nD τ).loc main_arg6)) (ix1 q) := by
  have hf := idx_facts t
  show V m c main_call0_v6 (((cfg0.win 6).blk t).view.emb (ix2 (0 : Fin 1) q)) = _
  rw [V_main_call0_v6]
  refine shapeCast_apply _ _ _ (ix1 q) ?_
  rw [Shape.rowMajor_val_one, Shape.rowMajor_val_two]
  show q.val = (win0_6.index t (0 : Fin 2) * 1 + 1 * 0) * 64 + (win0_6.index t (1 : Fin 2) * 64 + 1 * q.val)
  omega

theorem blk8_read (c : Dev nD) (t : Fin cfg0.N) (q : Fin 1) :
    iblk m c 8 t (ix2 (0 : Fin 1) q) = (m ((c : Thread nD τ).loc main_arg8)) (ix1 q) := by
  have hf := idx_facts t
  show V m c main_call0_v7 (((cfg0.win 8).blk t).view.emb (ix2 (0 : Fin 1) q)) = _
  rw [V_main_call0_v7]
  refine shapeCast_apply _ _ _ (ix1 q) ?_
  rw [Shape.rowMajor_val_one, Shape.rowMajor_val_two]
  show q.val = (win0_8.index t (0 : Fin 2) * 1 + 1 * 0) * 1 + (win0_8.index t (1 : Fin 2) * 1 + 1 * q.val)
  omega

/-! ## The result array as one function of the arguments -/

/-- Entry b: the head of the identity path's second-layer values of nodes 25·b … 25·b + 24. -/
def Gout (c : Dev nD) : S8192x1.Idx → EReal := fun i =>
  Cert.Bridge.head (fun j => Cert.Bridge.id2 (m ((c : Thread nD τ).loc main_arg0)) (m ((c : Thread nD τ).loc main_arg1)) (m ((c : Thread nD τ).loc main_arg2)) (m ((c : Thread nD τ).loc main_arg3)) (m ((c : Thread nD τ).loc main_arg4))
      (⟨((i 0).val * 1600 + j.val) / 64, by have := idx2_lt0 i; omega⟩ : Fin 204800) (⟨((i 0).val * 1600 + j.val) % 64, by omega⟩ : Fin 64))
    (m ((c : Thread nD τ).loc main_arg5)) (m ((c : Thread nD τ).loc main_arg6)) (m ((c : Thread nD τ).loc main_arg7)) (m ((c : Thread nD τ).loc main_arg8))

/-- In-block row r of point t is node 1600·t + r: the block's second layer is the identity path's. -/
theorem blk2_eq (c : Dev nD) (t : Fin cfg0.N) (r : Fin 1600) (g : Fin 64) (n : Fin 204800) (hn : n.val = t.val * 1600 + r.val) :
    blk2 (iblk m c 0 t) (iblk m c 1 t) (iblk m c 2 t) (iblk m c 3 t) (iblk m c 4 t) r g
      = Cert.Bridge.id2 (m ((c : Thread nD τ).loc main_arg0)) (m ((c : Thread nD τ).loc main_arg1)) (m ((c : Thread nD τ).loc main_arg2)) (m ((c : Thread nD τ).loc main_arg3)) (m ((c : Thread nD τ).loc main_arg4)) n g := by
  unfold blk2 blk1 Cert.Bridge.id2 Cert.Bridge.id1
  simp only [blk0_read, blk1_read, blk2_read, blk3_read, blk4_read]
  congr 1
  refine Finset.sum_congr rfl fun k _ => ?_
  congr 3
  refine Finset.sum_congr rfl fun u _ => ?_
  congr 2; funext ax; apply Fin.ext
  match ax with
  | ⟨0, _⟩ => show t.val * 64 + r.val / 25 = n.val / 25; omega
  | ⟨1, _⟩ => rfl
  | ⟨2, _⟩ => show r.val % 25 = n.val % 25; omega

end Cert.KernelIdeal.Hand

end
-- ==== Proof.KIFlush.lean ====
/-
  The launch's result array.

  What the body stores at point t, entry (bb, 0), is the head of the block's second-layer rows
  regrouped into row bb, which (in-block row r being node 1600·t + r) is the head of the identity
  path's second-layer values of nodes 25·(64·t + bb) … 25·(64·t + bb) + 24: entry 64·t + bb of one
  function of the arguments.  The 128 blocks tile the 8192 × 1 array, so after the run the array is
  that function.
-/
import proofs.«157473_j46127948759115_2_alg».proof.Proof.KIBlocks

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx Idealize.ShloMosaic.StableHlo
open Idealize.SL Idealize.SL.Sem
open Idealize.ShloMosaic.Rounds
open Idealize.ShloMosaic.Pipeline (Dat Cfg Window BodyObligation cellOf)
open Cert.KernelIdeal.Pay (blkOut blk1 blk2 pay_apply)

variable (m : (ℓ : Loc nD τ sig) → Buf (Elt Ideal) ℓ) (ρ : Dev nD → PrngReg)

/-! ## The stored block over any nine inputs -/

/-- The block the body stores, at entry (bb, 0): the one store covers the block and every load reads a whole buffer. -/
theorem outBlk_apply (x0 : FVec Ideal S64x256x25 .f32) (x1 : FVec Ideal S256x128 .bf16) (x2 : FVec Ideal S1x128 .f32) (x3 : FVec Ideal S128x64 .bf16)
    (x4 : FVec Ideal S1x64 .f32) (x5 : FVec Ideal S1600x64 .bf16) (x6 : FVec Ideal S1x64 .f32) (x7 : FVec Ideal S64x1 .bf16) (x8 : FVec Ideal S1x1 .f32) (bb : Fin 64) :
    outBlk (F := Ideal) x0 x1 x2 x3 x4 x5 x6 x7 x8 (ix2 bb (0 : Fin 1)) = blkOut x0 x1 x2 x3 x4 x5 x6 x7 x8 bb := by
  unfold outBlk
  rw [View.canon_unit_zero hz2]
  simp only [View.ld_unit_zero (S := S64x256x25) hz3, View.ld_unit_zero (S := S256x128) hz2, View.ld_unit_zero (S := S1x128) hz2,
    View.ld_unit_zero (S := S128x64) hz2, View.ld_unit_zero (S := S1x64) hz2, View.ld_unit_zero (S := S1600x64) hz2,
    View.ld_unit_zero (S := S64x1) hz2, View.ld_unit_zero (S := S1x1) hz2]
  exact pay_apply x0 x1 x2 x3 x4 x5 x6 x7 x8 bb

/-! ## At the launch's blocks -/

/-- `Gout` at batch entry b. -/
theorem Gout_apply (c : Dev nD) (b : Fin 8192) :
    Gout m c (ix2 b (0 : Fin 1)) = Cert.Bridge.head (fun j => Cert.Bridge.id2 (m ((c : Thread nD τ).loc main_arg0)) (m ((c : Thread nD τ).loc main_arg1)) (m ((c : Thread nD τ).loc main_arg2)) (m ((c : Thread nD τ).loc main_arg3)) (m ((c : Thread nD τ).loc main_arg4))
        (⟨(b.val * 1600 + j.val) / 64, by omega⟩ : Fin 204800) (⟨(b.val * 1600 + j.val) % 64, by omega⟩ : Fin 64))
      (m ((c : Thread nD τ).loc main_arg5)) (m ((c : Thread nD τ).loc main_arg6)) (m ((c : Thread nD τ).loc main_arg7)) (m ((c : Thread nD τ).loc main_arg8)) := rfl

set_option maxHeartbeats 4000000 in
/-- The block's head at point t, in-block batch row bb, is `Gout` at batch row 64·t + bb. -/
theorem blkOut_eq (c : Dev nD) (t : Fin cfg0.N) (bb : Fin 64) (b : Fin 8192) (hb : b.val = t.val * 64 + bb.val) :
    blkOut (iblk m c 0 t) (iblk m c 1 t) (iblk m c 2 t) (iblk m c 3 t) (iblk m c 4 t) (iblk m c 5 t) (iblk m c 6 t) (iblk m c 7 t)
      (iblk m c 8 t) bb = Gout m c (ix2 b (0 : Fin 1)) := by
  rw [Gout_apply]
  have hrow : ∀ j : Fin 1600,
      blk2 (iblk m c 0 t) (iblk m c 1 t) (iblk m c 2 t) (iblk m c 3 t) (iblk m c 4 t)
          (⟨(bb.val * 1600 + j.val) / 64, by omega⟩ : Fin 1600) (⟨(bb.val * 1600 + j.val) % 64, by omega⟩ : Fin 64)
        = Cert.Bridge.id2 (m ((c : Thread nD τ).loc main_arg0)) (m ((c : Thread nD τ).loc main_arg1)) (m ((c : Thread nD τ).loc main_arg2)) (m ((c : Thread nD τ).loc main_arg3)) (m ((c : Thread nD τ).loc main_arg4))
          (⟨(b.val * 1600 + j.val) / 64, by omega⟩ : Fin 204800) (⟨(b.val * 1600 + j.val) % 64, by omega⟩ : Fin 64) := by
    intro j
    have hg : (⟨(b.val * 1600 + j.val) % 64, by omega⟩ : Fin 64) = ⟨(bb.val * 1600 + j.val) % 64, by omega⟩ :=
      Fin.ext (by show (b.val * 1600 + j.val) % 64 = (bb.val * 1600 + j.val) % 64; omega)
    rw [hg]
    exact blk2_eq m c t _ _ _ (by
      show (b.val * 1600 + j.val) / 64 = t.val * 1600 + (bb.val * 1600 + j.val) / 64
      omega)
  unfold blkOut Cert.Bridge.head
  simp only [blk5_read, blk6_read, blk7_read, blk8_read, hrow]

/-- Where in-block entry (bb, 0) of point t's block sits in the array. -/
theorem emb9 (t : Fin cfg0.N) (bb : Fin 64) (b : Fin 8192) (hb : b.val = t.val * 64 + bb.val) :
    ((cfg0.win 9).blk t).view.emb (ix2 bb (0 : Fin 1)) = ix2 b (0 : Fin 1) := by
  obtain ⟨-, -, -, e3, e4, -⟩ := idx_facts t
  funext ax; apply Fin.ext
  match ax with
  | ⟨0, _⟩ => show win0_9.index t (0 : Fin 2) * 64 + 1 * bb.val = b.val; omega
  | ⟨1, _⟩ => show win0_9.index t (1 : Fin 2) * 1 + 1 * 0 = 0; omega

/-- What point t writes back is block t of `Gout`. -/
theorem flushed_eq (c : Dev nD) (t : Fin cfg0.N) :
    (dats m 0 c).flushed 9 t = ((cfg0.win 9).blk t).view.read (Elt Ideal) (Gout m c) := by
  show (cfg0.win 9).cut (grid0.coords t) ((dats m 0 c).after 9 t) = _
  rw [after_9]
  generalize hX : outBlk (F := Ideal) (iblk m c 0 t) (iblk m c 1 t) (iblk m c 2 t) (iblk m c 3 t) (iblk m c 4 t) (iblk m c 5 t)
    (iblk m c 6 t) (iblk m c 7 t) (iblk m c 8 t) = X
  funext y
  obtain ⟨bb, z, rfl⟩ : ∃ (bb : Fin 64) (z : Fin 1), y = ix2 bb z := ⟨y 0, y 1, eq_ix2 y⟩
  obtain rfl : z = 0 := Subsingleton.elim _ _
  have hb : (⟨t.val * 64 + bb.val, by have := t.isLt; have h : cfg0.N = 128 := N_0; omega⟩ : Fin 8192).val = t.val * 64 + bb.val := rfl
  show X (ix2 bb (0 : Fin 1)) = Gout m c (((cfg0.win 9).blk t).view.emb (ix2 bb (0 : Fin 1)))
  rw [emb9 t bb _ hb, ← hX, outBlk_apply]
  exact blkOut_eq m c t bb _ hb

/-! ## The blocks tile the array -/

theorem mem_blk9 (t : Fin cfg0.N) (i : S8192x1.Idx) :
    i ∈ ((cfg0.win 9).blk t).view.set ↔ ∀ a : Fin 2, win0_9.index t a * S64x1.size a ≤ (i a).val ∧ (i a).val < win0_9.index t a * S64x1.size a + S64x1.size a := by
  show i ∈ ((View.whole main_call0_v8).slice (win0_9.rect t)).set ↔ _
  rw [View.set_slice_whole, Rect.mem_set_unit]
  exact Iff.rfl

theorem cover9 (i : S8192x1.Idx) : ∃ t : Fin cfg0.N, (cfg0.win 9).flush t = true ∧ i ∈ ((cfg0.win 9).blk t).view.set := by
  have h0 := idx2_lt0 i
  have h1 := idx2_lt1 i
  have hN : cfg0.N = 128 := N_0
  refine ⟨⟨(i 0).val / 64, by omega⟩, flush0_9 _, ?_⟩
  obtain ⟨-, -, -, e3, e4, -⟩ := idx_facts ⟨(i 0).val / 64, by omega⟩
  rw [mem_blk9]
  intro a
  match a with
  | ⟨0, _⟩ => show win0_9.index _ (0 : Fin 2) * 64 ≤ (i 0).val ∧ (i 0).val < win0_9.index _ (0 : Fin 2) * 64 + 64; simp only at e3; omega
  | ⟨1, _⟩ => show win0_9.index _ (1 : Fin 2) * 1 ≤ (i 1).val ∧ (i 1).val < win0_9.index _ (1 : Fin 2) * 1 + 1; omega

/-- The launch's result array after the run. -/
theorem final9 (c : Dev nD) : (dats m 0 c).arrAt 9 cfg0.N = Gout m c :=
  (dats m 0 c).arrAt_eq_of_cover 9 (Gout m c) (fun t _ => flushed_eq m c t) (cover9)

end Cert.KernelIdeal.Hand

end
-- ==== Proof.KITail.lean ====
/-
  The ninety-four host operations after the launch compute, of the buffers they find, exactly the
  staged recomputation of batch entry 0 written over row 0 of the launch's result.
-/
import proofs.«157473_j46127948759115_2_alg».proof.Proof.KIMain
import proofs.«157473_j46127948759115_2_alg».proof.Proof.KIStages
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

set_option maxRecDepth 200000 in
set_option maxHeartbeats 40000000 in
/-- What the later operations leave in the result buffer, from any buffer contents `W`. -/
theorem tail_result (W : Valuation τ sig (Elt F)) :
    StableHlo.after (hostOps1 (F := F)) W (Proc.devRef .tc main_v0)
      = kOut (W (Proc.devRef .tc main_call0_v8))
          (kHead0 (kRow (W (Proc.devRef .tc main_arg0)) (W (Proc.devRef .tc main_arg1)) (W (Proc.devRef .tc main_arg2))
              (W (Proc.devRef .tc main_arg3)) (W (Proc.devRef .tc main_arg4)) (W (Proc.devRef .tc main_arg9)) (W (Proc.devRef .tc main_arg10)))
            (W (Proc.devRef .tc main_arg5)) (W (Proc.devRef .tc main_arg6)) (W (Proc.devRef .tc main_arg7)) (W (Proc.devRef .tc main_arg8))) := by
  after_results_simp
  unfold kOut kHead0 kRow kAgg2 kA1 kAgg1 kP1 kNorm kDeg kIx
  rfl

end Cert.KernelIdeal.Hand

end
-- ==== Proof.KIResult.lean ====
/-
  The kernel program's result: what the later host operations make of the launch's array.
-/
import proofs.«157473_j46127948759115_2_alg».proof.Proof.KIFlush
import proofs.«157473_j46127948759115_2_alg».proof.Proof.KITail

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx Idealize.ShloMosaic.StableHlo
open Idealize.SL Idealize.SL.Sem
open Idealize.ShloMosaic.Rounds
open Idealize.ShloMosaic.Pipeline (Dat Cfg Window BodyObligation cellOf)
open Cert.KernelIdeal.Pay (blkOut blk1 blk2 pay_apply)

variable (m : (ℓ : Loc nD τ sig) → Buf (Elt Ideal) ℓ) (ρ : Dev nD → PrngReg)

/-! ## The program's result -/

set_option maxHeartbeats 40000000 in
/-- What the later operations leave in the result buffer: entry 0's recomputed scalar over row 0 of `Gout`. -/
theorem result_eq (c : Dev nD) :
    Pipeline.afterTail₀ cfgs (dats m) 0 (V0 m) [hostOps1] c main_v0
      = kOut (F := Ideal) (Gout m c) (kHead0 (F := Ideal) (kRow (F := Ideal) (m ((c : Thread nD τ).loc main_arg0)) (m ((c : Thread nD τ).loc main_arg1)) (m ((c : Thread nD τ).loc main_arg2)) (m ((c : Thread nD τ).loc main_arg3)) (m ((c : Thread nD τ).loc main_arg4))
          (m ((c : Thread nD τ).loc main_arg9)) (m ((c : Thread nD τ).loc main_arg10))) (m ((c : Thread nD τ).loc main_arg5)) (m ((c : Thread nD τ).loc main_arg6)) (m ((c : Thread nD τ).loc main_arg7)) (m ((c : Thread nD τ).loc main_arg8))) := by
  unfold Pipeline.afterTail₀
  simp only [List.flatten_cons, List.flatten_nil, List.append_nil]
  rw [tail_result]
  have h8 : Pipeline.withArrays spec0 c (V0 m c) (fun w => (dats m 0 c).arrAt w cfg0.N) (Proc.devRef .tc main_call0_v8) = Gout m c :=
    (Pipeline.withArrays_arr spec0 launch0.win.arr_inj c _ _ 9).trans (final9 m c)
  have h0 : Pipeline.withArrays spec0 c (V0 m c) (fun w => (dats m 0 c).arrAt w cfg0.N) (Proc.devRef .tc main_arg0) = (m ((c : Thread nD τ).loc main_arg0)) :=
    (Pipeline.withArrays_arr spec0 launch0.win.arr_inj c _ _ 0).trans ((((dats m) 0 c).arrAt_in 0 rfl _).trans ((A_eq m c 0).trans (V_main_arg0 m c)))
  have ha1 : Pipeline.withArrays spec0 c (V0 m c) (fun w => (dats m 0 c).arrAt w cfg0.N) (Proc.devRef .tc main_arg1) = (m ((c : Thread nD τ).loc main_arg1)) :=
    (Pipeline.withArrays_of_ne _ c (V0 m c) _ main_arg1 (by exact (by decide : ∀ w, Pipeline.arrRef spec0 w ≠ main_arg1))).trans (V_main_arg1 m c)
  have ha2 : Pipeline.withArrays spec0 c (V0 m c) (fun w => (dats m 0 c).arrAt w cfg0.N) (Proc.devRef .tc main_arg2) = (m ((c : Thread nD τ).loc main_arg2)) :=
    (Pipeline.withArrays_of_ne _ c (V0 m c) _ main_arg2 (by exact (by decide : ∀ w, Pipeline.arrRef spec0 w ≠ main_arg2))).trans (V_main_arg2 m c)
  have ha3 : Pipeline.withArrays spec0 c (V0 m c) (fun w => (dats m 0 c).arrAt w cfg0.N) (Proc.devRef .tc main_arg3) = (m ((c : Thread nD τ).loc main_arg3)) :=
    (Pipeline.withArrays_of_ne _ c (V0 m c) _ main_arg3 (by exact (by decide : ∀ w, Pipeline.arrRef spec0 w ≠ main_arg3))).trans (V_main_arg3 m c)
  have ha4 : Pipeline.withArrays spec0 c (V0 m c) (fun w => (dats m 0 c).arrAt w cfg0.N) (Proc.devRef .tc main_arg4) = (m ((c : Thread nD τ).loc main_arg4)) :=
    (Pipeline.withArrays_of_ne _ c (V0 m c) _ main_arg4 (by exact (by decide : ∀ w, Pipeline.arrRef spec0 w ≠ main_arg4))).trans (V_main_arg4 m c)
  have ha5 : Pipeline.withArrays spec0 c (V0 m c) (fun w => (dats m 0 c).arrAt w cfg0.N) (Proc.devRef .tc main_arg5) = (m ((c : Thread nD τ).loc main_arg5)) :=
    (Pipeline.withArrays_of_ne _ c (V0 m c) _ main_arg5 (by exact (by decide : ∀ w, Pipeline.arrRef spec0 w ≠ main_arg5))).trans (V_main_arg5 m c)
  have ha6 : Pipeline.withArrays spec0 c (V0 m c) (fun w => (dats m 0 c).arrAt w cfg0.N) (Proc.devRef .tc main_arg6) = (m ((c : Thread nD τ).loc main_arg6)) :=
    (Pipeline.withArrays_of_ne _ c (V0 m c) _ main_arg6 (by exact (by decide : ∀ w, Pipeline.arrRef spec0 w ≠ main_arg6))).trans (V_main_arg6 m c)
  have ha7 : Pipeline.withArrays spec0 c (V0 m c) (fun w => (dats m 0 c).arrAt w cfg0.N) (Proc.devRef .tc main_arg7) = (m ((c : Thread nD τ).loc main_arg7)) :=
    (Pipeline.withArrays_of_ne _ c (V0 m c) _ main_arg7 (by exact (by decide : ∀ w, Pipeline.arrRef spec0 w ≠ main_arg7))).trans (V_main_arg7 m c)
  have h_8 : Pipeline.withArrays spec0 c (V0 m c) (fun w => (dats m 0 c).arrAt w cfg0.N) (Proc.devRef .tc main_arg8) = (m ((c : Thread nD τ).loc main_arg8)) :=
    (Pipeline.withArrays_of_ne _ c (V0 m c) _ main_arg8 (by exact (by decide : ∀ w, Pipeline.arrRef spec0 w ≠ main_arg8))).trans (V_main_arg8 m c)
  have ha9 : Pipeline.withArrays spec0 c (V0 m c) (fun w => (dats m 0 c).arrAt w cfg0.N) (Proc.devRef .tc main_arg9) = (m ((c : Thread nD τ).loc main_arg9)) :=
    (Pipeline.withArrays_of_ne _ c (V0 m c) _ main_arg9 (by exact (by decide : ∀ w, Pipeline.arrRef spec0 w ≠ main_arg9))).trans (V_main_arg9 m c)
  have ha10 : Pipeline.withArrays spec0 c (V0 m c) (fun w => (dats m 0 c).arrAt w cfg0.N) (Proc.devRef .tc main_arg10) = (m ((c : Thread nD τ).loc main_arg10)) :=
    (Pipeline.withArrays_of_ne _ c (V0 m c) _ main_arg10 (by exact (by decide : ∀ w, Pipeline.arrRef spec0 w ≠ main_arg10))).trans (V_main_arg10 m c)
  rw [h8, h0, ha1, ha2, ha3, ha4, ha5, ha6, ha7, h_8, ha9, ha10]

end Cert.KernelIdeal.Hand

end
-- ==== Proof.Final.lean ====
/-
  The two results, entry by entry.

  The kernel program's result is the launch's array with row 0 replaced by the recomputed scalar.
  Row 0: the recomputed scalar is the head of the kernel's one row, which is row 0 of the reference's
  re-laid second-layer output, whose head is the reference's row 0.  Row b ≥ 1: the launch's entry is
  the head of the identity path's second-layer values of nodes 25·b … 25·b + 24, which is what the
  reference computes for nodes 25 and up.
-/
import proofs.«157473_j46127948759115_2_alg».proof.Proof.Dense

set_option maxRecDepth 16384

noncomputable section

namespace Cert.KernelIdeal.Hand

open Cert.KernelIdeal Cert.KernelIdeal.Gen Idealize.ShloMosaic Idealize.ShloMosaic.TcCoe Idealize.ShloMosaic.ValueIdx

/-- The one update of the last scatter lands at entry (0, 0). -/
theorem sc_idx : scatter_S8192x1_S1_S1_0_0_0_0.resultIdx? (S1.rowMajor.symm ⟨0, by decide⟩) (broadcastInDim S1 ![] bcast_S_S1 (constantI S_ 32 0#32))
    = some (ix2 (0 : Fin 8192) (0 : Fin 1)) := by
  decide

/-- The program's result at batch entry b: the recomputed scalar at b = 0, the launch's entry elsewhere. -/
theorem kOut_apply (o : FVec Ideal S8192x1 .f32) (h : FVec Ideal S1x1 .f32) (b : Fin 8192) :
    kOut o h (ix3 b (0 : Fin 1) (0 : Fin 1)) = if b.val = 0 then h (ix2 (0 : Fin 1) (0 : Fin 1)) else o (ix2 b (0 : Fin 1)) := by
  unfold kOut
  rw [broadcastInDim_apply ![0, 1] _ _ (ix3 b (0 : Fin 1) (0 : Fin 1)) (ix2 b (0 : Fin 1)) (fun a => by
    match a with
    | ⟨0, _⟩ => rfl
    | ⟨1, _⟩ => rfl)]
  unfold Host.scatter
  have hn : List.finRange S1.numel = [⟨0, by decide⟩] := by decide
  rw [hn, List.foldl_cons, List.foldl_nil]
  have hsc := sc_idx
  generalize scatter_S8192x1_S1_S1_0_0_0_0.resultIdx? (S1.rowMajor.symm ⟨0, by decide⟩)
    (broadcastInDim S1 ![] bcast_S_S1 (constantI S_ 32 0#32)) = opt at hsc ⊢
  subst hsc
  show (if ix2 b (0 : Fin 1) = ix2 (0 : Fin 8192) (0 : Fin 1) then shapeCast S1 h shapeCasts_S1x1_S1 (S1.rowMajor.symm ⟨0, by decide⟩) else o (ix2 b (0 : Fin 1))) = _
  by_cases hb : b.val = 0
  · have hb0 : b = 0 := Fin.ext hb
    subst hb0
    rw [if_pos rfl, if_pos hb]
    exact shapeCast_apply h _ _ (ix2 (0 : Fin 1) (0 : Fin 1)) (by
      have h1 := (S1x1.rowMajor (ix2 (0 : Fin 1) (0 : Fin 1))).isLt
      have h2 := (S1.rowMajor (S1.rowMajor.symm ⟨0, by decide⟩)).isLt
      have e1 : S1x1.numel = 1 := by decide
      have e2 : S1.numel = 1 := by decide
      omega)
  · rw [if_neg hb, if_neg]
    intro heq
    exact hb (congrArg Fin.val (congrFun heq 0))

end Cert.KernelIdeal.Hand

namespace Cert.Bridge

open Idealize.ShloMosaic Idealize.ShloMosaic.TcCoe Idealize.ShloMosaic.ValueIdx
open Cert.ReferenceIdeal Cert.ReferenceIdeal.Gen Cert.ReferenceIdeal.Read
open Cert.KernelIdeal.Hand (kIx kDeg kNorm kP1 kAgg1 kA1 kAgg2 kRow kHead0 kOut)

/-- With the source endpoints in range, the kernel program's result — the launch's array `G`, whose
    every entry is the identity path's head, with row 0 replaced — is the reference's. -/
theorem bridge (x : FVec Ideal S8192x256x25 .f32) (W1 : FVec Ideal S256x128 .f32) (b1 : FVec Ideal S128 .f32) (W2 : FVec Ideal S128x64 .f32)
    (b2 : FVec Ideal S64 .f32) (Wm1 : FVec Ideal S1600x64 .f32) (bm1 : FVec Ideal S64 .f32) (Wm2 : FVec Ideal S64x1 .f32) (bm2 : FVec Ideal S1 .f32)
    (s d : IVec S75 32) (hs : InRange s) (G : FVec Ideal S8192x1 .f32)
    (hG : ∀ b : Fin 8192, G (ix2 b (0 : Fin 1)) = head (fun j => id2 x W1 b1 W2 b2
      (⟨(b.val * 1600 + j.val) / 64, by omega⟩ : Fin 204800) (⟨(b.val * 1600 + j.val) % 64, by omega⟩ : Fin 64)) Wm1 bm1 Wm2 bm2) :
    kOut G (kHead0 (kRow x W1 b1 W2 b2 s d) Wm1 bm1 Wm2 bm2) = val_main_v101 (F := Ideal) x W1 b1 W2 b2 Wm1 bm1 Wm2 bm2 s d := by
  funext i
  obtain ⟨b, z1, z2, rfl⟩ : ∃ (b : Fin 8192) (z1 z2 : Fin 1), i = ix3 b z1 z2 := ⟨i 0, i 1, i 2, eq_ix3 i⟩
  obtain rfl : z1 = 0 := Subsingleton.elim _ _
  obtain rfl : z2 = 0 := Subsingleton.elim _ _
  rw [val_main_v101_apply]
  have hi : idx_main_v101 (ix3 b (0 : Fin 1) (0 : Fin 1)) = ix2 b (0 : Fin 1) := by
    funext a; refine Fin.ext ?_
    match a with
    | ⟨0, _⟩ => rfl
    | ⟨1, _⟩ => rfl
  rw [hi, ref_head, Cert.KernelIdeal.Hand.kOut_apply]
  by_cases hb : b.val = 0
  · have hb0 : b = 0 := Fin.ext hb
    subst hb0
    rw [if_pos hb, ker_head]
    congr 1; funext j
    exact row0_eq x W1 b1 W2 b2 s d hs j
  · rw [if_neg hb, hG b]
    congr 1; funext j
    exact (ref_row_dense x W1 b1 W2 b2 s d b (by omega) j).symm

end Cert.Bridge

end
-- ==== Proof.lean ====
/-
  The certificate of the fused graph-convolution head against its jnp reference.

  Both programs map a batch of 8192 inputs x[b] (256 × 25) to one scalar each.  Node n = 25·b + f
  carries the row x[b, ·, f]; two graph-convolution layers (a matrix product, a normalised sum over
  the 75 listed edges for the 25 indexed nodes and the identity for every other node, a bias; a
  maximum with zero after the first) are followed, per batch entry, by a two-layer head on the
  25 × 64 layer-two rows of its nodes.  The edges' endpoints are below 25, so only batch entry 0
  ever meets the edge sum.  The kernel computes the identity path for every batch entry in one
  launch over 128 blocks of 64 entries, recomputes entry 0 through the edge sums from the 25 rows
  of x[0] on the host, and writes that scalar over row 0; the reference computes all 204800 node
  rows on the host and takes the edge sums from rows it gathers out of them.  With the source
  endpoints in [0, 25) the rows gathered are the same rows, and every entry of the two results is
  the same sum of the same products on the extended reals.

  The three frames: the kernel's two (at the word level and idealized) are the launch's run with
  its host operations around it; the reference's is its run with the result forgotten.  The ideal
  pass rewrote nothing, so there is nothing to preserve.
-/
import proofs.«157473_j46127948759115_2_alg».proof.Defs
import proofs.«157473_j46127948759115_2_alg».proof.Proof.Gen.Kernel
import proofs.«157473_j46127948759115_2_alg».proof.Proof.Gen.KernelIdeal
import proofs.«157473_j46127948759115_2_alg».proof.Proof.Gen.ReferenceIdeal
import proofs.«157473_j46127948759115_2_alg».proof.Proof.Gen.Pre_finite_inputs
import proofs.«157473_j46127948759115_2_alg».proof.Proof.KRun
import proofs.«157473_j46127948759115_2_alg».proof.Proof.KIRun
import proofs.«157473_j46127948759115_2_alg».proof.Proof.RefSide
import proofs.«157473_j46127948759115_2_alg».proof.Proof.KIResult
import proofs.«157473_j46127948759115_2_alg».proof.Proof.Final
import Idealize.ShloMosaic.Lib.ReduceAll
import Idealize.ShloMosaic.Lib.Affine
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The precondition's last conjunct: every source endpoint is a node number, in [0, 25). -/
theorem inRange_of_pre (m : (ℓ : Loc Cert.KernelIdeal.nD Cert.KernelIdeal.τ Cert.KernelIdeal.sig) → Buf (Elt Ideal) ℓ)
    (h : Cert.Pre_KernelIdeal m) (c : Dev Cert.KernelIdeal.nD) : Cert.Bridge.InRange (m ((c.tc : Thread Cert.KernelIdeal.nD Cert.KernelIdeal.τ).loc Cert.KernelIdeal.main_arg9)) := by
  intro e
  have h0 := congrFun (h c) ValueIdx.ix0
  dsimp only [Cert.Pre_finite_inputs.fn, Cert.Pre_finite_inputs.fn_part1, Cert.Pre_finite_inputs.fn_part2] at h0
  have h1 := (IntOp.andi_eq_one.mp h0).2
  haveI : Subsingleton Cert.Pre_finite_inputs.S_.Idx := ⟨fun a b => funext fun d => d.elim0⟩
  have h2 := Host.reduce_andi_all _ _ _ _ ValueIdx.ix0 h1 (ValueIdx.ix1 e)
  have h3 := IntOp.andi_eq_one.mp h2
  have h4 := IntOp.cmpi_sge.mp h3.1
  have h5 := IntOp.cmpi_slt.mp h3.2
  have z0 : (0#32 : BitVec 32).toInt = 0 := by decide
  have z25 : (25#32 : BitVec 32).toInt = 25 := by decide
  rw [Cert.Bridge.splat_apply] at h4 h5
  have h4' : (0#32 : BitVec 32).toInt ≤ _ := h4
  have h5' : _ < (25#32 : BitVec 32).toInt := h5
  rw [z0] at h4'
  rw [z25] at h5'
  exact ⟨h4', h5'⟩

/-- Both programs end with the reference's result term of the (agreeing) arguments: the kernel's
    launch array with row 0 replaced is that term, entry by entry, once the source endpoints are in range. -/
theorem algebraic : Cert.algebraic_KernelIdeal_ReferenceIdeal := by
  intro m ρ m' ρ' hpre hagree
  refine ⟨fun c => Cert.ReferenceIdeal.Read.val_main_v101 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · refine (θ_run Cert.KernelIdeal.defs _ _).mono (fun r h c => ⟨(h c).1.trans ?_, (h c).2⟩) (Cert.KernelIdeal.Hand.run_result m ρ)
    rw [Cert.KernelIdeal.Hand.result_eq]
    exact Cert.Bridge.bridge _ _ _ _ _ _ _ _ _ _ _ (inRange_of_pre m hpre c) _ (fun b => rfl)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v101_eq]
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2.1,
      (hagree c).2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
